-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v86) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S2x1600000 : Shape := ⟨2, ![2, 1600000]⟩
abbrev S100000 : Shape := ⟨1, ![100000]⟩
abbrev S7x128 : Shape := ⟨2, ![7, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S7x128 : S_.BroadcastsInDim S7x128 (![] : Fin 0 → Fin S7x128.rank)
  reducesTo_S7x128_S_d0_1 : S7x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S128 .f32) (main_arg14 : FVec F S128x128 .f32) (main_arg15 : FVec F S128x1 .f32) (main_arg16 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x1 .f32 := Host.absf main_arg15
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg16 main_v63 main_v67

def fn_part2 {F : FTy → Type} [FloatOps F] (main_arg9 : FVec F S128x1 .f32) (main_arg10 : FVec F S1 .f32) (main_arg11 : FVec F S128x1 .f32) (main_arg12 : FVec F S128x128 .f32) (main_arg13 : FVec F S128 .f32) (main_arg14 : FVec F S128x128 .f32) (main_arg15 : FVec F S128x1 .f32) (main_arg16 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_v48 main_v49 main_v50

def fn_part1 {F : FTy → Type} [FloatOps F] (main_arg6 : FVec F S128x128 .f32) (main_arg7 : FVec F S128 .f32) (main_arg8 : FVec F S128x128 .f32) (main_arg9 : FVec F S128x1 .f32) (main_arg10 : FVec F S1 .f32) (main_arg11 : FVec F S128x1 .f32) (main_arg12 : FVec F S128x128 .f32) (main_arg13 : FVec F S128 .f32) (main_arg14 : FVec F S128x128 .f32) (main_arg15 : FVec F S128x1 .f32) (main_arg16 : FVec F S1 .f32) (main_v13 : IVec S_ 1) (main_v16 : IVec S7x128 1) : IVec S_ 1 :=
  let main_c_5 : IVec S_ 1 := constantI S_ 1 1#1
  let main_v17 : IVec S_ 1 := (fun x v => Host.reduce IntOp.andi x v reducesTo_S7x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x7 .f32) (main_arg1 : IVec S2x1600000 32) (main_arg2 : IVec S100000 32) (main_arg3 : FVec F S7x128 .f32) (main_arg4 : FVec F S128 .f32) (main_arg5 : FVec F S7x128 .f32) (main_arg6 : FVec F S128x128 .f32) (main_arg7 : FVec F S128 .f32) (main_arg8 : FVec F S128x128 .f32) (main_arg9 : FVec F S128x1 .f32) (main_arg10 : FVec F S1 .f32) (main_arg11 : FVec F S128x1 .f32) (main_arg12 : FVec F S128x128 .f32) (main_arg13 : FVec F S128 .f32) (main_arg14 : FVec F S128x128 .f32) (main_arg15 : FVec F S128x1 .f32) (main_arg16 : FVec F S1 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S7x128 .f32 := Host.absf main_arg3
  let main_cst_0 : FVec F S_ .f32 := constant S_ .f32 0x7F800000#32
  let main_v5 : FVec F S7x128 .f32 := broadcastInDim S7x128 ![] bcast_S_S7x128 main_cst_0
  let main_v6 : IVec S7x128 1 := cmpf .olt main_v4 main_v5
  let main_c_1 : IVec S_ 1 := constantI S_ 1 1#1
  let main_v7 : IVec S_ 1 := (fun x v => Host.reduce IntOp.andi x v reducesTo_S7x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S7x128 .f32 := Host.absf main_arg5
  let main_cst_4 : FVec F S_ .f32 := constant S_ .f32 0x7F800000#32
  let main_v15 : FVec F S7x128 .f32 := broadcastInDim S7x128 ![] bcast_S_S7x128 main_cst_4
  let main_v16 : IVec S7x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x7 : Shape := ⟨2, ![100000, 7]⟩
abbrev S2x1600000 : Shape := ⟨2, ![2, 1600000]⟩
abbrev S100000 : Shape := ⟨1, ![100000]⟩
abbrev S7x128 : Shape := ⟨2, ![7, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x7 : Shape := ⟨2, ![1600000, 7]⟩
abbrev S1x128 : Shape := ⟨2, ![1, 128]⟩
abbrev S100000x128 : Shape := ⟨2, ![100000, 128]⟩
abbrev S5000x7 : Shape := ⟨2, ![5000, 7]⟩
abbrev S5000x128 : Shape := ⟨2, ![5000, 128]⟩
abbrev S1600000x128 : Shape := ⟨2, ![1600000, 128]⟩
abbrev S1x1 : Shape := ⟨2, ![1, 1]⟩
abbrev S5000x1 : Shape := ⟨2, ![5000, 1]⟩
abbrev S800x125 : Shape := ⟨2, ![800, 125]⟩
abbrev S125 : Shape := ⟨1, ![125]⟩
abbrev S1x125 : Shape := ⟨2, ![1, 125]⟩
abbrev S16x1 : Shape := ⟨2, ![16, 1]⟩
abbrev S16 : Shape := ⟨1, ![16]⟩

abbrev nBuf : Space → Nat
  | .hbm => 123
  | .vmem => 41
  | .smem => 0
  | _ => 0

abbrev bufTy : (tb : Table) → Fin (tcTables nBuf tb) → BufTy
  | .hbm, ⟨0, _⟩ => ⟨S100000x7, .f32⟩
  | .hbm, ⟨1, _⟩ => ⟨S2x1600000, .i32⟩
  | .hbm, ⟨2, _⟩ => ⟨S100000, .i32⟩
  | .hbm, ⟨3, _⟩ => ⟨S7x128, .f32⟩
  | .hbm, ⟨4, _⟩ => ⟨S128, .f32⟩
  | .hbm, ⟨5, _⟩ => ⟨S7x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x1, .f32⟩
  | .hbm, ⟨10, _⟩ => ⟨S1, .f32⟩
  | .hbm, ⟨11, _⟩ => ⟨S128x1, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x1, .f32⟩
  | .hbm, ⟨16, _⟩ => ⟨S1, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .i1⟩
  | .hbm, ⟨38, _⟩ => ⟨S100000x1, .f32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .i1⟩
  | .hbm, ⟨43, _⟩ => ⟨S100000, .i1⟩
  | .hbm, ⟨44, _⟩ => ⟨S100000, .f32⟩
  | .hbm, ⟨45, _⟩ => ⟨S100000x1, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x7, .f32⟩
  | .hbm, ⟨55, _⟩ => ⟨S_, .f32⟩
  | .hbm, ⟨56, _⟩ => ⟨S100000x7, .f32⟩
  | .hbm, ⟨57, _⟩ => ⟨S1600000x1, .i32⟩
  | .hbm, ⟨58, _⟩ => ⟨S100000x7, .f32⟩
  | .hbm, ⟨59, _⟩ => ⟨S100000x1, .f32⟩
  | .hbm, ⟨60, _⟩ => ⟨S100000x7, .f32⟩
  | .hbm, ⟨61, _⟩ => ⟨S100000x7, .f32⟩
  | .hbm, ⟨62, _⟩ => ⟨S1x128, .f32⟩
  | .hbm, ⟨63, _⟩ => ⟨S100000x128, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S_, .f32⟩
  | .hbm, ⟨74, _⟩ => ⟨S100000x128, .f32⟩
  | .hbm, ⟨75, _⟩ => ⟨S1600000x1, .i32⟩
  | .hbm, ⟨76, _⟩ => ⟨S100000x128, .f32⟩
  | .hbm, ⟨77, _⟩ => ⟨S100000x1, .f32⟩
  | .hbm, ⟨78, _⟩ => ⟨S100000x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x128, .f32⟩
  | .hbm, ⟨91, _⟩ => ⟨S_, .f32⟩
  | .hbm, ⟨92, _⟩ => ⟨S100000x128, .f32⟩
  | .hbm, ⟨93, _⟩ => ⟨S1600000x1, .i32⟩
  | .hbm, ⟨94, _⟩ => ⟨S100000x128, .f32⟩
  | .hbm, ⟨95, _⟩ => ⟨S100000x1, .f32⟩
  | .hbm, ⟨96, _⟩ => ⟨S100000x128, .f32⟩
  | .hbm, ⟨97, _⟩ => ⟨S100000x128, .f32⟩
  | .hbm, ⟨98, _⟩ => ⟨S1x1, .f32⟩
  | .hbm, ⟨99, _⟩ => ⟨S100000x1, .f32⟩
  | .hbm, ⟨100, _⟩ => ⟨S800x125, .f32⟩
  | .hbm, ⟨101, _⟩ => ⟨S800x125, .f32⟩
  | .hbm, ⟨102, _⟩ => ⟨S800x125, .f32⟩
  | .hbm, ⟨103, _⟩ => ⟨S100000x1, .f32⟩
  | .hbm, ⟨104, _⟩ => ⟨S1x128, .f32⟩
  | .hbm, ⟨105, _⟩ => ⟨S1x1, .f32⟩
  | .hbm, ⟨106, _⟩ => ⟨S100000x1, .f32⟩
  | .hbm, ⟨107, _⟩ => ⟨S_, .f32⟩
  | .hbm, ⟨108, _⟩ => ⟨S100000, .f32⟩
  | .hbm, ⟨109, _⟩ => ⟨S_, .f32⟩
  | .hbm, ⟨110, _⟩ => ⟨S16x1, .f32⟩
  | .hbm, ⟨111, _⟩ => ⟨S100000x1, .i32⟩
  | .hbm, ⟨112, _⟩ => ⟨S16x1, .f32⟩
  | .hbm, ⟨113, _⟩ => ⟨S_, .f32⟩
  | .hbm, ⟨114, _⟩ => ⟨S16, .f32⟩
  | .hbm, ⟨115, _⟩ => ⟨S100000x1, .i32⟩
  | .hbm, ⟨116, _⟩ => ⟨S16, .f32⟩
  | .hbm, ⟨117, _⟩ => ⟨S_, .f32⟩
  | .hbm, ⟨118, _⟩ => ⟨S16, .f32⟩
  | .hbm, ⟨119, _⟩ => ⟨S16, .f32⟩
  | .hbm, ⟨120, _⟩ => ⟨S16x1, .f32⟩
  | .hbm, ⟨121, _⟩ => ⟨S16x1, .f32⟩
  | .hbm, ⟨122, _⟩ => ⟨S16x1, .f32⟩
  | .local _ .vmem, ⟨0, _⟩ => ⟨S5000x7, .f32⟩
  | .local _ .vmem, ⟨1, _⟩ => ⟨S5000x7, .f32⟩
  | .local _ .vmem, ⟨2, _⟩ => ⟨S5000x7, .f32⟩
  | .local _ .vmem, ⟨3, _⟩ => ⟨S5000x7, .f32⟩
  | .local _ .vmem, ⟨4, _⟩ => ⟨S7x128, .f32⟩
  | .local _ .vmem, ⟨5, _⟩ => ⟨S1x128, .f32⟩
  | .local _ .vmem, ⟨6, _⟩ => ⟨S7x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x1, .f32⟩
  | .local _ .vmem, ⟨23, _⟩ => ⟨S1x1, .f32⟩
  | .local _ .vmem, ⟨24, _⟩ => ⟨S128x1, .f32⟩
  | .local _ .vmem, ⟨25, _⟩ => ⟨S5000x1, .f32⟩
  | .local _ .vmem, ⟨26, _⟩ => ⟨S5000x1, .f32⟩
  | .local _ .vmem, ⟨27, _⟩ => ⟨S800x125, .f32⟩
  | .local _ .vmem, ⟨28, _⟩ => ⟨S800x125, .f32⟩
  | .local _ .vmem, ⟨29, _⟩ => ⟨S800x125, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S128x1, .f32⟩
  | .local _ .vmem, ⟨38, _⟩ => ⟨S1x1, .f32⟩
  | .local _ .vmem, ⟨39, _⟩ => ⟨S5000x1, .f32⟩
  | .local _ .vmem, ⟨40, _⟩ => ⟨S5000x1, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_7 : Ref sig .tc := ⟨.hbm, 64, rfl⟩
abbrev main_v38 : Ref sig .tc := ⟨.hbm, 65, rfl⟩
abbrev main_v39 : Ref sig .tc := ⟨.hbm, 66, rfl⟩
abbrev main_c_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_10 : Ref sig .tc := ⟨.hbm, 82, rfl⟩
abbrev main_v53 : Ref sig .tc := ⟨.hbm, 83, rfl⟩
abbrev main_v54 : Ref sig .tc := ⟨.hbm, 84, rfl⟩
abbrev main_c_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_13 : Ref sig .tc := ⟨.hbm, 107, rfl⟩
abbrev main_v75 : Ref sig .tc := ⟨.hbm, 108, rfl⟩
abbrev main_cst_14 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_16 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg7_0 : Ref sig .tc := ⟨.vmem, 39, rfl⟩
abbrev cc4_stg7_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem7_0 : DmaSem sig := 39
abbrev cc4_sem7_1 : DmaSem sig := 40

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S800x125 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S800x125 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S800x125 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S100000x7_S100000x1_0_3 : S100000x7.Slices ![0, 3] S100000x1
  shapeCasts_S100000x1_S100000 : S100000x1.ShapeCasts S100000
  slices_S100000x7_S100000x1_0_4 : S100000x7.Slices ![0, 4] S100000x1
  bcast_S100000_S100000x1_0 : S100000.BroadcastsInDim S100000x1 (![0] : Fin 1 → Fin S100000x1.rank)
  bcast_S_S100000x7 : S_.BroadcastsInDim S100000x7 (![] : Fin 0 → Fin S100000x7.rank)
  bcast_S100000x1_S100000x7_0_1 : S100000x1.BroadcastsInDim S100000x7 (![0, 1] : Fin 2 → Fin S100000x7.rank)
  shapeCasts_S128_S1x128 : S128.ShapeCasts S1x128
  inb_S5000x7_S5000x7_0_0 : ∀ a, (![0, 0] : Fin 2 → Nat) a + S5000x7.size a ≤ S5000x7.size a
  h_S5000x7 : 0 < S5000x7.numel
  shapeCasts_S5000x7_S5000x7 : S5000x7.ShapeCasts S5000x7
  bitsLt_bf16_f32 : FTy.bits .bf16 < FTy.bits .f32
  inb_S7x128_S7x128_0_0 : ∀ a, (![0, 0] : Fin 2 → Nat) a + S7x128.size a ≤ S7x128.size a
  h_S7x128 : 0 < S7x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S800x125 : S100000x1.ShapeCasts S800x125
  inb_S800x125_S800x125_0_0 : ∀ a, (![0, 0] : Fin 2 → Nat) a + S800x125.size a ≤ S800x125.size a
  h_S800x125 : 0 < S800x125.numel
  shapeCasts_S800x125_S800x125 : S800x125.ShapeCasts S800x125
  reduces_S800x125_S125 : S800x125.Reduces [0] S125
  shapeCasts_S125_S1x125 : S125.ShapeCasts S1x125
  reduces_S1x125_S1 : S1x125.Reduces [1] S1
  broadcasts_S1x1_S800x125 : S1x1.Broadcasts S800x125
  shapeCasts_S800x125_S100000x1 : S800x125.ShapeCasts S100000x1
  bcast_S_S16x1 : S_.BroadcastsInDim S16x1 (![] : Fin 0 → Fin S16x1.rank)
  bcast_S_S16 : S_.BroadcastsInDim S16 (![] : Fin 0 → Fin S16.rank)
  bcast_S16_S16x1_0 : S16.BroadcastsInDim S16x1 (![0] : Fin 1 → Fin S16x1.rank)
  scatter_S100000_S1600000x1_S1600000_n_0_0_1_wf : ScatterDims.WF S100000 S1600000x1 S1600000 [] [0] [0] 1
  gather_S100000x7_S1600000x1_S1600000x7_1_0_n_n_0_1_17_wf : GatherDims.WF S100000x7 S1600000x1 S1600000x7 [1] [0] [] [0] [] 1 ![1, 7]
  scatter_S100000x7_S1600000x1_S1600000x7_1_0_0_1_wf : ScatterDims.WF S100000x7 S1600000x1 S1600000x7 [1] [0] [0] 1
  dot_S5000x7_S7x128_S5000x128_1_0_0_1_n_n_wf : DotDims.WF S5000x7 S7x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  scatter_S16x1_S100000x1_S100000x1_1_0_0_1_wf : ScatterDims.WF S16x1 S100000x1 S100000x1 [1] [0] [0] 1
  scatter_S16_S100000x1_S100000_n_0_0_1_wf : ScatterDims.WF S16 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x7.size a ≤ S100000x7.size a
  hwx0_0 : ∀ i : grid0.Coords, EltTy.bits .f32 = 32 ∨ (Rect.block (s := S100000x7) S5000x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x7.size a ≤ S100000x7.size a
  hwx0_1 : ∀ i : grid0.Coords, EltTy.bits .f32 = 32 ∨ (Rect.block (s := S100000x7) S5000x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x128.size a ≤ S7x128.size a
  hwx0_2 : ∀ i : grid0.Coords, EltTy.bits .f32 = 32 ∨ (Rect.block (s := S7x128) S7x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x128.size a ≤ S7x128.size a
  hwx0_4 : ∀ i : grid0.Coords, EltTy.bits .f32 = 32 ∨ (Rect.block (s := S7x128) S7x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S128x1.size a
  hwx2_2 : ∀ i : grid2.Coords, EltTy.bits .f32 = 32 ∨ (Rect.block (s := S128x1) S128x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .f32 = 32 ∨ (Rect.block (s := S128x1) S128x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S100000x1.size a
  hwx2_5 : ∀ i : grid2.Coords, EltTy.bits .f32 = 32 ∨ (Rect.block (s := S100000x1) S5000x1.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S800x125.size a ≤ S800x125.size a
  hwx3_0 : ∀ i : grid3.Coords, EltTy.bits .f32 = 32 ∨ (Rect.block (s := S800x125) S800x125.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S800x125.size a ≤ S800x125.size a
  hwx3_1 : ∀ i : grid3.Coords, EltTy.bits .f32 = 32 ∨ (Rect.block (s := S800x125) S800x125.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S800x125.size a ≤ S800x125.size a
  hwx3_2 : ∀ i : grid3.Coords, EltTy.bits .f32 = 32 ∨ (Rect.block (s := S800x125) S800x125.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x1.size a ≤ S128x1.size a
  hwx4_5 : ∀ i : grid4.Coords, EltTy.bits .f32 = 32 ∨ (Rect.block (s := S128x1) S128x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x1.size a ≤ S100000x1.size a
  hwx4_7 : ∀ i : grid4.Coords, EltTy.bits .f32 = 32 ∨ (Rect.block (s := S100000x1) S5000x1.size (cc4_transform_7 i) (hinb4_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x7_S1600000x1_S1600000x7_1_0_n_n_0_1_17 : GatherDims S100000x7 S1600000x1 S1600000x7 where
  offsetDims := [1]
  collapsedSliceDims := [0]
  operandBatchingDims := []
  startIndicesBatchingDims := []
  startIndexMap := [0]
  indexVectorDim := 1
  sliceSizes := ![1, 7]
  wf := gather_S100000x7_S1600000x1_S1600000x7_1_0_n_n_0_1_17_wf
def scatter_S100000x7_S1600000x1_S1600000x7_1_0_0_1 : ScatterDims S100000x7 S1600000x1 S1600000x7 where
  updateWindowDims := [1]
  insertedWindowDims := [0]
  scatterDimsToOperandDims := [0]
  indexVectorDim := 1
  wf := scatter_S100000x7_S1600000x1_S1600000x7_1_0_0_1_wf
def dot_S5000x7_S7x128_S5000x128_1_0_0_1_n_n : DotDims S5000x7 S7x128 S5000x128 where
  lhsContracting := [1]
  rhsContracting := [0]
  lhsNonContracting := [0]
  rhsNonContracting := [1]
  lhsBatch := []
  rhsBatch := []
  wf := dot_S5000x7_S7x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def scatter_S16x1_S100000x1_S100000x1_1_0_0_1 : ScatterDims S16x1 S100000x1 S100000x1 where
  updateWindowDims := [1]
  insertedWindowDims := [0]
  scatterDimsToOperandDims := [0]
  indexVectorDim := 1
  wf := scatter_S16x1_S100000x1_S100000x1_1_0_0_1_wf
def scatter_S16_S100000x1_S100000_n_0_0_1 : ScatterDims S16 S100000x1 S100000 where
  updateWindowDims := []
  insertedWindowDims := [0]
  scatterDimsToOperandDims := [0]
  indexVectorDim := 1
  wf := scatter_S16_S100000x1_S100000_n_0_0_1_wf

abbrev win0_0 : Pipeline.Window sig grid0 :=
  Pipeline.Window.ofSpec (Memref.whole main_v35) S5000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S7x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S7x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v65) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S5000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v68) S800x125.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v69) S800x125.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S800x125.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v52) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg15) S128x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v73) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v74) S5000x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x7 : Shape := ⟨2, ![100000, 7]⟩
abbrev S2x1600000 : Shape := ⟨2, ![2, 1600000]⟩
abbrev S100000 : Shape := ⟨1, ![100000]⟩
abbrev S7x128 : Shape := ⟨2, ![7, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S1600000x1 : Shape := ⟨2, ![1600000, 1]⟩
abbrev S1600000x7 : Shape := ⟨2, ![1600000, 7]⟩
abbrev S100000x128 : Shape := ⟨2, ![100000, 128]⟩
abbrev S1x128 : Shape := ⟨2, ![1, 128]⟩
abbrev S1600000x128 : Shape := ⟨2, ![1600000, 128]⟩
abbrev S1x1 : Shape := ⟨2, ![1, 1]⟩
abbrev S16x1 : Shape := ⟨2, ![16, 1]⟩
abbrev S16 : Shape := ⟨1, ![16]⟩

abbrev nBuf : Space → Nat
  | .hbm => 198
  | .vmem => 0
  | .smem => 0
  | _ => 0

abbrev hbmTy0_0 (i : Nat) : BufTy := match i % 128 with
  | 0 => ⟨S100000x7, .f32⟩
  | 1 => ⟨S2x1600000, .i32⟩
  | 2 => ⟨S100000, .i32⟩
  | 3 => ⟨S7x128, .f32⟩
  | 4 => ⟨S128, .f32⟩
  | 5 => ⟨S7x128, .f32⟩
  | 6 => ⟨S128x128, .f32⟩
  | 7 => ⟨S128, .f32⟩
  | 8 => ⟨S128x128, .f32⟩
  | 9 => ⟨S128x1, .f32⟩
  | 10 => ⟨S1, .f32⟩
  | 11 => ⟨S128x1, .f32⟩
  | 12 => ⟨S128x128, .f32⟩
  | 13 => ⟨S128, .f32⟩
  | 14 => ⟨S128x128, .f32⟩
  | 15 => ⟨S128x1, .f32⟩
  | 16 => ⟨S1, .f32⟩
  | 17 => ⟨S1x1600000, .i32⟩
  | 18 => ⟨S1600000, .i32⟩
  | 19 => ⟨S1x1600000, .i32⟩
  | 20 => ⟨S1600000, .i32⟩
  | 21 => ⟨S100000x1, .f32⟩
  | 22 => ⟨S100000, .f32⟩
  | 23 => ⟨S_, .f32⟩
  | 24 => ⟨S100000, .f32⟩
  | 25 => ⟨S100000, .i1⟩
  | 26 => ⟨S100000x1, .f32⟩
  | 27 => ⟨S100000, .f32⟩
  | 28 => ⟨S_, .f32⟩
  | 29 => ⟨S100000, .f32⟩
  | 30 => ⟨S100000, .i1⟩
  | 31 => ⟨S100000, .i1⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x7, .f32⟩
  | 41 => ⟨S_, .f32⟩
  | 42 => ⟨S100000x7, .f32⟩
  | 43 => ⟨S1600000x1, .i32⟩
  | 44 => ⟨S100000x7, .f32⟩
  | 45 => ⟨S_, .f32⟩
  | 46 => ⟨S1600000, .f32⟩
  | 47 => ⟨S_, .f32⟩
  | 48 => ⟨S100000, .f32⟩
  | 49 => ⟨S1600000x1, .i32⟩
  | 50 => ⟨S100000, .f32⟩
  | 51 => ⟨S_, .f32⟩
  | 52 => ⟨S100000, .f32⟩
  | 53 => ⟨S100000, .f32⟩
  | 54 => ⟨S100000x1, .f32⟩
  | 55 => ⟨S100000x7, .f32⟩
  | 56 => ⟨S100000x7, .f32⟩
  | 57 => ⟨S100000x128, .f32⟩
  | 58 => ⟨S1x128, .f32⟩
  | 59 => ⟨S100000x128, .f32⟩
  | 60 => ⟨S100000x128, .f32⟩
  | 61 => ⟨S100000x128, .f32⟩
  | 62 => ⟨S100000x128, .f32⟩
  | 63 => ⟨S100000x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S_, .f32⟩
  | 78 => ⟨S1600000, .f32⟩
  | 79 => ⟨S_, .f32⟩
  | 80 => ⟨S100000, .f32⟩
  | 81 => ⟨S1600000x1, .i32⟩
  | 82 => ⟨S100000, .f32⟩
  | 83 => ⟨S_, .f32⟩
  | 84 => ⟨S100000, .f32⟩
  | 85 => ⟨S100000, .f32⟩
  | 86 => ⟨S100000x1, .f32⟩
  | 87 => ⟨S100000x128, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S100000x128, .f32⟩
  | 94 => ⟨S100000x128, .f32⟩
  | 95 => ⟨S100000x128, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x128, .f32⟩
  | 105 => ⟨S_, .f32⟩
  | 106 => ⟨S100000x128, .f32⟩
  | 107 => ⟨S1600000x1, .i32⟩
  | 108 => ⟨S100000x128, .f32⟩
  | 109 => ⟨S_, .f32⟩
  | 110 => ⟨S1600000, .f32⟩
  | 111 => ⟨S_, .f32⟩
  | 112 => ⟨S100000, .f32⟩
  | 113 => ⟨S1600000x1, .i32⟩
  | 114 => ⟨S100000, .f32⟩
  | 115 => ⟨S_, .f32⟩
  | 116 => ⟨S100000, .f32⟩
  | 117 => ⟨S100000, .f32⟩
  | 118 => ⟨S100000x1, .f32⟩
  | 119 => ⟨S100000x128, .f32⟩
  | 120 => ⟨S100000x128, .f32⟩
  | 121 => ⟨S100000x1, .f32⟩
  | 122 => ⟨S1x1, .f32⟩
  | 123 => ⟨S100000x1, .f32⟩
  | 124 => ⟨S100000x1, .f32⟩
  | 125 => ⟨S100000x1, .f32⟩
  | 126 => ⟨S100000x1, .f32⟩
  | 127 => ⟨S100000x1, .i1⟩
  | _ => ⟨S100000x7, .f32⟩

abbrev hbmTy0_1 (i : Nat) : BufTy := match i % 128 with
  | 0 => ⟨S_, .f32⟩
  | 1 => ⟨S_, .f32⟩
  | 2 => ⟨S100000x1, .f32⟩
  | 3 => ⟨S100000x1, .f32⟩
  | 4 => ⟨S_, .f32⟩
  | 5 => ⟨S1, .f32⟩
  | 6 => ⟨S_, .f32⟩
  | 7 => ⟨S1, .f32⟩
  | 8 => ⟨S1, .f32⟩
  | 9 => ⟨S1x1, .f32⟩
  | 10 => ⟨S100000x1, .f32⟩
  | 11 => ⟨S100000x1, .f32⟩
  | 12 => ⟨S100000x1, .f32⟩
  | 13 => ⟨S_, .f32⟩
  | 14 => ⟨S1, .f32⟩
  | 15 => ⟨S1x1, .f32⟩
  | 16 => ⟨S1x1, .f32⟩
  | 17 => ⟨S100000x1, .f32⟩
  | 18 => ⟨S100000x1, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S100000x128, .f32⟩
  | 49 => ⟨S100000x128, .f32⟩
  | 50 => ⟨S100000x1, .f32⟩
  | 51 => ⟨S1x1, .f32⟩
  | 52 => ⟨S100000x1, .f32⟩
  | 53 => ⟨S100000x1, .f32⟩
  | 54 => ⟨S_, .f32⟩
  | 55 => ⟨S16x1, .f32⟩
  | 56 => ⟨S100000x1, .i32⟩
  | 57 => ⟨S16x1, .f32⟩
  | 58 => ⟨S_, .f32⟩
  | 59 => ⟨S100000, .f32⟩
  | 60 => ⟨S_, .f32⟩
  | 61 => ⟨S16, .f32⟩
  | 62 => ⟨S100000x1, .i32⟩
  | 63 => ⟨S16, .f32⟩
  | 64 => ⟨S_, .f32⟩
  | 65 => ⟨S16, .f32⟩
  | 66 => ⟨S16, .f32⟩
  | 67 => ⟨S16x1, .f32⟩
  | 68 => ⟨S16x1, .f32⟩
  | 69 => ⟨S16x1, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_6 : Ref sig .tc := ⟨.hbm, 64, rfl⟩
abbrev main_v39 : Ref sig .tc := ⟨.hbm, 65, rfl⟩
abbrev main_v40 : Ref sig .tc := ⟨.hbm, 66, rfl⟩
abbrev main_c_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_12 : Ref sig .tc := ⟨.hbm, 96, rfl⟩
abbrev main_v65 : Ref sig .tc := ⟨.hbm, 97, rfl⟩
abbrev main_v66 : Ref sig .tc := ⟨.hbm, 98, rfl⟩
abbrev main_c_13 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_14 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_15 : Ref sig .tc := ⟨.hbm, 109, rfl⟩
abbrev main_v75 : Ref sig .tc := ⟨.hbm, 110, rfl⟩
abbrev main_cst_16 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_17 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_18 : Ref sig .tc := ⟨.hbm, 128, rfl⟩
abbrev main_call0_v0 : Ref sig .tc := ⟨.hbm, 129, rfl⟩
abbrev main_call0_v1 : Ref sig .tc := ⟨.hbm, 130, rfl⟩
abbrev main_v91 : Ref sig .tc := ⟨.hbm, 131, rfl⟩
abbrev main_call1_cst : Ref sig .tc := ⟨.hbm, 132, rfl⟩
abbrev main_call1_v0 : Ref sig .tc := ⟨.hbm, 133, rfl⟩
abbrev main_call1_cst_0 : Ref sig .tc := ⟨.hbm, 134, rfl⟩
abbrev main_call1_v1 : Ref sig .tc := ⟨.hbm, 135, rfl⟩
abbrev main_call1_v2 : Ref sig .tc := ⟨.hbm, 136, rfl⟩
abbrev main_call1_v3 : Ref sig .tc := ⟨.hbm, 137, rfl⟩
abbrev main_call1_v4 : Ref sig .tc := ⟨.hbm, 138, rfl⟩
abbrev main_call1_v5 : Ref sig .tc := ⟨.hbm, 139, rfl⟩
abbrev main_call1_v6 : Ref sig .tc := ⟨.hbm, 140, rfl⟩
abbrev main_call1_cst_1 : Ref sig .tc := ⟨.hbm, 141, rfl⟩
abbrev main_call1_v7 : Ref sig .tc := ⟨.hbm, 142, rfl⟩
abbrev main_call1_v8 : Ref sig .tc := ⟨.hbm, 143, rfl⟩
abbrev main_call1_v9 : Ref sig .tc := ⟨.hbm, 144, rfl⟩
abbrev main_call1_v10 : Ref sig .tc := ⟨.hbm, 145, rfl⟩
abbrev main_v92 : Ref sig .tc := ⟨.hbm, 146, rfl⟩
abbrev main_c_19 : Ref sig .tc := ⟨.hbm, 147, rfl⟩
abbrev main_v93 : Ref sig .tc := ⟨.hbm, 148, rfl⟩
abbrev main_v94 : Ref sig .tc := ⟨.hbm, 149, rfl⟩
abbrev main_c_20 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_cst_21 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_cst_22 : Ref sig .tc := ⟨.hbm, 160, rfl⟩
abbrev main_v103 : Ref sig .tc := ⟨.hbm, 161, rfl⟩
abbrev main_cst_23 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_cst_24 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_cst_25 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_cst_26 : Ref sig .tc := ⟨.hbm, 186, rfl⟩
abbrev main_v125 : Ref sig .tc := ⟨.hbm, 187, rfl⟩
abbrev main_cst_27 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_cst_28 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S100000x7_S100000x1_0_3 : S100000x7.Slices ![0, 3] S100000x1
  shapeCasts_S100000x1_S100000 : S100000x1.ShapeCasts S100000
  bcast_S_S100000 : S_.BroadcastsInDim S100000 (![] : Fin 0 → Fin S100000.rank)
  slices_S100000x7_S100000x1_0_4 : S100000x7.Slices ![0, 4] S100000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x7 : S_.BroadcastsInDim S100000x7 (![] : Fin 0 → Fin S100000x7.rank)
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  reducesTo_S100000x1_S1_d0 : S100000x1.ReducesTo [0] S1
  h_S_ : 0 < S_.numel
  bcast_S_S1 : S_.BroadcastsInDim S1 (![] : Fin 0 → Fin S1.rank)
  bcast_S_S16x1 : S_.BroadcastsInDim S16x1 (![] : Fin 0 → Fin S16x1.rank)
  bcast_S_S16 : S_.BroadcastsInDim S16 (![] : Fin 0 → Fin S16.rank)
  bcast_S16_S16x1_0 : S16.BroadcastsInDim S16x1 (![0] : Fin 1 → Fin S16x1.rank)
  gather_S100000x7_S1600000x1_S1600000x7_1_0_n_n_0_1_17_wf : GatherDims.WF S100000x7 S1600000x1 S1600000x7 [1] [0] [] [0] [] 1 ![1, 7]
  scatter_S100000x7_S1600000x1_S1600000x7_1_0_0_1_wf : ScatterDims.WF S100000x7 S1600000x1 S1600000x7 [1] [0] [0] 1
  scatter_S100000_S1600000x1_S1600000_n_0_0_1_wf : ScatterDims.WF S100000 S1600000x1 S1600000 [] [0] [0] 1
  dot_S100000x7_S7x128_S100000x128_1_0_0_1_n_n_wf : DotDims.WF S100000x7 S7x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  scatter_S16x1_S100000x1_S100000x1_1_0_0_1_wf : ScatterDims.WF S16x1 S100000x1 S100000x1 [1] [0] [0] 1
  scatter_S16_S100000x1_S100000_n_0_0_1_wf : ScatterDims.WF S16 S100000x1 S100000 [] [0] [0] 1

variable [Facts₀]

def gather_S100000x7_S1600000x1_S1600000x7_1_0_n_n_0_1_17 : GatherDims S100000x7 S1600000x1 S1600000x7 where
  offsetDims := [1]
  collapsedSliceDims := [0]
  operandBatchingDims := []
  startIndicesBatchingDims := []
  startIndexMap := [0]
  indexVectorDim := 1
  sliceSizes := ![1, 7]
  wf := gather_S100000x7_S1600000x1_S1600000x7_1_0_n_n_0_1_17_wf
def scatter_S100000x7_S1600000x1_S1600000x7_1_0_0_1 : ScatterDims S100000x7 S1600000x1 S1600000x7 where
  updateWindowDims := [1]
  insertedWindowDims := [0]
  scatterDimsToOperandDims := [0]
  indexVectorDim := 1
  wf := scatter_S100000x7_S1600000x1_S1600000x7_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x7_S7x128_S100000x128_1_0_0_1_n_n : DotDims S100000x7 S7x128 S100000x128 where
  lhsContracting := [1]
  rhsContracting := [0]
  lhsNonContracting := [0]
  rhsNonContracting := [1]
  lhsBatch := []
  rhsBatch := []
  wf := dot_S100000x7_S7x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def scatter_S16x1_S100000x1_S100000x1_1_0_0_1 : ScatterDims S16x1 S100000x1 S100000x1 where
  updateWindowDims := [1]
  insertedWindowDims := [0]
  scatterDimsToOperandDims := [0]
  indexVectorDim := 1
  wf := scatter_S16x1_S100000x1_S100000x1_1_0_0_1_wf
def scatter_S16_S100000x1_S100000_n_0_0_1 : ScatterDims S16 S100000x1 S100000 where
  updateWindowDims := []
  insertedWindowDims := [0]
  scatterDimsToOperandDims := [0]
  indexVectorDim := 1
  wf := scatter_S16_S100000x1_S100000_n_0_0_1_wf

class Facts : Prop extends Facts₀ where

variable [Facts]
-- ==== Proof.RefRunStaged.lean ====
import proofs.«107606_j77086073028793_2_alg».proof.Proof.RunOps
import proofs.«107606_j77086073028793_2_alg».proof.Proof.ReadP
import Idealize.ShloMosaic.Lib.StableHlo.Run

set_option maxRecDepth 16384

noncomputable section

namespace Cert.ReferenceIdeal.ValueOps

open Cert.ReferenceIdeal Cert.ReferenceIdeal.Gen Idealize.ShloMosaic Idealize.ShloMosaic.TcCoe Idealize.SL.Sem Idealize.ShloMosaic.StableHlo

variable {F : FTy → Type} [FloatOps F]

/-- The contents after two lines in a row: the second line's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The program cut at its stages -/

/-- Contents moved to a buffer's own type and back are the contents. -/
theorem ofBuf_toBuf_self {T : BufTy} (x : TRef sig T) (v : T.Contents (Elt F)) : x.ofBuf (x.toBuf v) = v := by
  obtain ⟨r, h, _, _⟩ := x
  subst h
  rfl

/-- The first layer: the edge endpoints, the padding mask, the mean of the neighbours' features, the two products, the bias, tanh (through %38). -/
abbrev P1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    unary main_arg0 main_v4 ((extractStridedSlice S100000x1 ![0, 3] · slices_S100000x7_S100000x1_0_3) : (⟨S100000x7, .f32⟩ : BufTy).Contents (Elt F) → (⟨S100000x1, .f32⟩ : BufTy).Contents (Elt F)),
    reshape main_v4 main_v5 rfl shapeCasts_S100000x1_S100000,
    nullary main_cst (constant S_ .f32 0x00000000#32),
    unary main_cst main_v6 (broadcastInDim S100000 ![] bcast_S_S100000 : (⟨S_, .f32⟩ : BufTy).Contents (Elt F) → (⟨S100000, .f32⟩ : BufTy).Contents (Elt F)),
    binary main_v5 main_v6 main_v7 (cmpf .une : (⟨S100000, .f32⟩ : BufTy).Contents (Elt F) → (⟨S100000, .f32⟩ : BufTy).Contents (Elt F) → (⟨S100000, .i1⟩ : BufTy).Contents (Elt F)),
    unary main_arg0 main_v8 ((extractStridedSlice S100000x1 ![0, 4] · slices_S100000x7_S100000x1_0_4) : (⟨S100000x7, .f32⟩ : BufTy).Contents (Elt F) → (⟨S100000x1, .f32⟩ : BufTy).Contents (Elt F)),
    reshape main_v8 main_v9 rfl shapeCasts_S100000x1_S100000,
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    binary main_v9 main_v10 main_v11 (cmpf .une : (⟨S100000, .f32⟩ : BufTy).Contents (Elt F) → (⟨S100000, .f32⟩ : BufTy).Contents (Elt F) → (⟨S100000, .i1⟩ : BufTy).Contents (Elt F)),
    binary main_v7 main_v11 main_v12 (ori : (⟨S100000, .i1⟩ : BufTy).Contents (Elt F) → (⟨S100000, .i1⟩ : BufTy).Contents (Elt F) → (⟨S100000, .i1⟩ : BufTy).Contents (Elt F)),
    nullary main_c (constantI S_ 32 0#32),
    unary main_c main_v13 (broadcastInDim S1600000 ![] bcast_S_S1600000 : (⟨S_, .i32⟩ : BufTy).Contents (Elt F) → (⟨S1600000, .i32⟩ : BufTy).Contents (Elt F)),
    binary main_v1 main_v13 main_v14 (cmpi .slt : (⟨S1600000, .i32⟩ : BufTy).Contents (Elt F) → (⟨S1600000, .i32⟩ : BufTy).Contents (Elt F) → (⟨S1600000, .i1⟩ : BufTy).Contents (Elt F)),
    nullary main_c_1 (constantI S_ 32 100000#32),
    unary main_c_1 main_v15 (broadcastInDim S1600000 ![] bcast_S_S1600000 : (⟨S_, .i32⟩ : BufTy).Contents (Elt F) → (⟨S1600000, .i32⟩ : BufTy).Contents (Elt F)),
    binary main_v1 main_v15 main_v16 (addi : (⟨S1600000, .i32⟩ : BufTy).Contents (Elt F) → (⟨S1600000, .i32⟩ : BufTy).Contents (Elt F) → (⟨S1600000, .i32⟩ : BufTy).Contents (Elt F)),
    ternary main_v14 main_v16 main_v1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v17 main_v18 (broadcastInDim S1600000x1 ![0] bcast_S1600000_S1600000x1_0 : (⟨S1600000, .i32⟩ : BufTy).Contents (Elt F) → (⟨S1600000x1, .i32⟩ : BufTy).Contents (Elt F)),
    binary main_arg0 main_v18 main_v19 ((fun x i => Host.gather gather_S100000x7_S1600000x1_S1600000x7_1_0_n_n_0_1_17 x i) : (⟨S100000x7, .f32⟩ : BufTy).Contents (Elt F) → (⟨S1600000x1, .i32⟩ : BufTy).Contents (Elt F) → (⟨S1600000x7, .f32⟩ : BufTy).Contents (Elt F)),
    nullary main_cst_2 (constant S_ .f32 0x00000000#32),
    unary main_cst_2 main_v20 (broadcastInDim S100000x7 ![] bcast_S_S100000x7 : (⟨S_, .f32⟩ : BufTy).Contents (Elt F) → (⟨S100000x7, .f32⟩ : BufTy).Contents (Elt F)),
    unary main_v3 main_v21 (broadcastInDim S1600000x1 ![0] bcast_S1600000_S1600000x1_0 : (⟨S1600000, .i32⟩ : BufTy).Contents (Elt F) → (⟨S1600000x1, .i32⟩ : BufTy).Contents (Elt F)),
    ternary main_v20 main_v21 main_v19 main_v22 ((fun x i u => Host.scatterAdd scatter_S100000x7_S1600000x1_S1600000x7_1_0_0_1 x i u) : (⟨S100000x7, .f32⟩ : BufTy).Contents (Elt F) → (⟨S1600000x1, .i32⟩ : BufTy).Contents (Elt F) → (⟨S1600000x7, .f32⟩ : BufTy).Contents (Elt F) → (⟨S100000x7, .f32⟩ : BufTy).Contents (Elt F)),
    nullary main_cst_3 (constant S_ .f32 0x3F800000#32),
    unary main_cst_3 main_v23 (broadcastInDim S1600000 ![] bcast_S_S1600000 : (⟨S_, .f32⟩ : BufTy).Contents (Elt F) → (⟨S1600000, .f32⟩ : BufTy).Contents (Elt F)),
    nullary main_cst_4 (constant S_ .f32 0x00000000#32),
    unary main_cst_4 main_v24 (broadcastInDim S100000 ![] bcast_S_S100000 : (⟨S_, .f32⟩ : BufTy).Contents (Elt F) → (⟨S100000, .f32⟩ : BufTy).Contents (Elt F)),
    unary main_v3 main_v25 (broadcastInDim S1600000x1 ![0] bcast_S1600000_S1600000x1_0 : (⟨S1600000, .i32⟩ : BufTy).Contents (Elt F) → (⟨S1600000x1, .i32⟩ : BufTy).Contents (Elt F)),
    ternary main_v24 main_v25 main_v23 main_v26 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_5 (constant S_ .f32 0x3F800000#32),
    unary main_cst_5 main_v27 (broadcastInDim S100000 ![] bcast_S_S100000 : (⟨S_, .f32⟩ : BufTy).Contents (Elt F) → (⟨S100000, .f32⟩ : BufTy).Contents (Elt F)),
    binary main_v26 main_v27 main_v28 (maximumf : (⟨S100000, .f32⟩ : BufTy).Contents (Elt F) → (⟨S100000, .f32⟩ : BufTy).Contents (Elt F) → (⟨S100000, .f32⟩ : BufTy).Contents (Elt F)),
    unary main_v28 main_v29 (broadcastInDim S100000x1 ![0] bcast_S100000_S100000x1_0 : (⟨S100000, .f32⟩ : BufTy).Contents (Elt F) → (⟨S100000x1, .f32⟩ : BufTy).Contents (Elt F)),
    unary main_v29 main_v30 (broadcastInDim S100000x7 ![0, 1] bcast_S100000x1_S100000x7_0_1 : (⟨S100000x1, .f32⟩ : BufTy).Contents (Elt F) → (⟨S100000x7, .f32⟩ : BufTy).Contents (Elt F)),
    binary main_v22 main_v30 main_v31 (Host.divf : (⟨S100000x7, .f32⟩ : BufTy).Contents (Elt F) → (⟨S100000x7, .f32⟩ : BufTy).Contents (Elt F) → (⟨S100000x7, .f32⟩ : BufTy).Contents (Elt F)),
    binary main_v31 main_arg3 main_v32 ((fun l r => Host.dotGeneral dot_S100000x7_S7x128_S100000x128_1_0_0_1_n_n none l r) : (⟨S100000x7, .f32⟩ : BufTy).Contents (Elt F) → (⟨S7x128, .f32⟩ : BufTy).Contents (Elt F) → (⟨S100000x128, .f32⟩ : BufTy).Contents (Elt F)),
    unary main_arg4 main_v33 (broadcastInDim S1x128 ![1] bcast_S128_S1x128_1 : (⟨S128, .f32⟩ : BufTy).Contents (Elt F) → (⟨S1x128, .f32⟩ : BufTy).Contents (Elt F)),
    unary main_v33 main_v34 (broadcastInDim S100000x128 ![0, 1] bcast_S1x128_S100000x128_0_1 : (⟨S1x128, .f32⟩ : BufTy).Contents (Elt F) → (⟨S100000x128, .f32⟩ : BufTy).Contents (Elt F)),
    binary main_v32 main_v34 main_v35 (addf : (⟨S100000x128, .f32⟩ : BufTy).Contents (Elt F) → (⟨S100000x128, .f32⟩ : BufTy).Contents (Elt F) → (⟨S100000x128, .f32⟩ : BufTy).Contents (Elt F)),
    binary main_arg0 main_arg5 main_v36 ((fun l r => Host.dotGeneral dot_S100000x7_S7x128_S100000x128_1_0_0_1_n_n none l r) : (⟨S100000x7, .f32⟩ : BufTy).Contents (Elt F) → (⟨S7x128, .f32⟩ : BufTy).Contents (Elt F) → (⟨S100000x128, .f32⟩ : BufTy).Contents (Elt F)),
    binary main_v35 main_v36 main_v37 (addf : (⟨S100000x128, .f32⟩ : BufTy).Contents (Elt F) → (⟨S100000x128, .f32⟩ : BufTy).Contents (Elt F) → (⟨S100000x128, .f32⟩ : BufTy).Contents (Elt F)),
    unary main_v37 main_v38 (Host.tanh : (⟨S100000x128, .f32⟩ : BufTy).Contents (Elt F) → (⟨S100000x128, .f32⟩ : BufTy).Contents (Elt F)) ]
/-- The buffers those operations write. -/
abbrev P1_W : List (Ref sig .tc) := [main_v0, main_v1, main_v2, main_v3, main_v4, main_v5, main_cst, main_v6, main_v7, main_v8, main_v9, main_cst_0, main_v10, main_v11, main_v12, main_c, main_v13, main_v14, main_c_1, main_v15, main_v16, main_v17, main_v18, main_v19, main_cst_2, main_v20, main_v21, main_v22, main_cst_3, main_v23, main_cst_4, main_v24, main_v25, main_v26, main_cst_5, main_v27, main_v28, main_v29, main_v30, main_v31, main_v32, main_v33, main_v34, main_v35, main_v36, main_v37, main_v38]
theorem P1_writes : (P1 : List (HloOp τ sig (Elt F))).Forall fun op => op.writes ⊆ (P1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer they do not write keeps its contents through them. -/
theorem P1_keep (V : Valuation τ sig (Elt F)) (r : Ref sig .tc) (h : r ∉ P1_W) :
    after P1 V (Proc.devRef .tc r) = V (Proc.devRef .tc r) :=
  after_of_writes_sub P1 _ P1_writes h

/-- The second layer on the first layer's output: mean of the neighbours' rows, the two products, the bias, tanh (through %64). -/
abbrev P2 : List (HloOp τ sig (Elt F)) :=
  [ nullary main_c_6 (constantI S_ 32 0#32),
    unary main_c_6 main_v39 (broadcastInDim S1600000 ![] bcast_S_S1600000 : (⟨S_, .i32⟩ : BufTy).Contents (Elt F) → (⟨S1600000, .i32⟩ : BufTy).Contents (Elt F)),
    binary main_v1 main_v39 main_v40 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v41 (broadcastInDim S1600000 ![] bcast_S_S1600000 : (⟨S_, .i32⟩ : BufTy).Contents (Elt F) → (⟨S1600000, .i32⟩ : BufTy).Contents (Elt F)),
    binary main_v1 main_v41 main_v42 (addi : (⟨S1600000, .i32⟩ : BufTy).Contents (Elt F) → (⟨S1600000, .i32⟩ : BufTy).Contents (Elt F) → (⟨S1600000, .i32⟩ : BufTy).Contents (Elt F)),
    ternary main_v40 main_v42 main_v1 main_v43 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v43 main_v44 (broadcastInDim S1600000x1 ![0] bcast_S1600000_S1600000x1_0 : (⟨S1600000, .i32⟩ : BufTy).Contents (Elt F) → (⟨S1600000x1, .i32⟩ : BufTy).Contents (Elt F)),
    binary main_v38 main_v44 main_v45 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_8 (constant S_ .f32 0x00000000#32),
    unary main_cst_8 main_v46 (broadcastInDim S100000x128 ![] bcast_S_S100000x128 : (⟨S_, .f32⟩ : BufTy).Contents (Elt F) → (⟨S100000x128, .f32⟩ : BufTy).Contents (Elt F)),
    unary main_v3 main_v47 (broadcastInDim S1600000x1 ![0] bcast_S1600000_S1600000x1_0 : (⟨S1600000, .i32⟩ : BufTy).Contents (Elt F) → (⟨S1600000x1, .i32⟩ : BufTy).Contents (Elt F)),
    ternary main_v46 main_v47 main_v45 main_v48 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_9 (constant S_ .f32 0x3F800000#32),
    unary main_cst_9 main_v49 (broadcastInDim S1600000 ![] bcast_S_S1600000 : (⟨S_, .f32⟩ : BufTy).Contents (Elt F) → (⟨S1600000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v3 main_v51 (broadcastInDim S1600000x1 ![0] bcast_S1600000_S1600000x1_0 : (⟨S1600000, .i32⟩ : BufTy).Contents (Elt F) → (⟨S1600000x1, .i32⟩ : BufTy).Contents (Elt F)),
    ternary main_v50 main_v51 main_v49 main_v52 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_11 (constant S_ .f32 0x3F800000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (maximumf : (⟨S100000, .f32⟩ : BufTy).Contents (Elt F) → (⟨S100000, .f32⟩ : BufTy).Contents (Elt F) → (⟨S100000, .f32⟩ : BufTy).Contents (Elt F)),
    unary main_v54 main_v55 (broadcastInDim S100000x1 ![0] bcast_S100000_S100000x1_0 : (⟨S100000, .f32⟩ : BufTy).Contents (Elt F) → (⟨S100000x1, .f32⟩ : BufTy).Contents (Elt F)),
    unary main_v55 main_v56 (broadcastInDim S100000x128 ![0, 1] bcast_S100000x1_S100000x128_0_1 : (⟨S100000x1, .f32⟩ : BufTy).Contents (Elt F) → (⟨S100000x128, .f32⟩ : BufTy).Contents (Elt F)),
    binary main_v48 main_v56 main_v57 (Host.divf : (⟨S100000x128, .f32⟩ : BufTy).Contents (Elt F) → (⟨S100000x128, .f32⟩ : BufTy).Contents (Elt F) → (⟨S100000x128, .f32⟩ : BufTy).Contents (Elt F)),
    binary main_v57 main_arg6 main_v58 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v58 main_v60 main_v61 (addf : (⟨S100000x128, .f32⟩ : BufTy).Contents (Elt F) → (⟨S100000x128, .f32⟩ : BufTy).Contents (Elt F) → (⟨S100000x128, .f32⟩ : BufTy).Contents (Elt F)),
    binary main_v38 main_arg8 main_v62 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v61 main_v62 main_v63 (addf : (⟨S100000x128, .f32⟩ : BufTy).Contents (Elt F) → (⟨S100000x128, .f32⟩ : BufTy).Contents (Elt F) → (⟨S100000x128, .f32⟩ : BufTy).Contents (Elt F)),
    unary main_v63 main_v64 (Host.tanh : (⟨S100000x128, .f32⟩ : BufTy).Contents (Elt F) → (⟨S100000x128, .f32⟩ : BufTy).Contents (Elt F)) ]
/-- The buffers those operations write. -/
abbrev P2_W : List (Ref sig .tc) := [main_c_6, main_v39, main_v40, main_c_7, main_v41, main_v42, main_v43, main_v44, main_v45, main_cst_8, main_v46, main_v47, main_v48, main_cst_9, main_v49, main_cst_10, main_v50, main_v51, main_v52, main_cst_11, main_v53, main_v54, main_v55, main_v56, main_v57, main_v58, main_v59, main_v60, main_v61, main_v62, main_v63, main_v64]
theorem P2_writes : (P2 : List (HloOp τ sig (Elt F))).Forall fun op => op.writes ⊆ (P2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer they do not write keeps its contents through them. -/
theorem P2_keep (V : Valuation τ sig (Elt F)) (r : Ref sig .tc) (h : r ∉ P2_W) :
    after P2 V (Proc.devRef .tc r) = V (Proc.devRef .tc r) :=
  after_of_writes_sub P2 _ P2_writes h

/-- The actor's raw logits: mean of the neighbours' rows of the second layer's output, the two products with the weight columns, the bias (through %89). -/
abbrev P3 : List (HloOp τ sig (Elt F)) :=
  [ nullary main_c_12 (constantI S_ 32 0#32),
    unary main_c_12 main_v65 (broadcastInDim S1600000 ![] bcast_S_S1600000 : (⟨S_, .i32⟩ : BufTy).Contents (Elt F) → (⟨S1600000, .i32⟩ : BufTy).Contents (Elt F)),
    binary main_v1 main_v65 main_v66 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v67 (broadcastInDim S1600000 ![] bcast_S_S1600000 : (⟨S_, .i32⟩ : BufTy).Contents (Elt F) → (⟨S1600000, .i32⟩ : BufTy).Contents (Elt F)),
    binary main_v1 main_v67 main_v68 (addi : (⟨S1600000, .i32⟩ : BufTy).Contents (Elt F) → (⟨S1600000, .i32⟩ : BufTy).Contents (Elt F) → (⟨S1600000, .i32⟩ : BufTy).Contents (Elt F)),
    ternary main_v66 main_v68 main_v1 main_v69 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v69 main_v70 (broadcastInDim S1600000x1 ![0] bcast_S1600000_S1600000x1_0 : (⟨S1600000, .i32⟩ : BufTy).Contents (Elt F) → (⟨S1600000x1, .i32⟩ : BufTy).Contents (Elt F)),
    binary main_v64 main_v70 main_v71 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_14 (constant S_ .f32 0x00000000#32),
    unary main_cst_14 main_v72 (broadcastInDim S100000x128 ![] bcast_S_S100000x128 : (⟨S_, .f32⟩ : BufTy).Contents (Elt F) → (⟨S100000x128, .f32⟩ : BufTy).Contents (Elt F)),
    unary main_v3 main_v73 (broadcastInDim S1600000x1 ![0] bcast_S1600000_S1600000x1_0 : (⟨S1600000, .i32⟩ : BufTy).Contents (Elt F) → (⟨S1600000x1, .i32⟩ : BufTy).Contents (Elt F)),
    ternary main_v72 main_v73 main_v71 main_v74 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_15 (constant S_ .f32 0x3F800000#32),
    unary main_cst_15 main_v75 (broadcastInDim S1600000 ![] bcast_S_S1600000 : (⟨S_, .f32⟩ : BufTy).Contents (Elt F) → (⟨S1600000, .f32⟩ : BufTy).Contents (Elt F)),
    nullary main_cst_16 (constant S_ .f32 0x00000000#32),
    unary main_cst_16 main_v76 (broadcastInDim S100000 ![] bcast_S_S100000 : (⟨S_, .f32⟩ : BufTy).Contents (Elt F) → (⟨S100000, .f32⟩ : BufTy).Contents (Elt F)),
    unary main_v3 main_v77 (broadcastInDim S1600000x1 ![0] bcast_S1600000_S1600000x1_0 : (⟨S1600000, .i32⟩ : BufTy).Contents (Elt F) → (⟨S1600000x1, .i32⟩ : BufTy).Contents (Elt F)),
    ternary main_v76 main_v77 main_v75 main_v78 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_17 (constant S_ .f32 0x3F800000#32),
    unary main_cst_17 main_v79 (broadcastInDim S100000 ![] bcast_S_S100000 : (⟨S_, .f32⟩ : BufTy).Contents (Elt F) → (⟨S100000, .f32⟩ : BufTy).Contents (Elt F)),
    binary main_v78 main_v79 main_v80 (maximumf : (⟨S100000, .f32⟩ : BufTy).Contents (Elt F) → (⟨S100000, .f32⟩ : BufTy).Contents (Elt F) → (⟨S100000, .f32⟩ : BufTy).Contents (Elt F)),
    unary main_v80 main_v81 (broadcastInDim S100000x1 ![0] bcast_S100000_S100000x1_0 : (⟨S100000, .f32⟩ : BufTy).Contents (Elt F) → (⟨S100000x1, .f32⟩ : BufTy).Contents (Elt F)),
    unary main_v81 main_v82 (broadcastInDim S100000x128 ![0, 1] bcast_S100000x1_S100000x128_0_1 : (⟨S100000x1, .f32⟩ : BufTy).Contents (Elt F) → (⟨S100000x128, .f32⟩ : BufTy).Contents (Elt F)),
    binary main_v74 main_v82 main_v83 (Host.divf : (⟨S100000x128, .f32⟩ : BufTy).Contents (Elt F) → (⟨S100000x128, .f32⟩ : BufTy).Contents (Elt F) → (⟨S100000x128, .f32⟩ : BufTy).Contents (Elt F)),
    binary main_v83 main_arg9 main_v84 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    unary main_arg10 main_v85 (broadcastInDim S1x1 ![1] bcast_S1_S1x1_1 : (⟨S1, .f32⟩ : BufTy).Contents (Elt F) → (⟨S1x1, .f32⟩ : BufTy).Contents (Elt F)),
    unary main_v85 main_v86 (broadcastInDim S100000x1 ![0, 1] bcast_S1x1_S100000x1_0_1 : (⟨S1x1, .f32⟩ : BufTy).Contents (Elt F) → (⟨S100000x1, .f32⟩ : BufTy).Contents (Elt F)),
    binary main_v84 main_v86 main_v87 (addf : (⟨S100000x1, .f32⟩ : BufTy).Contents (Elt F) → (⟨S100000x1, .f32⟩ : BufTy).Contents (Elt F) → (⟨S100000x1, .f32⟩ : BufTy).Contents (Elt F)),
    binary main_v64 main_arg11 main_v88 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    binary main_v87 main_v88 main_v89 (addf : (⟨S100000x1, .f32⟩ : BufTy).Contents (Elt F) → (⟨S100000x1, .f32⟩ : BufTy).Contents (Elt F) → (⟨S100000x1, .f32⟩ : BufTy).Contents (Elt F)) ]
/-- The buffers those operations write. -/
abbrev P3_W : List (Ref sig .tc) := [main_c_12, main_v65, main_v66, main_c_13, main_v67, main_v68, main_v69, main_v70, main_v71, main_cst_14, main_v72, main_v73, main_v74, main_cst_15, main_v75, main_cst_16, main_v76, main_v77, main_v78, main_cst_17, main_v79, main_v80, main_v81, main_v82, main_v83, main_v84, main_v85, main_v86, main_v87, main_v88, main_v89]
theorem P3_writes : (P3 : List (HloOp τ sig (Elt F))).Forall fun op => op.writes ⊆ (P3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer they do not write keeps its contents through them. -/
theorem P3_keep (V : Valuation τ sig (Elt F)) (r : Ref sig .tc) (h : r ∉ P3_W) :
    after P3 V (Proc.devRef .tc r) = V (Proc.devRef .tc r) :=
  after_of_writes_sub P3 _ P3_writes h

/-- The masked logits and their log-softmax over all nodes (through %92). -/
abbrev P4 : List (HloOp τ sig (Elt F)) :=
  [ unary main_v12 main_v90 (broadcastInDim S100000x1 ![0] bcast_S100000_S100000x1_0 : (⟨S100000, .i1⟩ : BufTy).Contents (Elt F) → (⟨S100000x1, .i1⟩ : BufTy).Contents (Elt F)),
    nullary main_cst_18 (constant S_ .f32 0xFF800000#32),
    TRef.unary (TRef.of (T := ⟨S_, .f32⟩) main_cst_18) (TRef.of (T := ⟨S_, .f32⟩) main_call0_v0) id,
    TRef.unary (TRef.of (T := ⟨S_, .f32⟩) main_call0_v0) (TRef.of (T := ⟨S100000x1, .f32⟩) main_call0_v1) (broadcastInDim S100000x1 ![] bcast_S_S100000x1),
    TRef.ternary (TRef.of (T := ⟨S100000x1, .i1⟩) main_v90) (TRef.of (T := ⟨S100000x1, .f32⟩) main_call0_v1) (TRef.of (T := ⟨S100000x1, .f32⟩) main_v89) (TRef.of (T := ⟨S100000x1, .f32⟩) main_v91) select,
    TRef.nullary (TRef.of (T := ⟨S_, .f32⟩) main_call1_cst) (constant S_ .f32 0xFF800000#32),
    TRef.binary (TRef.of (T := ⟨S100000x1, .f32⟩) main_v91) (TRef.of (T := ⟨S_, .f32⟩) main_call1_cst) (TRef.of (T := ⟨S1, .f32⟩) main_call1_v0) (fun x v => Host.reduce FloatOps.maximumf x v reducesTo_S100000x1_S1_d0 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![1] bcast_S1_S1x1_1),
    TRef.unary (TRef.of (T := ⟨S1x1, .f32⟩) main_call1_v3) (TRef.of (T := ⟨S100000x1, .f32⟩) main_call1_v4) (broadcastInDim S100000x1 ![0, 1] bcast_S1x1_S100000x1_0_1),
    TRef.binary (TRef.of (T := ⟨S100000x1, .f32⟩) main_v91) (TRef.of (T := ⟨S100000x1, .f32⟩) main_call1_v4) (TRef.of (T := ⟨S100000x1, .f32⟩) main_call1_v5) subf,
    TRef.unary (TRef.of (T := ⟨S100000x1, .f32⟩) main_call1_v5) (TRef.of (T := ⟨S100000x1, .f32⟩) main_call1_v6) Host.exp,
    TRef.nullary (TRef.of (T := ⟨S_, .f32⟩) main_call1_cst_1) (constant S_ .f32 0x00000000#32),
    TRef.binary (TRef.of (T := ⟨S100000x1, .f32⟩) main_call1_v6) (TRef.of (T := ⟨S_, .f32⟩) main_call1_cst_1) (TRef.of (T := ⟨S1, .f32⟩) main_call1_v7) (fun x v => Host.reduceAdd x v reducesTo_S100000x1_S1_d0 h_S_),
    TRef.unary (TRef.of (T := ⟨S1, .f32⟩) main_call1_v7) (TRef.of (T := ⟨S1x1, .f32⟩) main_call1_v8) (broadcastInDim S1x1 ![1] bcast_S1_S1x1_1),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S100000x1, .f32⟩) main_call1_v10) (broadcastInDim S100000x1 ![0, 1] bcast_S1x1_S100000x1_0_1),
    TRef.binary (TRef.of (T := ⟨S100000x1, .f32⟩) main_call1_v5) (TRef.of (T := ⟨S100000x1, .f32⟩) main_call1_v10) (TRef.of (T := ⟨S100000x1, .f32⟩) main_v92) subf ]
/-- The buffers those operations write. -/
abbrev P4_W : List (Ref sig .tc) := [main_v90, main_cst_18, main_call0_v0, main_call0_v1, main_v91, main_call1_cst, main_call1_v0, main_call1_cst_0, main_call1_v1, main_call1_v2, main_call1_v3, main_call1_v4, main_call1_v5, main_call1_v6, main_call1_cst_1, main_call1_v7, main_call1_v8, main_call1_v9, main_call1_v10, main_v92]
theorem P4_writes : (P4 : List (HloOp τ sig (Elt F))).Forall fun op => op.writes ⊆ (P4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer they do not write keeps its contents through them. -/
theorem P4_keep (V : Valuation τ sig (Elt F)) (r : Ref sig .tc) (h : r ∉ P4_W) :
    after P4 V (Proc.devRef .tc r) = V (Proc.devRef .tc r) :=
  after_of_writes_sub P4 _ P4_writes h

/-- The critic's hidden layer and its product with the weight column, the bias (through %121). -/
abbrev P5 : List (HloOp τ sig (Elt F)) :=
  [ nullary main_c_19 (constantI S_ 32 0#32),
    unary main_c_19 main_v93 (broadcastInDim S1600000 ![] bcast_S_S1600000 : (⟨S_, .i32⟩ : BufTy).Contents (Elt F) → (⟨S1600000, .i32⟩ : BufTy).Contents (Elt F)),
    binary main_v1 main_v93 main_v94 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v95 (broadcastInDim S1600000 ![] bcast_S_S1600000 : (⟨S_, .i32⟩ : BufTy).Contents (Elt F) → (⟨S1600000, .i32⟩ : BufTy).Contents (Elt F)),
    binary main_v1 main_v95 main_v96 (addi : (⟨S1600000, .i32⟩ : BufTy).Contents (Elt F) → (⟨S1600000, .i32⟩ : BufTy).Contents (Elt F) → (⟨S1600000, .i32⟩ : BufTy).Contents (Elt F)),
    ternary main_v94 main_v96 main_v1 main_v97 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v97 main_v98 (broadcastInDim S1600000x1 ![0] bcast_S1600000_S1600000x1_0 : (⟨S1600000, .i32⟩ : BufTy).Contents (Elt F) → (⟨S1600000x1, .i32⟩ : BufTy).Contents (Elt F)),
    binary main_v64 main_v98 main_v99 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_21 (constant S_ .f32 0x00000000#32),
    unary main_cst_21 main_v100 (broadcastInDim S100000x128 ![] bcast_S_S100000x128 : (⟨S_, .f32⟩ : BufTy).Contents (Elt F) → (⟨S100000x128, .f32⟩ : BufTy).Contents (Elt F)),
    unary main_v3 main_v101 (broadcastInDim S1600000x1 ![0] bcast_S1600000_S1600000x1_0 : (⟨S1600000, .i32⟩ : BufTy).Contents (Elt F) → (⟨S1600000x1, .i32⟩ : BufTy).Contents (Elt F)),
    ternary main_v100 main_v101 main_v99 main_v102 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_22 (constant S_ .f32 0x3F800000#32),
    unary main_cst_22 main_v103 (broadcastInDim S1600000 ![] bcast_S_S1600000 : (⟨S_, .f32⟩ : BufTy).Contents (Elt F) → (⟨S1600000, .f32⟩ : BufTy).Contents (Elt F)),
    nullary main_cst_23 (constant S_ .f32 0x00000000#32),
    unary main_cst_23 main_v104 (broadcastInDim S100000 ![] bcast_S_S100000 : (⟨S_, .f32⟩ : BufTy).Contents (Elt F) → (⟨S100000, .f32⟩ : BufTy).Contents (Elt F)),
    unary main_v3 main_v105 (broadcastInDim S1600000x1 ![0] bcast_S1600000_S1600000x1_0 : (⟨S1600000, .i32⟩ : BufTy).Contents (Elt F) → (⟨S1600000x1, .i32⟩ : BufTy).Contents (Elt F)),
    ternary main_v104 main_v105 main_v103 main_v106 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_24 (constant S_ .f32 0x3F800000#32),
    unary main_cst_24 main_v107 (broadcastInDim S100000 ![] bcast_S_S100000 : (⟨S_, .f32⟩ : BufTy).Contents (Elt F) → (⟨S100000, .f32⟩ : BufTy).Contents (Elt F)),
    binary main_v106 main_v107 main_v108 (maximumf : (⟨S100000, .f32⟩ : BufTy).Contents (Elt F) → (⟨S100000, .f32⟩ : BufTy).Contents (Elt F) → (⟨S100000, .f32⟩ : BufTy).Contents (Elt F)),
    unary main_v108 main_v109 (broadcastInDim S100000x1 ![0] bcast_S100000_S100000x1_0 : (⟨S100000, .f32⟩ : BufTy).Contents (Elt F) → (⟨S100000x1, .f32⟩ : BufTy).Contents (Elt F)),
    unary main_v109 main_v110 (broadcastInDim S100000x128 ![0, 1] bcast_S100000x1_S100000x128_0_1 : (⟨S100000x1, .f32⟩ : BufTy).Contents (Elt F) → (⟨S100000x128, .f32⟩ : BufTy).Contents (Elt F)),
    binary main_v102 main_v110 main_v111 (Host.divf : (⟨S100000x128, .f32⟩ : BufTy).Contents (Elt F) → (⟨S100000x128, .f32⟩ : BufTy).Contents (Elt F) → (⟨S100000x128, .f32⟩ : BufTy).Contents (Elt F)),
    binary main_v111 main_arg12 main_v112 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg13 main_v113 (broadcastInDim S1x128 ![1] bcast_S128_S1x128_1 : (⟨S128, .f32⟩ : BufTy).Contents (Elt F) → (⟨S1x128, .f32⟩ : BufTy).Contents (Elt F)),
    unary main_v113 main_v114 (broadcastInDim S100000x128 ![0, 1] bcast_S1x128_S100000x128_0_1 : (⟨S1x128, .f32⟩ : BufTy).Contents (Elt F) → (⟨S100000x128, .f32⟩ : BufTy).Contents (Elt F)),
    binary main_v112 main_v114 main_v115 (addf : (⟨S100000x128, .f32⟩ : BufTy).Contents (Elt F) → (⟨S100000x128, .f32⟩ : BufTy).Contents (Elt F) → (⟨S100000x128, .f32⟩ : BufTy).Contents (Elt F)),
    binary main_v64 main_arg14 main_v116 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v115 main_v116 main_v117 (addf : (⟨S100000x128, .f32⟩ : BufTy).Contents (Elt F) → (⟨S100000x128, .f32⟩ : BufTy).Contents (Elt F) → (⟨S100000x128, .f32⟩ : BufTy).Contents (Elt F)),
    binary main_v117 main_arg15 main_v118 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    unary main_arg16 main_v119 (broadcastInDim S1x1 ![1] bcast_S1_S1x1_1 : (⟨S1, .f32⟩ : BufTy).Contents (Elt F) → (⟨S1x1, .f32⟩ : BufTy).Contents (Elt F)),
    unary main_v119 main_v120 (broadcastInDim S100000x1 ![0, 1] bcast_S1x1_S100000x1_0_1 : (⟨S1x1, .f32⟩ : BufTy).Contents (Elt F) → (⟨S100000x1, .f32⟩ : BufTy).Contents (Elt F)),
    binary main_v118 main_v120 main_v121 (addf : (⟨S100000x1, .f32⟩ : BufTy).Contents (Elt F) → (⟨S100000x1, .f32⟩ : BufTy).Contents (Elt F) → (⟨S100000x1, .f32⟩ : BufTy).Contents (Elt F)) ]
/-- The buffers those operations write. -/
abbrev P5_W : List (Ref sig .tc) := [main_c_19, main_v93, main_v94, main_c_20, main_v95, main_v96, main_v97, main_v98, main_v99, main_cst_21, main_v100, main_v101, main_v102, main_cst_22, main_v103, main_cst_23, main_v104, main_v105, main_v106, main_cst_24, main_v107, main_v108, main_v109, main_v110, main_v111, main_v112, main_v113, main_v114, main_v115, main_v116, main_v117, main_v118, main_v119, main_v120, main_v121]
theorem P5_writes : (P5 : List (HloOp τ sig (Elt F))).Forall fun op => op.writes ⊆ (P5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer they do not write keeps its contents through them. -/
theorem P5_keep (V : Valuation τ sig (Elt F)) (r : Ref sig .tc) (h : r ∉ P5_W) :
    after P5 V (Proc.devRef .tc r) = V (Proc.devRef .tc r) :=
  after_of_writes_sub P5 _ P5_writes h

/-- The per-graph mean of the critic's column and its tanh (through %133). -/
abbrev P6 : List (HloOp τ sig (Elt F)) :=
  [ nullary main_cst_25 (constant S_ .f32 0x00000000#32),
    unary main_cst_25 main_v122 (broadcastInDim S16x1 ![] bcast_S_S16x1 : (⟨S_, .f32⟩ : BufTy).Contents (Elt F) → (⟨S16x1, .f32⟩ : BufTy).Contents (Elt F)),
    unary main_arg2 main_v123 (broadcastInDim S100000x1 ![0] bcast_S100000_S100000x1_0 : (⟨S100000, .i32⟩ : BufTy).Contents (Elt F) → (⟨S100000x1, .i32⟩ : BufTy).Contents (Elt F)),
    ternary main_v122 main_v123 main_v121 main_v124 ((fun x i u => Host.scatterAdd scatter_S16x1_S100000x1_S100000x1_1_0_0_1 x i u) : (⟨S16x1, .f32⟩ : BufTy).Contents (Elt F) → (⟨S100000x1, .i32⟩ : BufTy).Contents (Elt F) → (⟨S100000x1, .f32⟩ : BufTy).Contents (Elt F) → (⟨S16x1, .f32⟩ : BufTy).Contents (Elt F)),
    nullary main_cst_26 (constant S_ .f32 0x3F800000#32),
    unary main_cst_26 main_v125 (broadcastInDim S100000 ![] bcast_S_S100000 : (⟨S_, .f32⟩ : BufTy).Contents (Elt F) → (⟨S100000, .f32⟩ : BufTy).Contents (Elt F)),
    nullary main_cst_27 (constant S_ .f32 0x00000000#32),
    unary main_cst_27 main_v126 (broadcastInDim S16 ![] bcast_S_S16 : (⟨S_, .f32⟩ : BufTy).Contents (Elt F) → (⟨S16, .f32⟩ : BufTy).Contents (Elt F)),
    unary main_arg2 main_v127 (broadcastInDim S100000x1 ![0] bcast_S100000_S100000x1_0 : (⟨S100000, .i32⟩ : BufTy).Contents (Elt F) → (⟨S100000x1, .i32⟩ : BufTy).Contents (Elt F)),
    ternary main_v126 main_v127 main_v125 main_v128 ((fun x i u => Host.scatterAdd scatter_S16_S100000x1_S100000_n_0_0_1 x i u) : (⟨S16, .f32⟩ : BufTy).Contents (Elt F) → (⟨S100000x1, .i32⟩ : BufTy).Contents (Elt F) → (⟨S100000, .f32⟩ : BufTy).Contents (Elt F) → (⟨S16, .f32⟩ : BufTy).Contents (Elt F)),
    nullary main_cst_28 (constant S_ .f32 0x3F800000#32),
    unary main_cst_28 main_v129 (broadcastInDim S16 ![] bcast_S_S16 : (⟨S_, .f32⟩ : BufTy).Contents (Elt F) → (⟨S16, .f32⟩ : BufTy).Contents (Elt F)),
    binary main_v128 main_v129 main_v130 (maximumf : (⟨S16, .f32⟩ : BufTy).Contents (Elt F) → (⟨S16, .f32⟩ : BufTy).Contents (Elt F) → (⟨S16, .f32⟩ : BufTy).Contents (Elt F)),
    unary main_v130 main_v131 (broadcastInDim S16x1 ![0] bcast_S16_S16x1_0 : (⟨S16, .f32⟩ : BufTy).Contents (Elt F) → (⟨S16x1, .f32⟩ : BufTy).Contents (Elt F)),
    binary main_v124 main_v131 main_v132 (Host.divf : (⟨S16x1, .f32⟩ : BufTy).Contents (Elt F) → (⟨S16x1, .f32⟩ : BufTy).Contents (Elt F) → (⟨S16x1, .f32⟩ : BufTy).Contents (Elt F)),
    unary main_v132 main_v133 (Host.tanh : (⟨S16x1, .f32⟩ : BufTy).Contents (Elt F) → (⟨S16x1, .f32⟩ : BufTy).Contents (Elt F)) ]
/-- The buffers those operations write. -/
abbrev P6_W : List (Ref sig .tc) := [main_cst_25, main_v122, main_v123, main_v124, main_cst_26, main_v125, main_cst_27, main_v126, main_v127, main_v128, main_cst_28, main_v129, main_v130, main_v131, main_v132, main_v133]
theorem P6_writes : (P6 : List (HloOp τ sig (Elt F))).Forall fun op => op.writes ⊆ (P6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer they do not write keeps its contents through them. -/
theorem P6_keep (V : Valuation τ sig (Elt F)) (r : Ref sig .tc) (h : r ∉ P6_W) :
    after P6 V (Proc.devRef .tc r) = V (Proc.devRef .tc r) :=
  after_of_writes_sub P6 _ P6_writes h

/-! ## Each stage from the contents it starts at -/

theorem P1_v1 (V : Valuation τ sig (Elt F)) :
    after P1 V (Proc.devRef .tc main_v1) = Read.val_main_v1 (F := F) (V (Proc.devRef .tc main_arg1)) := by
  after_results_simp <;> rfl
theorem P1_v3 (V : Valuation τ sig (Elt F)) :
    after P1 V (Proc.devRef .tc main_v3) = Read.val_main_v3 (F := F) (V (Proc.devRef .tc main_arg1)) := by
  after_results_simp <;> rfl
theorem P1_v12 (V : Valuation τ sig (Elt F)) :
    after P1 V (Proc.devRef .tc main_v12) = Read.val_main_v12 (F := F) (V (Proc.devRef .tc main_arg0)) := by
  after_results_simp <;> rfl
theorem P1_v38 (V : Valuation τ sig (Elt F)) :
    after P1 V (Proc.devRef .tc main_v38) = Read.val_main_v38 (F := F) (V (Proc.devRef .tc main_arg0)) (V (Proc.devRef .tc main_arg1)) (V (Proc.devRef .tc main_arg3)) (V (Proc.devRef .tc main_arg4)) (V (Proc.devRef .tc main_arg5)) := by
  after_results_simp <;> rfl

theorem P2_v64 (V : Valuation τ sig (Elt F)) (x0 : (⟨S100000x7, .f32⟩ : BufTy).Contents (Elt F)) (x1 : (⟨S2x1600000, .i32⟩ : BufTy).Contents (Elt F)) (x3 : (⟨S7x128, .f32⟩ : BufTy).Contents (Elt F)) (x4 : (⟨S128, .f32⟩ : BufTy).Contents (Elt F)) (x5 : (⟨S7x128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F))
    (h1 : V (Proc.devRef .tc main_v1) = Read.val_main_v1 (F := F) x1) (h3 : V (Proc.devRef .tc main_v3) = Read.val_main_v3 (F := F) x1)
    (h38 : V (Proc.devRef .tc main_v38) = Read.val_main_v38 (F := F) x0 x1 x3 x4 x5)
    (hx6 : V (Proc.devRef .tc main_arg6) = x6) (hx7 : V (Proc.devRef .tc main_arg7) = x7) (hx8 : V (Proc.devRef .tc main_arg8) = x8) :
    after P2 V (Proc.devRef .tc main_v64) = Read.val_main_v64 (F := F) x0 x1 x3 x4 x5 x6 x7 x8 := by
  after_results_simp
  rw [h1, h3, h38, hx6, hx7, hx8]
  rfl

theorem P3_v89 (V : Valuation τ sig (Elt F)) (x0 : (⟨S100000x7, .f32⟩ : BufTy).Contents (Elt F)) (x1 : (⟨S2x1600000, .i32⟩ : BufTy).Contents (Elt F)) (x3 : (⟨S7x128, .f32⟩ : BufTy).Contents (Elt F)) (x4 : (⟨S128, .f32⟩ : BufTy).Contents (Elt F)) (x5 : (⟨S7x128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128x1, .f32⟩ : BufTy).Contents (Elt F)) (x10 : (⟨S1, .f32⟩ : BufTy).Contents (Elt F)) (x11 : (⟨S128x1, .f32⟩ : BufTy).Contents (Elt F))
    (h1 : V (Proc.devRef .tc main_v1) = Read.val_main_v1 (F := F) x1) (h3 : V (Proc.devRef .tc main_v3) = Read.val_main_v3 (F := F) x1)
    (h64 : V (Proc.devRef .tc main_v64) = Read.val_main_v64 (F := F) x0 x1 x3 x4 x5 x6 x7 x8)
    (hx9 : V (Proc.devRef .tc main_arg9) = x9) (hx10 : V (Proc.devRef .tc main_arg10) = x10) (hx11 : V (Proc.devRef .tc main_arg11) = x11) :
    after P3 V (Proc.devRef .tc main_v89) = Read.val_main_v89 (F := F) x0 x1 x3 x4 x5 x6 x7 x8 x9 x10 x11 := by
  after_results_simp
  rw [h1, h3, h64, hx9, hx10, hx11]
  rfl

theorem P4_v92 (V : Valuation τ sig (Elt F)) (x0 : (⟨S100000x7, .f32⟩ : BufTy).Contents (Elt F)) (x1 : (⟨S2x1600000, .i32⟩ : BufTy).Contents (Elt F)) (x3 : (⟨S7x128, .f32⟩ : BufTy).Contents (Elt F)) (x4 : (⟨S128, .f32⟩ : BufTy).Contents (Elt F)) (x5 : (⟨S7x128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128x1, .f32⟩ : BufTy).Contents (Elt F)) (x10 : (⟨S1, .f32⟩ : BufTy).Contents (Elt F)) (x11 : (⟨S128x1, .f32⟩ : BufTy).Contents (Elt F))
    (h12 : V (Proc.devRef .tc main_v12) = Read.val_main_v12 (F := F) x0)
    (h89 : V (Proc.devRef .tc main_v89) = Read.val_main_v89 (F := F) x0 x1 x3 x4 x5 x6 x7 x8 x9 x10 x11) :
    after P4 V (Proc.devRef .tc main_v92) = Read.val_main_v92 (F := F) x0 x1 x3 x4 x5 x6 x7 x8 x9 x10 x11 := by
  after_results_simp
  simp only [ofBuf_toBuf_self]
  rw [h12, h89]
  rfl

theorem P5_v121 (V : Valuation τ sig (Elt F)) (x0 : (⟨S100000x7, .f32⟩ : BufTy).Contents (Elt F)) (x1 : (⟨S2x1600000, .i32⟩ : BufTy).Contents (Elt F)) (x3 : (⟨S7x128, .f32⟩ : BufTy).Contents (Elt F)) (x4 : (⟨S128, .f32⟩ : BufTy).Contents (Elt F)) (x5 : (⟨S7x128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128x1, .f32⟩ : BufTy).Contents (Elt F)) (x16 : (⟨S1, .f32⟩ : BufTy).Contents (Elt F))
    (h1 : V (Proc.devRef .tc main_v1) = Read.val_main_v1 (F := F) x1) (h3 : V (Proc.devRef .tc main_v3) = Read.val_main_v3 (F := F) x1)
    (h64 : V (Proc.devRef .tc main_v64) = Read.val_main_v64 (F := F) x0 x1 x3 x4 x5 x6 x7 x8)
    (hx12 : V (Proc.devRef .tc main_arg12) = x12) (hx13 : V (Proc.devRef .tc main_arg13) = x13) (hx14 : V (Proc.devRef .tc main_arg14) = x14) (hx15 : V (Proc.devRef .tc main_arg15) = x15) (hx16 : V (Proc.devRef .tc main_arg16) = x16) :
    after P5 V (Proc.devRef .tc main_v121) = Read.val_main_v121 (F := F) x0 x1 x3 x4 x5 x6 x7 x8 x12 x13 x14 x15 x16 := by
  after_results_simp
  rw [h1, h3, h64, hx12, hx13, hx14, hx15, hx16]
  rfl

theorem P6_v133 (V : Valuation τ sig (Elt F)) (x0 : (⟨S100000x7, .f32⟩ : BufTy).Contents (Elt F)) (x1 : (⟨S2x1600000, .i32⟩ : BufTy).Contents (Elt F)) (x2 : (⟨S100000, .i32⟩ : BufTy).Contents (Elt F)) (x3 : (⟨S7x128, .f32⟩ : BufTy).Contents (Elt F)) (x4 : (⟨S128, .f32⟩ : BufTy).Contents (Elt F)) (x5 : (⟨S7x128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128x1, .f32⟩ : BufTy).Contents (Elt F)) (x16 : (⟨S1, .f32⟩ : BufTy).Contents (Elt F))
    (h121 : V (Proc.devRef .tc main_v121) = Read.val_main_v121 (F := F) x0 x1 x3 x4 x5 x6 x7 x8 x12 x13 x14 x15 x16)
    (hx2 : V (Proc.devRef .tc main_arg2) = x2) :
    after P6 V (Proc.devRef .tc main_v133) = Read.val_main_v133 (F := F) x0 x1 x2 x3 x4 x5 x6 x7 x8 x12 x13 x14 x15 x16 := by
  after_results_simp
  rw [h121, hx2]
  rfl

/-! ## The stages in a row, from the contents the program starts at -/

theorem ops_cut : (ops : List (HloOp τ sig (Elt F))) = P1 ++ (P2 ++ (P3 ++ (P4 ++ (P5 ++ P6)))) := rfl

theorem after_ops (V : Valuation τ sig (Elt F)) : after ops V = after P6 (after P5 (after P4 (after P3 (after P2 (after P1 V))))) := by
  rw [ops_cut, after_app, after_app, after_app, after_app, after_app]

theorem S2_v64 (V : Valuation τ sig (Elt F)) :
    after P2 (after P1 V) (Proc.devRef .tc main_v64) = Read.val_main_v64 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  P2_v64 (after P1 V) _ _ _ _ _ _ _ _ (P1_v1 V) (P1_v3 V) (P1_v38 V) (P1_keep V main_arg6 (by decide)) (P1_keep V main_arg7 (by decide)) (P1_keep V main_arg8 (by decide))

theorem S3_v89 (V : Valuation τ sig (Elt F)) :
    after P3 (after P2 (after P1 V)) (Proc.devRef .tc main_v89) = Read.val_main_v89 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  P3_v89 (after P2 (after P1 V)) _ _ _ _ _ _ _ _ _ _ _ ((P2_keep _ main_v1 (by decide)).trans (P1_v1 V)) ((P2_keep _ main_v3 (by decide)).trans (P1_v3 V)) (S2_v64 V)
    ((P2_keep _ main_arg9 (by decide)).trans (P1_keep V main_arg9 (by decide))) ((P2_keep _ main_arg10 (by decide)).trans (P1_keep V main_arg10 (by decide))) ((P2_keep _ main_arg11 (by decide)).trans (P1_keep V main_arg11 (by decide)))

theorem S4_v92 (V : Valuation τ sig (Elt F)) :
    after P4 (after P3 (after P2 (after P1 V))) (Proc.devRef .tc main_v92) = Read.val_main_v92 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  P4_v92 (after P3 (after P2 (after P1 V))) _ _ _ _ _ _ _ _ _ _ _ ((P3_keep _ main_v12 (by decide)).trans ((P2_keep _ main_v12 (by decide)).trans (P1_v12 V))) (S3_v89 V)

theorem S5_v121 (V : Valuation τ sig (Elt F)) :
    after P5 (after P4 (after P3 (after P2 (after P1 V)))) (Proc.devRef .tc main_v121) = Read.val_main_v121 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg12)) (V (Proc.devRef .tc main_arg13)) (V (Proc.devRef .tc main_arg14)) (V (Proc.devRef .tc main_arg15)) (V (Proc.devRef .tc main_arg16)) :=
  P5_v121 (after P4 (after P3 (after P2 (after P1 V)))) _ _ _ _ _ _ _ _ _ _ _ _ _ ((P4_keep _ main_v1 (by decide)).trans ((P3_keep _ main_v1 (by decide)).trans ((P2_keep _ main_v1 (by decide)).trans (P1_v1 V)))) ((P4_keep _ main_v3 (by decide)).trans ((P3_keep _ main_v3 (by decide)).trans ((P2_keep _ main_v3 (by decide)).trans (P1_v3 V))))
    ((P4_keep _ main_v64 (by decide)).trans ((P3_keep _ main_v64 (by decide)).trans (S2_v64 V)))
    ((P4_keep _ main_arg12 (by decide)).trans ((P3_keep _ main_arg12 (by decide)).trans ((P2_keep _ main_arg12 (by decide)).trans (P1_keep V main_arg12 (by decide)))))
    ((P4_keep _ main_arg13 (by decide)).trans ((P3_keep _ main_arg13 (by decide)).trans ((P2_keep _ main_arg13 (by decide)).trans (P1_keep V main_arg13 (by decide)))))
    ((P4_keep _ main_arg14 (by decide)).trans ((P3_keep _ main_arg14 (by decide)).trans ((P2_keep _ main_arg14 (by decide)).trans (P1_keep V main_arg14 (by decide)))))
    ((P4_keep _ main_arg15 (by decide)).trans ((P3_keep _ main_arg15 (by decide)).trans ((P2_keep _ main_arg15 (by decide)).trans (P1_keep V main_arg15 (by decide)))))
    ((P4_keep _ main_arg16 (by decide)).trans ((P3_keep _ main_arg16 (by decide)).trans ((P2_keep _ main_arg16 (by decide)).trans (P1_keep V main_arg16 (by decide)))))

theorem S6_v133 (V : Valuation τ sig (Elt F)) :
    after P6 (after P5 (after P4 (after P3 (after P2 (after P1 V))))) (Proc.devRef .tc main_v133) = Read.val_main_v133 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg12)) (V (Proc.devRef .tc main_arg13)) (V (Proc.devRef .tc main_arg14)) (V (Proc.devRef .tc main_arg15)) (V (Proc.devRef .tc main_arg16)) :=
  P6_v133 (after P5 (after P4 (after P3 (after P2 (after P1 V))))) _ _ _ _ _ _ _ _ _ _ _ _ _ _ (S5_v121 V) ((P5_keep _ main_arg2 (by decide)).trans ((P4_keep _ main_arg2 (by decide)).trans ((P3_keep _ main_arg2 (by decide)).trans ((P2_keep _ main_arg2 (by decide)).trans (P1_keep V main_arg2 (by decide))))))

/-- The actor's output after the whole program: the stage function of the eleven arguments it depends on. -/
theorem res_v92 (V : Valuation τ sig (Elt F)) : after ops V (Proc.devRef .tc main_v92) = Read.val_main_v92 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops]
  exact ((P6_keep _ main_v92 (by decide)).trans ((P5_keep _ main_v92 (by decide)).trans (S4_v92 V)))

/-- The critic's output after the whole program: the stage function of the fourteen arguments it depends on. -/
theorem res_v133 (V : Valuation τ sig (Elt F)) : after ops V (Proc.devRef .tc main_v133) = Read.val_main_v133 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg12)) (V (Proc.devRef .tc main_arg13)) (V (Proc.devRef .tc main_arg14)) (V (Proc.devRef .tc main_arg15)) (V (Proc.devRef .tc main_arg16)) := by
  rw [after_ops]
  exact S6_v133 V

/-- No operation writes an argument's buffer. -/
theorem res_keep (V : Valuation τ sig (Elt F)) (r : Ref sig .tc) (h1 : r ∉ P1_W) (h2 : r ∉ P2_W) (h3 : r ∉ P3_W) (h4 : r ∉ P4_W) (h5 : r ∉ P5_W) (h6 : r ∉ P6_W) :
    after ops V (Proc.devRef .tc r) = V (Proc.devRef .tc r) := by
  rw [after_ops, P6_keep _ r h6, P5_keep _ r h5, P4_keep _ r h4, P3_keep _ r h3, P2_keep _ r h2, P1_keep _ r h1]

/-! ## The run -/

/-- Every fair execution of the reference ends with its two results at the stage functions of the arguments and every
    argument as it was. -/
theorem run_staged (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v92) = Cert.ReferenceIdeal.Read.val_main_v92 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v133) = Cert.ReferenceIdeal.Read.val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v92).trans (res_v92 (launchContents m c)),
      (h c main_v133).trans (res_v133 (launchContents m c)),
      (h c main_arg0).trans (res_keep (launchContents m c) main_arg0 (by decide) (by decide) (by decide) (by decide) (by decide) (by decide)),
      (h c main_arg1).trans (res_keep (launchContents m c) main_arg1 (by decide) (by decide) (by decide) (by decide) (by decide) (by decide)),
      (h c main_arg2).trans (res_keep (launchContents m c) main_arg2 (by decide) (by decide) (by decide) (by decide) (by decide) (by decide)),
      (h c main_arg3).trans (res_keep (launchContents m c) main_arg3 (by decide) (by decide) (by decide) (by decide) (by decide) (by decide)),
      (h c main_arg4).trans (res_keep (launchContents m c) main_arg4 (by decide) (by decide) (by decide) (by decide) (by decide) (by decide)),
      (h c main_arg5).trans (res_keep (launchContents m c) main_arg5 (by decide) (by decide) (by decide) (by decide) (by decide) (by decide)),
      (h c main_arg6).trans (res_keep (launchContents m c) main_arg6 (by decide) (by decide) (by decide) (by decide) (by decide) (by decide)),
      (h c main_arg7).trans (res_keep (launchContents m c) main_arg7 (by decide) (by decide) (by decide) (by decide) (by decide) (by decide)),
      (h c main_arg8).trans (res_keep (launchContents m c) main_arg8 (by decide) (by decide) (by decide) (by decide) (by decide) (by decide)),
      (h c main_arg9).trans (res_keep (launchContents m c) main_arg9 (by decide) (by decide) (by decide) (by decide) (by decide) (by decide)),
      (h c main_arg10).trans (res_keep (launchContents m c) main_arg10 (by decide) (by decide) (by decide) (by decide) (by decide) (by decide)),
      (h c main_arg11).trans (res_keep (launchContents m c) main_arg11 (by decide) (by decide) (by decide) (by decide) (by decide) (by decide)),
      (h c main_arg12).trans (res_keep (launchContents m c) main_arg12 (by decide) (by decide) (by decide) (by decide) (by decide) (by decide)),
      (h c main_arg13).trans (res_keep (launchContents m c) main_arg13 (by decide) (by decide) (by decide) (by decide) (by decide) (by decide)),
      (h c main_arg14).trans (res_keep (launchContents m c) main_arg14 (by decide) (by decide) (by decide) (by decide) (by decide) (by decide)),
      (h c main_arg15).trans (res_keep (launchContents m c) main_arg15 (by decide) (by decide) (by decide) (by decide) (by decide) (by decide)),
      (h c main_arg16).trans (res_keep (launchContents m c) main_arg16 (by decide) (by decide) (by decide) (by decide) (by decide) (by decide))⟩)
    (run_seq scopedRefs_eq scopedSems_eq defs main (fun _ => ops) main_eq (fun _ => ops_sub) m ρ)

end Cert.ReferenceIdeal.ValueOps

end
-- ==== Proof.KernelRun.lean ====
/-
  The program's run with its two results NAMED.  Every weakly fair execution of @main ends with each unscoped buffer
  at the contents the fold through @main's segments leaves (a stretch of host operations applies them to the contents
  before it; a region replaces its arrays by what its write-backs leave): so the two results, the re-tiled log-softmax
  of the actor head and the pooled critic value, end at that fold read at their buffers, and the arguments as launched.
-/
import proofs.«107606_j77086073028793_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- From any memory with zero counters every weakly fair execution of @main terminates without a fault, the two result
    buffers holding the segment fold's contents and every argument array as launched. -/
theorem run_values : θ_run defs (onTc (τ := τ) (main (F := F))) ⟨m, fun _ => 0, ρ⟩ (fun r => ∀ c : Dev nD,
      r.2.mem ((c.tc : Thread nD τ).loc main_v71) = W11 m ρ c (Proc.devRef .tc main_v71)
      ∧ r.2.mem ((c.tc : Thread nD τ).loc main_v86) = W11 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v71 (by decide)),
       h c _ (mem_uc main_v86 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c)⟩)

end Cert.KernelIdeal.RunValue

end
-- ==== Proof.KvCarry.lean ====
/-
  Buffers that a stretch of host operations or a region does not write keep their contents across it: the reads of
  the segment fold at such a buffer walk back to the boundary where the buffer was last written, or to the launch.
-/
import proofs.«107606_j77086073028793_2_alg».proof.Proof.Gen.KernelIdeal.Frame

set_option maxRecDepth 16384

noncomputable section

namespace Cert.KernelIdeal.HostValue

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

theorem W1_from0_main_arg0 : W1 m ρ c (Proc.devRef .tc main_arg0) = W0 m ρ c (Proc.devRef .tc main_arg0) :=
  calc W1 m ρ c (Proc.devRef .tc main_arg0)
    _ = W0 m ρ c (Proc.devRef .tc main_arg0) := (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

theorem W1_from0_main_arg3 : W1 m ρ c (Proc.devRef .tc main_arg3) = W0 m ρ c (Proc.devRef .tc main_arg3) :=
  calc W1 m ρ c (Proc.devRef .tc main_arg3)
    _ = W0 m ρ c (Proc.devRef .tc main_arg3) := (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

theorem W1_from0_main_arg5 : W1 m ρ c (Proc.devRef .tc main_arg5) = W0 m ρ c (Proc.devRef .tc main_arg5) :=
  calc W1 m ρ c (Proc.devRef .tc main_arg5)
    _ = W0 m ρ c (Proc.devRef .tc main_arg5) := (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

theorem W2_from1_main_v1 : W2 m ρ c (Proc.devRef .tc main_v1) = W1 m ρ c (Proc.devRef .tc main_v1) :=
  calc W2 m ρ c (Proc.devRef .tc main_v1)
    _ = W1 m ρ c (Proc.devRef .tc main_v1) := (W2_of_ne m ρ c main_v1 (by decide))

theorem W2_from1_main_v3 : W2 m ρ c (Proc.devRef .tc main_v3) = W1 m ρ c (Proc.devRef .tc main_v3) :=
  calc W2 m ρ c (Proc.devRef .tc main_v3)
    _ = W1 m ρ c (Proc.devRef .tc main_v3) := (W2_of_ne m ρ c main_v3 (by decide))

theorem W2_from1_main_v11 : W2 m ρ c (Proc.devRef .tc main_v11) = W1 m ρ c (Proc.devRef .tc main_v11) :=
  calc W2 m ρ c (Proc.devRef .tc main_v11)
    _ = W1 m ρ c (Proc.devRef .tc main_v11) := (W2_of_ne m ρ c main_v11 (by decide))

theorem W2_from0_main_arg7 : W2 m ρ c (Proc.devRef .tc main_arg7) = W0 m ρ c (Proc.devRef .tc main_arg7) :=
  calc W2 m ρ c (Proc.devRef .tc main_arg7)
    _ = W1 m ρ c (Proc.devRef .tc main_arg7) := (W2_of_ne m ρ c main_arg7 (by decide))
    _ = W0 m ρ c (Proc.devRef .tc main_arg7) := (StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

theorem W3_from2_main_v37 : W3 m ρ c (Proc.devRef .tc main_v37) = W2 m ρ c (Proc.devRef .tc main_v37) :=
  calc W3 m ρ c (Proc.devRef .tc main_v37)
    _ = W2 m ρ c (Proc.devRef .tc main_v37) := (StableHlo.after_of_forall_not_mem (b := Proc.devRef .tc main_v37) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

theorem W3_from0_main_arg6 : W3 m ρ c (Proc.devRef .tc main_arg6) = W0 m ρ c (Proc.devRef .tc main_arg6) :=
  calc W3 m ρ c (Proc.devRef .tc main_arg6)
    _ = W2 m ρ c (Proc.devRef .tc main_arg6) := (StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_arg6) := (W2_of_ne m ρ c main_arg6 (by decide))
    _ = W0 m ρ c (Proc.devRef .tc main_arg6) := (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

theorem W3_from0_main_arg8 : W3 m ρ c (Proc.devRef .tc main_arg8) = W0 m ρ c (Proc.devRef .tc main_arg8) :=
  calc W3 m ρ c (Proc.devRef .tc main_arg8)
    _ = W2 m ρ c (Proc.devRef .tc main_arg8) := (StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_arg8) := (W2_of_ne m ρ c main_arg8 (by decide))
    _ = W0 m ρ c (Proc.devRef .tc main_arg8) := (StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

theorem W4_from1_main_v1 : W4 m ρ c (Proc.devRef .tc main_v1) = W1 m ρ c (Proc.devRef .tc main_v1) :=
  calc W4 m ρ c (Proc.devRef .tc main_v1)
    _ = W3 m ρ c (Proc.devRef .tc main_v1) := (W4_of_ne m ρ c main_v1 (by decide))
    _ = W2 m ρ c (Proc.devRef .tc main_v1) := (StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_v1) := (W2_of_ne m ρ c main_v1 (by decide))

theorem W4_from1_main_v3 : W4 m ρ c (Proc.devRef .tc main_v3) = W1 m ρ c (Proc.devRef .tc main_v3) :=
  calc W4 m ρ c (Proc.devRef .tc main_v3)
    _ = W3 m ρ c (Proc.devRef .tc main_v3) := (W4_of_ne m ρ c main_v3 (by decide))
    _ = W2 m ρ c (Proc.devRef .tc main_v3) := (StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_v3) := (W2_of_ne m ρ c main_v3 (by decide))

theorem W4_from1_main_v11 : W4 m ρ c (Proc.devRef .tc main_v11) = W1 m ρ c (Proc.devRef .tc main_v11) :=
  calc W4 m ρ c (Proc.devRef .tc main_v11)
    _ = W3 m ρ c (Proc.devRef .tc main_v11) := (W4_of_ne m ρ c main_v11 (by decide))
    _ = W2 m ρ c (Proc.devRef .tc main_v11) := (StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_v11) := (W2_of_ne m ρ c main_v11 (by decide))

theorem W4_from0_main_arg10 : W4 m ρ c (Proc.devRef .tc main_arg10) = W0 m ρ c (Proc.devRef .tc main_arg10) :=
  calc W4 m ρ c (Proc.devRef .tc main_arg10)
    _ = W3 m ρ c (Proc.devRef .tc main_arg10) := (W4_of_ne m ρ c main_arg10 (by decide))
    _ = W2 m ρ c (Proc.devRef .tc main_arg10) := (StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_arg10) := (W2_of_ne m ρ c main_arg10 (by decide))
    _ = W0 m ρ c (Proc.devRef .tc main_arg10) := (StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

theorem W5_from4_main_v52 : W5 m ρ c (Proc.devRef .tc main_v52) = W4 m ρ c (Proc.devRef .tc main_v52) :=
  calc W5 m ρ c (Proc.devRef .tc main_v52)
    _ = W4 m ρ c (Proc.devRef .tc main_v52) := (StableHlo.after_of_forall_not_mem (b := Proc.devRef .tc main_v52) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

theorem W5_from0_main_arg9 : W5 m ρ c (Proc.devRef .tc main_arg9) = W0 m ρ c (Proc.devRef .tc main_arg9) :=
  calc W5 m ρ c (Proc.devRef .tc main_arg9)
    _ = W4 m ρ c (Proc.devRef .tc main_arg9) := (StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W3 m ρ c (Proc.devRef .tc main_arg9) := (W4_of_ne m ρ c main_arg9 (by decide))
    _ = W2 m ρ c (Proc.devRef .tc main_arg9) := (StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_arg9) := (W2_of_ne m ρ c main_arg9 (by decide))
    _ = W0 m ρ c (Proc.devRef .tc main_arg9) := (StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

theorem W5_from0_main_arg11 : W5 m ρ c (Proc.devRef .tc main_arg11) = W0 m ρ c (Proc.devRef .tc main_arg11) :=
  calc W5 m ρ c (Proc.devRef .tc main_arg11)
    _ = W4 m ρ c (Proc.devRef .tc main_arg11) := (StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W3 m ρ c (Proc.devRef .tc main_arg11) := (W4_of_ne m ρ c main_arg11 (by decide))
    _ = W2 m ρ c (Proc.devRef .tc main_arg11) := (StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_arg11) := (W2_of_ne m ρ c main_arg11 (by decide))
    _ = W0 m ρ c (Proc.devRef .tc main_arg11) := (StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

theorem W6_from1_main_v22 : W6 m ρ c (Proc.devRef .tc main_v22) = W1 m ρ c (Proc.devRef .tc main_v22) :=
  calc W6 m ρ c (Proc.devRef .tc main_v22)
    _ = W5 m ρ c (Proc.devRef .tc main_v22) := (W6_of_ne m ρ c main_v22 (by decide))
    _ = W4 m ρ c (Proc.devRef .tc main_v22) := (StableHlo.after_of_forall_not_mem (b := Proc.devRef .tc main_v22) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W3 m ρ c (Proc.devRef .tc main_v22) := (W4_of_ne m ρ c main_v22 (by decide))
    _ = W2 m ρ c (Proc.devRef .tc main_v22) := (StableHlo.after_of_forall_not_mem (b := Proc.devRef .tc main_v22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_v22) := (W2_of_ne m ρ c main_v22 (by decide))

theorem W8_from0_main_arg13 : W8 m ρ c (Proc.devRef .tc main_arg13) = W0 m ρ c (Proc.devRef .tc main_arg13) :=
  calc W8 m ρ c (Proc.devRef .tc main_arg13)
    _ = W7 m ρ c (Proc.devRef .tc main_arg13) := (W8_of_ne m ρ c main_arg13 (by decide))
    _ = W6 m ρ c (Proc.devRef .tc main_arg13) := (StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W5 m ρ c (Proc.devRef .tc main_arg13) := (W6_of_ne m ρ c main_arg13 (by decide))
    _ = W4 m ρ c (Proc.devRef .tc main_arg13) := (StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W3 m ρ c (Proc.devRef .tc main_arg13) := (W4_of_ne m ρ c main_arg13 (by decide))
    _ = W2 m ρ c (Proc.devRef .tc main_arg13) := (StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_arg13) := (W2_of_ne m ρ c main_arg13 (by decide))
    _ = W0 m ρ c (Proc.devRef .tc main_arg13) := (StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

theorem W8_from0_main_arg16 : W8 m ρ c (Proc.devRef .tc main_arg16) = W0 m ρ c (Proc.devRef .tc main_arg16) :=
  calc W8 m ρ c (Proc.devRef .tc main_arg16)
    _ = W7 m ρ c (Proc.devRef .tc main_arg16) := (W8_of_ne m ρ c main_arg16 (by decide))
    _ = W6 m ρ c (Proc.devRef .tc main_arg16) := (StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W5 m ρ c (Proc.devRef .tc main_arg16) := (W6_of_ne m ρ c main_arg16 (by decide))
    _ = W4 m ρ c (Proc.devRef .tc main_arg16) := (StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W3 m ρ c (Proc.devRef .tc main_arg16) := (W4_of_ne m ρ c main_arg16 (by decide))
    _ = W2 m ρ c (Proc.devRef .tc main_arg16) := (StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_arg16) := (W2_of_ne m ρ c main_arg16 (by decide))
    _ = W0 m ρ c (Proc.devRef .tc main_arg16) := (StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

theorem W9_from5_main_v65 : W9 m ρ c (Proc.devRef .tc main_v65) = W5 m ρ c (Proc.devRef .tc main_v65) :=
  calc W9 m ρ c (Proc.devRef .tc main_v65)
    _ = W8 m ρ c (Proc.devRef .tc main_v65) := (StableHlo.after_of_forall_not_mem (b := Proc.devRef .tc main_v65) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W7 m ρ c (Proc.devRef .tc main_v65) := (W8_of_ne m ρ c main_v65 (by decide))
    _ = W6 m ρ c (Proc.devRef .tc main_v65) := (StableHlo.after_of_forall_not_mem (b := Proc.devRef .tc main_v65) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W5 m ρ c (Proc.devRef .tc main_v65) := ((W6_arr m ρ c 0).trans (((dat2 (V5 m ρ) c).arrAt_in 0 rfl _).trans (A_eq2 (V5 m ρ) c 0)))

theorem W9_from4_main_v52 : W9 m ρ c (Proc.devRef .tc main_v52) = W4 m ρ c (Proc.devRef .tc main_v52) :=
  calc W9 m ρ c (Proc.devRef .tc main_v52)
    _ = W8 m ρ c (Proc.devRef .tc main_v52) := (StableHlo.after_of_forall_not_mem (b := Proc.devRef .tc main_v52) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W7 m ρ c (Proc.devRef .tc main_v52) := (W8_of_ne m ρ c main_v52 (by decide))
    _ = W6 m ρ c (Proc.devRef .tc main_v52) := (StableHlo.after_of_forall_not_mem (b := Proc.devRef .tc main_v52) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W5 m ρ c (Proc.devRef .tc main_v52) := ((W6_arr m ρ c 1).trans (((dat2 (V5 m ρ) c).arrAt_in 1 rfl _).trans (A_eq2 (V5 m ρ) c 1)))
    _ = W4 m ρ c (Proc.devRef .tc main_v52) := (StableHlo.after_of_forall_not_mem (b := Proc.devRef .tc main_v52) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

theorem W9_from0_main_arg12 : W9 m ρ c (Proc.devRef .tc main_arg12) = W0 m ρ c (Proc.devRef .tc main_arg12) :=
  calc W9 m ρ c (Proc.devRef .tc main_arg12)
    _ = W8 m ρ c (Proc.devRef .tc main_arg12) := (StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W7 m ρ c (Proc.devRef .tc main_arg12) := (W8_of_ne m ρ c main_arg12 (by decide))
    _ = W6 m ρ c (Proc.devRef .tc main_arg12) := (StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W5 m ρ c (Proc.devRef .tc main_arg12) := (W6_of_ne m ρ c main_arg12 (by decide))
    _ = W4 m ρ c (Proc.devRef .tc main_arg12) := (StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W3 m ρ c (Proc.devRef .tc main_arg12) := (W4_of_ne m ρ c main_arg12 (by decide))
    _ = W2 m ρ c (Proc.devRef .tc main_arg12) := (StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_arg12) := (W2_of_ne m ρ c main_arg12 (by decide))
    _ = W0 m ρ c (Proc.devRef .tc main_arg12) := (StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

theorem W9_from0_main_arg14 : W9 m ρ c (Proc.devRef .tc main_arg14) = W0 m ρ c (Proc.devRef .tc main_arg14) :=
  calc W9 m ρ c (Proc.devRef .tc main_arg14)
    _ = W8 m ρ c (Proc.devRef .tc main_arg14) := (StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W7 m ρ c (Proc.devRef .tc main_arg14) := (W8_of_ne m ρ c main_arg14 (by decide))
    _ = W6 m ρ c (Proc.devRef .tc main_arg14) := (StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W5 m ρ c (Proc.devRef .tc main_arg14) := (W6_of_ne m ρ c main_arg14 (by decide))
    _ = W4 m ρ c (Proc.devRef .tc main_arg14) := (StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W3 m ρ c (Proc.devRef .tc main_arg14) := (W4_of_ne m ρ c main_arg14 (by decide))
    _ = W2 m ρ c (Proc.devRef .tc main_arg14) := (StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_arg14) := (W2_of_ne m ρ c main_arg14 (by decide))
    _ = W0 m ρ c (Proc.devRef .tc main_arg14) := (StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

theorem W9_from0_main_arg15 : W9 m ρ c (Proc.devRef .tc main_arg15) = W0 m ρ c (Proc.devRef .tc main_arg15) :=
  calc W9 m ρ c (Proc.devRef .tc main_arg15)
    _ = W8 m ρ c (Proc.devRef .tc main_arg15) := (StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W7 m ρ c (Proc.devRef .tc main_arg15) := (W8_of_ne m ρ c main_arg15 (by decide))
    _ = W6 m ρ c (Proc.devRef .tc main_arg15) := (StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W5 m ρ c (Proc.devRef .tc main_arg15) := (W6_of_ne m ρ c main_arg15 (by decide))
    _ = W4 m ρ c (Proc.devRef .tc main_arg15) := (StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W3 m ρ c (Proc.devRef .tc main_arg15) := (W4_of_ne m ρ c main_arg15 (by decide))
    _ = W2 m ρ c (Proc.devRef .tc main_arg15) := (StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_arg15) := (W2_of_ne m ρ c main_arg15 (by decide))
    _ = W0 m ρ c (Proc.devRef .tc main_arg15) := (StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

theorem W10_from0_main_arg2 : W10 m ρ c (Proc.devRef .tc main_arg2) = W0 m ρ c (Proc.devRef .tc main_arg2) :=
  calc W10 m ρ c (Proc.devRef .tc main_arg2)
    _ = W9 m ρ c (Proc.devRef .tc main_arg2) := (W10_of_ne m ρ c main_arg2 (by decide))
    _ = W8 m ρ c (Proc.devRef .tc main_arg2) := (StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W7 m ρ c (Proc.devRef .tc main_arg2) := (W8_of_ne m ρ c main_arg2 (by decide))
    _ = W6 m ρ c (Proc.devRef .tc main_arg2) := (StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W5 m ρ c (Proc.devRef .tc main_arg2) := (W6_of_ne m ρ c main_arg2 (by decide))
    _ = W4 m ρ c (Proc.devRef .tc main_arg2) := (StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W3 m ρ c (Proc.devRef .tc main_arg2) := (W4_of_ne m ρ c main_arg2 (by decide))
    _ = W2 m ρ c (Proc.devRef .tc main_arg2) := (StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_arg2) := (W2_of_ne m ρ c main_arg2 (by decide))
    _ = W0 m ρ c (Proc.devRef .tc main_arg2) := (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

theorem W11_from9_main_v71 : W11 m ρ c (Proc.devRef .tc main_v71) = W9 m ρ c (Proc.devRef .tc main_v71) :=
  calc W11 m ρ c (Proc.devRef .tc main_v71)
    _ = W10 m ρ c (Proc.devRef .tc main_v71) := (StableHlo.after_of_forall_not_mem (b := Proc.devRef .tc main_v71) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W9 m ρ c (Proc.devRef .tc main_v71) := (W10_of_ne m ρ c main_v71 (by decide))

end Cert.KernelIdeal.HostValue

end
-- ==== Proof.Spec.lean ====
/-
  The mathematics both programs compute, stated once over plain index types, with no program in sight.

  A GraphSAGE layer on n nodes sends a node's aggregated neighbour features A and its own features X
  through two weight matrices and a bias:  lin A X Wl b Wr = A·Wl + X·Wr + b  (an [n,o] array), every
  product and sum taken in the extended reals.  The actor head ends in a log-softmax over ALL nodes:
  lsm y i = (y i − M) − log (∑ⱼ exp (y j − M)),  M = the supremum of y, over whatever finite type indexes
  the nodes — a column [n,1] or its row-major re-tiling [r,c] alike.
-/
import Idealize.ShloMosaic.PureOps.Ideal
import Idealize.ShloMosaic.Lib.ValueIdx

noncomputable section

open scoped BigOperators

namespace Cert.Sage

open Idealize.ShloMosaic Idealize.ShloMosaic.ValueIdx

/-- An [n,k] array of extended reals. -/
abbrev Mat (n k : Nat) : Type := (⟨2, ![n, k]⟩ : Shape).Idx → EReal

/-- Row `r` of `A` against column `j` of `W`: the sum over the shared axis of the products. -/
def rowDot {n k o : Nat} (A : Mat n k) (W : Mat k o) (r : Fin n) (j : Fin o) : EReal :=
  ∑ q : Fin k, A (ix2 r q) * W (ix2 q j)

/-- The linear part of a SAGE layer: A·Wl + X·Wr + b, the bias a row [1,o] added to every node's row. -/
def lin {n k o : Nat} (A X : Mat n k) (Wl : Mat k o) (b : Mat 1 o) (Wr : Mat k o) : Mat n o :=
  fun i => rowDot A Wl (i 0) (i 1) + rowDot X Wr (i 0) (i 1) + b (ix2 0 (i 1))

/-- The critic's second product: mid·w + b for a column of weights [k,o] and a bias row [1,o]. -/
def proj {n k o : Nat} (Mid : Mat n k) (W : Mat k o) (b : Mat 1 o) : Mat n o :=
  fun i => rowDot Mid W (i 0) (i 1) + b (ix2 0 (i 1))

/-- Log-softmax over every entry of a finite family: (y i − M) − log ∑ⱼ exp (y j − M), M = sup y. -/
def lsm {ι : Type} [Fintype ι] (y : ι → EReal) : ι → EReal :=
  fun i => (y i - Finset.univ.sup y) - Ideal.log (∑ j, Ideal.exp (y j - Finset.univ.sup y))

/-- Nodes whose flag exceeds 1/2 are struck out: their logit becomes −∞. -/
def masked {ι : Type} (flag x : ι → EReal) : ι → EReal :=
  fun i => if ((1 / 2 : ℝ) : EReal) < flag i then ⊥ else x i

/-- Re-indexing the nodes by a bijection re-indexes the log-softmax: the supremum and the sum range over all of them. -/
theorem lsm_comp_equiv {ι κ : Type} [Fintype ι] [Fintype κ] (e : ι ≃ κ) (y : κ → EReal) :
    lsm (y ∘ e) = lsm y ∘ e := by
  have hs : Finset.univ.sup (y ∘ e) = Finset.univ.sup y := by
    apply le_antisymm
    · exact Finset.sup_le fun i _ => Finset.le_sup (f := y) (Finset.mem_univ (e i))
    · refine Finset.sup_le fun k _ => ?_
      have := Finset.le_sup (f := y ∘ e) (Finset.mem_univ (e.symm k))
      simpa using this
  funext i
  simp only [lsm, hs, Function.comp]
  rw [Equiv.sum_comp e (fun k => Ideal.exp (y k - Finset.univ.sup y))]

end Cert.Sage

end
-- ==== Proof.Consts.lean ====
/-
  The float words this certificate meets, read as extended reals, and the one law that joins the two programs'
  neighbour means: a sum scaled by the reciprocal 1/c is that sum divided by c, for every extended real sum, as soon
  as c is not zero — and a count clamped below by one never is.
-/
import Idealize.ShloMosaic.PureOps.Ideal
import Idealize.ShloMosaic.PureOps.Ideal.Laws

noncomputable section

namespace Cert.Sage

open Idealize.ShloMosaic

/-- The word of 1.0 is the real one. -/
theorem ofBits_one : Ideal.ofBits .f32 0x3F800000#32 = 1 := by
  simp [Ideal.ofBits, Ideal.ieee]
  rw [← EReal.coe_mul, ← EReal.coe_one]
  exact congrArg _ (by norm_num)

/-- The word of −inf is the bottom of the extended reals. -/
theorem ofBits_neg_inf : Ideal.ofBits .f32 0xFF800000#32 = ⊥ := by
  simp [Ideal.ofBits, Ideal.ieee]

/-- Scaling by the reciprocal of a nonzero extended real is dividing by it: both are the product with its inverse. -/
theorem mul_one_div (s c : EReal) (hc : c ≠ 0) : s * Ideal.div 1 c = Ideal.div s c := by
  unfold Ideal.div
  rw [if_neg hc, if_neg hc, one_mul]

/-- A value clamped below by one is not zero. -/
theorem max_one_ne_zero (a : EReal) : max a 1 ≠ 0 :=
  (lt_of_lt_of_le zero_lt_one (le_max_right a 1)).ne'

end Cert.Sage

end
-- ==== Proof.RefLaws.lean ====
/-
  The reference's stages read as the layer mathematics.  Each SAGE layer of the reference is two host products, a
  broadcast bias and (for the hidden layers) a tanh; read entry by entry it is the function `lin` of its five arrays:
  a product's entry (r, j) is the sum over the shared axis of row r times column j, the bias row adds its entry j, and
  the three summands commute.  The neighbour mean the first program forms with a reciprocal is the reference's quotient.
-/
import proofs.«107606_j77086073028793_2_alg».proof.Proof.ReadP
import proofs.«107606_j77086073028793_2_alg».proof.Proof.Spec
import proofs.«107606_j77086073028793_2_alg».proof.Proof.Consts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-- A float array of the given shape at the exact instance. -/
abbrev Arr (S : Shape) : Type := (⟨S, .f32⟩ : BufTy).Contents (Elt Ideal)
/-- An array of 32-bit words of the given shape. -/
abbrev IArr (S : Shape) : Type := (⟨S, .i32⟩ : BufTy).Contents (Elt Ideal)

/-- The in-degree clamped below by one is never zero. -/
theorem clamped_ne_zero (x1 : IArr S2x1600000) (r : S100000.Idx) : val_main_v28 (F := Ideal) x1 r ≠ 0 := by
  rw [val_main_v28_apply, val_main_v27_apply, val_main_cst_5_apply]
  show max _ (Ideal.ofBits .f32 0x3F800000#32) ≠ 0
  rw [Cert.Sage.ofBits_one]
  exact Cert.Sage.max_one_ne_zero _

/-- The word of 1.0 broadcast over the nodes reads as that word at every node. -/
theorem ones_apply (r : S100000.Idx) :
    broadcastInDim S100000 ![] bcast_S_S100000 (constant (F := Ideal) S_ .f32 0x3F800000#32) r = Ideal.ofBits .f32 0x3F800000#32 :=
  (broadcastInDim_apply ![] bcast_S_S100000 (constant (F := Ideal) S_ .f32 0x3F800000#32) r (fun a => a.elim0) (fun a => a.elim0)).trans rfl

/-- Width 7: the scattered neighbour sum times the broadcast reciprocal of the clamped in-degree is that sum divided by the
    broadcast clamped in-degree, entry by entry — s · (1/c) = s / c for every extended real s once c ≠ 0. -/
theorem mean7_eq (S : Arr S100000x7) (C : Arr S100000) (hC : ∀ r, C r ≠ 0) :
    mulf (F := Ideal) S (broadcastInDim S100000x7 ![0, 1] bcast_S100000x1_S100000x7_0_1 (broadcastInDim S100000x1 ![0] bcast_S100000_S100000x1_0
      (Host.divf (F := Ideal) (broadcastInDim S100000 ![] bcast_S_S100000 (constant (F := Ideal) S_ .f32 0x3F800000#32)) C)))
    = Host.divf (F := Ideal) S (broadcastInDim S100000x7 ![0, 1] bcast_S100000x1_S100000x7_0_1 (broadcastInDim S100000x1 ![0] bcast_S100000_S100000x1_0 C)) := by
  funext i
  have hb : ∀ y : Arr S100000, broadcastInDim S100000x7 ![0, 1] bcast_S100000x1_S100000x7_0_1
      (broadcastInDim S100000x1 ![0] bcast_S100000_S100000x1_0 y) i = y (idx_main_v29 (idx_main_v30 i)) := fun y =>
    (broadcastInDim_apply ![0, 1] bcast_S100000x1_S100000x7_0_1 (broadcastInDim S100000x1 ![0] bcast_S100000_S100000x1_0 y) i (idx_main_v30 i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl])).trans
    (broadcastInDim_apply ![0] bcast_S100000_S100000x1_0 y (idx_main_v30 i) (idx_main_v29 (idx_main_v30 i)) (fun a => match a with
      | ⟨0, _⟩ => by show ((idx_main_v30 i) 0).val = if (100000 : Nat) = 1 then 0 else ((idx_main_v30 i) 0).val; rw [if_neg (by decide)]))
  show S i * _ = Ideal.div (S i) _
  rw [hb, hb]
  show S i * Ideal.div (broadcastInDim S100000 ![] bcast_S_S100000 (constant (F := Ideal) S_ .f32 0x3F800000#32) _) (C _) = Ideal.div (S i) (C _)
  rw [ones_apply, Cert.Sage.ofBits_one]
  exact Cert.Sage.mul_one_div _ _ (hC _)

/-- Width 128: the scattered neighbour sum times the broadcast reciprocal of the clamped in-degree is that sum divided by the
    broadcast clamped in-degree, entry by entry — s · (1/c) = s / c for every extended real s once c ≠ 0. -/
theorem mean128_eq (S : Arr S100000x128) (C : Arr S100000) (hC : ∀ r, C r ≠ 0) :
    mulf (F := Ideal) S (broadcastInDim S100000x128 ![0, 1] bcast_S100000x1_S100000x128_0_1 (broadcastInDim S100000x1 ![0] bcast_S100000_S100000x1_0
      (Host.divf (F := Ideal) (broadcastInDim S100000 ![] bcast_S_S100000 (constant (F := Ideal) S_ .f32 0x3F800000#32)) C)))
    = Host.divf (F := Ideal) S (broadcastInDim S100000x128 ![0, 1] bcast_S100000x1_S100000x128_0_1 (broadcastInDim S100000x1 ![0] bcast_S100000_S100000x1_0 C)) := by
  funext i
  have hb : ∀ y : Arr S100000, broadcastInDim S100000x128 ![0, 1] bcast_S100000x1_S100000x128_0_1
      (broadcastInDim S100000x1 ![0] bcast_S100000_S100000x1_0 y) i = y (idx_main_v29 (idx_main_v56 i)) := fun y =>
    (broadcastInDim_apply ![0, 1] bcast_S100000x1_S100000x128_0_1 (broadcastInDim S100000x1 ![0] bcast_S100000_S100000x1_0 y) i (idx_main_v56 i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl])).trans
    (broadcastInDim_apply ![0] bcast_S100000_S100000x1_0 y (idx_main_v56 i) (idx_main_v29 (idx_main_v56 i)) (fun a => match a with
      | ⟨0, _⟩ => by show ((idx_main_v56 i) 0).val = if (100000 : Nat) = 1 then 0 else ((idx_main_v56 i) 0).val; rw [if_neg (by decide)]))
  show S i * _ = Ideal.div (S i) _
  rw [hb, hb]
  show S i * Ideal.div (broadcastInDim S100000 ![] bcast_S_S100000 (constant (F := Ideal) S_ .f32 0x3F800000#32) _) (C _) = Ideal.div (S i) (C _)
  rw [ones_apply, Cert.Sage.ofBits_one]
  exact Cert.Sage.mul_one_div _ _ (hC _)

/-- A bias vector re-tiled as a row [1,o], read at column j, is the vector's entry j. -/
theorem bias_row_apply {o : Nat} (b : (⟨1, ![o]⟩ : Shape).Idx → EReal) (h : (⟨1, ![o]⟩ : Shape).ShapeCasts ⟨2, ![1, o]⟩) (j : Fin o) :
    shapeCast (⟨2, ![1, o]⟩ : Shape) b h (ix2 0 j) = b (ix1 j) :=
  (shapeCast_addUnit_apply ![o] b h (ix2 0 j)).trans (congrArg b (funext fun a => by match a with | ⟨0, _⟩ => rfl))

/-- Two indices into an axis of extent one are the same index. -/
theorem fin_one_eq {n : Nat} (hn : n = 1) (a b : Fin n) : a = b := by
  subst hn; exact Subsingleton.elim a b

/-- The first layer: tanh of the linear part of the mean-aggregated inputs, the inputs, the two weights and the bias row is the reference's stage after its first tanh. -/
theorem layer1 (x0 : Arr S100000x7) (x1 : IArr S2x1600000) (x3 : Arr S7x128) (x4 : Arr S128) (x5 : Arr S7x128) :
    (fun i => Ideal.tanh (Cert.Sage.lin (val_main_v31 (F := Ideal) x0 x1) x0 x3 (shapeCast S1x128 x4 (by decide)) x5 i)) = val_main_v38 (F := Ideal) x0 x1 x3 x4 x5 := by
  funext i
  rw [val_main_v38_apply, val_main_v37_apply, val_main_v35_apply, val_main_v32_apply, val_main_v34_apply, val_main_v33_apply, val_main_v36_apply]
  have hl : ∀ k : Fin 7, lidx_main_v32 i k = ix2 (i 0) k := fun k => funext fun a => by match a with | ⟨0, _⟩ => rfl | ⟨1, _⟩ => rfl
  have hr : ∀ k : Fin 7, ridx_main_v32 i k = ix2 k (i 1) := fun k => funext fun a => by match a with | ⟨0, _⟩ => rfl | ⟨1, _⟩ => rfl
  have hl' : ∀ k : Fin 7, lidx_main_v36 i k = ix2 (i 0) k := fun k => funext fun a => by match a with | ⟨0, _⟩ => rfl | ⟨1, _⟩ => rfl
  have hr' : ∀ k : Fin 7, ridx_main_v36 i k = ix2 k (i 1) := fun k => funext fun a => by match a with | ⟨0, _⟩ => rfl | ⟨1, _⟩ => rfl
  have hb : idx_main_v33 (idx_main_v34 i) = ix1 (i 1) := funext fun a => by match a with | ⟨0, _⟩ => rfl
  have hbias : shapeCast S1x128 x4 (by decide) (ix2 0 (i 1)) = x4 (ix1 (i 1)) := bias_row_apply (o := 128) x4 _ (i 1)
  simp only [hl, hr, hl', hr', hb, hbias, Cert.Sage.lin, Cert.Sage.rowDot, Ideal.addf_def, Ideal.hostUnary_tanh_def]
  exact congrArg Ideal.tanh (add_right_comm _ _ _)

/-- The second layer, on the first layer's output. -/
theorem layer2 (x0 : Arr S100000x7) (x1 : IArr S2x1600000) (x3 : Arr S7x128) (x4 : Arr S128) (x5 : Arr S7x128) (x6 : Arr S128x128) (x7 : Arr S128) (x8 : Arr S128x128) :
    (fun i => Ideal.tanh (Cert.Sage.lin (val_main_v57 (F := Ideal) x0 x1 x3 x4 x5) (val_main_v38 (F := Ideal) x0 x1 x3 x4 x5) x6 (shapeCast S1x128 x7 (by decide)) x8 i)) = val_main_v64 (F := Ideal) x0 x1 x3 x4 x5 x6 x7 x8 := by
  funext i
  rw [val_main_v64_apply, val_main_v63_apply, val_main_v61_apply, val_main_v58_apply, val_main_v60_apply, val_main_v59_apply, val_main_v62_apply]
  have hl : ∀ k : Fin 128, lidx_main_v58 i k = ix2 (i 0) k := fun k => funext fun a => by match a with | ⟨0, _⟩ => rfl | ⟨1, _⟩ => rfl
  have hr : ∀ k : Fin 128, ridx_main_v58 i k = ix2 k (i 1) := fun k => funext fun a => by match a with | ⟨0, _⟩ => rfl | ⟨1, _⟩ => rfl
  have hl' : ∀ k : Fin 128, lidx_main_v62 i k = ix2 (i 0) k := fun k => funext fun a => by match a with | ⟨0, _⟩ => rfl | ⟨1, _⟩ => rfl
  have hr' : ∀ k : Fin 128, ridx_main_v62 i k = ix2 k (i 1) := fun k => funext fun a => by match a with | ⟨0, _⟩ => rfl | ⟨1, _⟩ => rfl
  have hb : idx_main_v59 (idx_main_v60 i) = ix1 (i 1) := funext fun a => by match a with | ⟨0, _⟩ => rfl
  have hbias : shapeCast S1x128 x7 (by decide) (ix2 0 (i 1)) = x7 (ix1 (i 1)) := bias_row_apply (o := 128) x7 _ (i 1)
  simp only [hl, hr, hl', hr', hb, hbias, Cert.Sage.lin, Cert.Sage.rowDot, Ideal.addf_def, Ideal.hostUnary_tanh_def]
  exact congrArg Ideal.tanh (add_right_comm _ _ _)

/-- The actor head's layer (one output column, no activation), on the second layer's output. -/
theorem actor_raw (x0 : Arr S100000x7) (x1 : IArr S2x1600000) (x3 : Arr S7x128) (x4 : Arr S128) (x5 : Arr S7x128) (x6 : Arr S128x128) (x7 : Arr S128) (x8 : Arr S128x128) (x9 : Arr S128x1) (x10 : Arr S1) (x11 : Arr S128x1) :
    Cert.Sage.lin (val_main_v83 (F := Ideal) x0 x1 x3 x4 x5 x6 x7 x8) (val_main_v64 (F := Ideal) x0 x1 x3 x4 x5 x6 x7 x8) x9 (shapeCast S1x1 x10 (by decide)) x11 = val_main_v89 (F := Ideal) x0 x1 x3 x4 x5 x6 x7 x8 x9 x10 x11 := by
  funext i
  rw [val_main_v89_apply, val_main_v87_apply, val_main_v84_apply, val_main_v86_apply, val_main_v85_apply, val_main_v88_apply]
  have hl : ∀ k : Fin 128, lidx_main_v84 i k = ix2 (i 0) k := fun k => funext fun a => by match a with | ⟨0, _⟩ => rfl | ⟨1, _⟩ => rfl
  have hr : ∀ k : Fin 128, ridx_main_v84 i k = ix2 k (i 1) := fun k => funext fun a => by match a with | ⟨0, _⟩ => rfl | ⟨1, _⟩ => rfl
  have hl' : ∀ k : Fin 128, lidx_main_v88 i k = ix2 (i 0) k := fun k => funext fun a => by match a with | ⟨0, _⟩ => rfl | ⟨1, _⟩ => rfl
  have hr' : ∀ k : Fin 128, ridx_main_v88 i k = ix2 k (i 1) := fun k => funext fun a => by match a with | ⟨0, _⟩ => rfl | ⟨1, _⟩ => rfl
  have hb : idx_main_v85 (idx_main_v86 i) = ix1 (i 1) := funext fun a => by match a with | ⟨0, _⟩ => exact fin_one_eq rfl _ _
  have hbias : shapeCast S1x1 x10 (by decide) (ix2 0 (i 1)) = x10 (ix1 (i 1)) := bias_row_apply (o := 1) x10 _ (i 1)
  simp only [hl, hr, hl', hr', hb, hbias, Cert.Sage.lin, Cert.Sage.rowDot, Ideal.addf_def]
  exact add_right_comm _ _ _

/-- The critic's hidden layer (no activation), on the second layer's output. -/
theorem critic_mid (x0 : Arr S100000x7) (x1 : IArr S2x1600000) (x3 : Arr S7x128) (x4 : Arr S128) (x5 : Arr S7x128) (x6 : Arr S128x128) (x7 : Arr S128) (x8 : Arr S128x128) (x12 : Arr S128x128) (x13 : Arr S128) (x14 : Arr S128x128) :
    Cert.Sage.lin (val_main_v111 (F := Ideal) x0 x1 x3 x4 x5 x6 x7 x8) (val_main_v64 (F := Ideal) x0 x1 x3 x4 x5 x6 x7 x8) x12 (shapeCast S1x128 x13 (by decide)) x14 = val_main_v117 (F := Ideal) x0 x1 x3 x4 x5 x6 x7 x8 x12 x13 x14 := by
  funext i
  rw [val_main_v117_apply, val_main_v115_apply, val_main_v112_apply, val_main_v114_apply, val_main_v113_apply, val_main_v116_apply]
  have hl : ∀ k : Fin 128, lidx_main_v112 i k = ix2 (i 0) k := fun k => funext fun a => by match a with | ⟨0, _⟩ => rfl | ⟨1, _⟩ => rfl
  have hr : ∀ k : Fin 128, ridx_main_v112 i k = ix2 k (i 1) := fun k => funext fun a => by match a with | ⟨0, _⟩ => rfl | ⟨1, _⟩ => rfl
  have hl' : ∀ k : Fin 128, lidx_main_v116 i k = ix2 (i 0) k := fun k => funext fun a => by match a with | ⟨0, _⟩ => rfl | ⟨1, _⟩ => rfl
  have hr' : ∀ k : Fin 128, ridx_main_v116 i k = ix2 k (i 1) := fun k => funext fun a => by match a with | ⟨0, _⟩ => rfl | ⟨1, _⟩ => rfl
  have hb : idx_main_v113 (idx_main_v114 i) = ix1 (i 1) := funext fun a => by match a with | ⟨0, _⟩ => rfl
  have hbias : shapeCast S1x128 x13 (by decide) (ix2 0 (i 1)) = x13 (ix1 (i 1)) := bias_row_apply (o := 128) x13 _ (i 1)
  simp only [hl, hr, hl', hr', hb, hbias, Cert.Sage.lin, Cert.Sage.rowDot, Ideal.addf_def]
  exact add_right_comm _ _ _

/-- The critic's projection of its hidden layer onto one column, plus its bias. -/
theorem critic_raw (x0 : Arr S100000x7) (x1 : IArr S2x1600000) (x3 : Arr S7x128) (x4 : Arr S128) (x5 : Arr S7x128) (x6 : Arr S128x128) (x7 : Arr S128) (x8 : Arr S128x128) (x12 : Arr S128x128) (x13 : Arr S128) (x14 : Arr S128x128) (x15 : Arr S128x1) (x16 : Arr S1) :
    Cert.Sage.proj (val_main_v117 (F := Ideal) x0 x1 x3 x4 x5 x6 x7 x8 x12 x13 x14) x15 (shapeCast S1x1 x16 (by decide)) = val_main_v121 (F := Ideal) x0 x1 x3 x4 x5 x6 x7 x8 x12 x13 x14 x15 x16 := by
  funext i
  rw [val_main_v121_apply, val_main_v118_apply, val_main_v120_apply, val_main_v119_apply]
  have hl : ∀ k : Fin 128, lidx_main_v118 i k = ix2 (i 0) k := fun k => funext fun a => by match a with | ⟨0, _⟩ => rfl | ⟨1, _⟩ => rfl
  have hr : ∀ k : Fin 128, ridx_main_v118 i k = ix2 k (i 1) := fun k => funext fun a => by match a with | ⟨0, _⟩ => rfl | ⟨1, _⟩ => rfl
  have hb : idx_main_v119 (idx_main_v120 i) = ix1 (i 1) := funext fun a => by match a with | ⟨0, _⟩ => exact fin_one_eq rfl _ _
  have hbias : shapeCast S1x1 x16 (by decide) (ix2 0 (i 1)) = x16 (ix1 (i 1)) := bias_row_apply (o := 1) x16 _ (i 1)
  simp only [hl, hr, hb, hbias, Cert.Sage.proj, Cert.Sage.rowDot, Ideal.addf_def]
  rfl

/-! ## The actor head's mask and the re-tiling of the node column -/

/-- The do-not-flip flags as the first program stores them: the reference's boolean per node, as 0.0 or 1.0, in a column. -/
def maskF (x0 : Arr S100000x7) : Arr S100000x1 :=
  broadcastInDim S100000x1 ![0] bcast_S100000_S100000x1_0 (uitofp (F := Ideal) .f32 (val_main_v12 (F := Ideal) x0))

/-- A one-bit word read as a number exceeds 1/2 exactly when the bit is set. -/
theorem half_lt_bit (b : BitVec 1) : (((1 / 2 : ℝ) : EReal) < ((b.toNat : ℝ) : EReal)) ↔ b = 1 := by
  rcases (by decide : ∀ b : BitVec 1, b = 0 ∨ b = 1) b with rfl | rfl
  · simp
  · simp
    exact_mod_cast (show ((2 : ℝ))⁻¹ < 1 by norm_num)

/-- Striking out the flagged nodes of a column by the 0/1 flags is the reference's select on its booleans. -/
theorem masked_eq (x0 : Arr S100000x7) (x1 : IArr S2x1600000) (x3 : Arr S7x128) (x4 : Arr S128) (x5 : Arr S7x128) (x6 : Arr S128x128) (x7 : Arr S128) (x8 : Arr S128x128) (x9 : Arr S128x1) (x10 : Arr S1) (x11 : Arr S128x1) :
    Cert.Sage.masked (maskF x0) (val_main_v89 (F := Ideal) x0 x1 x3 x4 x5 x6 x7 x8 x9 x10 x11) = val_main_v91 (F := Ideal) x0 x1 x3 x4 x5 x6 x7 x8 x9 x10 x11 := by
  funext i
  rw [val_main_v91_apply, val_main_v90_apply, val_main_call0_v1_apply, val_main_call0_v0_apply, val_main_cst_18_apply]
  have hm : maskF x0 i = ((((val_main_v12 (F := Ideal) x0) (idx_main_v90 i)).toNat : ℝ) : EReal) := by
    unfold maskF
    exact (broadcastInDim_apply ![0] bcast_S100000_S100000x1_0 (uitofp (F := Ideal) .f32 (val_main_v12 (F := Ideal) x0)) i (idx_main_v90 i) (fun a => match a with
      | ⟨0, _⟩ => by show (i 0).val = if (100000 : Nat) = 1 then 0 else (i 0).val; rw [if_neg (by decide)])).trans rfl
  show (if ((1 / 2 : ℝ) : EReal) < maskF x0 i then ⊥ else _) = Scalar.select _ (Ideal.ofBits .f32 0xFF800000#32) _
  rw [hm, Cert.Sage.ofBits_neg_inf]
  unfold Scalar.select
  exact if_congr (half_lt_bit _) rfl rfl

/-- Log-softmax over all nodes does not see how the node column is tiled: re-tile a column to [800,125], strike and
    take the log-softmax there, re-tile back — the result is the log-softmax of the struck column. -/
theorem retile_lsm (f a : Arr S100000x1) (h2 : S100000x1.ShapeCasts (⟨2, ![800, 125]⟩ : Shape)) (h1 : (⟨2, ![800, 125]⟩ : Shape).ShapeCasts S100000x1) :
    shapeCast S100000x1 (Cert.Sage.lsm (Cert.Sage.masked (shapeCast (⟨2, ![800, 125]⟩ : Shape) f h2) (shapeCast (⟨2, ![800, 125]⟩ : Shape) a h2))) h1
      = Cert.Sage.lsm (Cert.Sage.masked f a) := by
  have hm : Cert.Sage.masked (shapeCast (⟨2, ![800, 125]⟩ : Shape) f h2) (shapeCast (⟨2, ![800, 125]⟩ : Shape) a h2)
      = (Cert.Sage.masked f a) ∘ (Shape.reshapeEquiv h2) := rfl
  rw [hm, Cert.Sage.lsm_comp_equiv]
  exact shapeCast_shapeCast (Cert.Sage.lsm (Cert.Sage.masked f a)) h2 h1

end Cert.ReferenceIdeal.RefValue

end
-- ==== Proof.KvLayers.lean ====
/-
  The first program's run, stage by stage, against the reference's stages.  At each region's entry its input arrays
  are named (a host stretch's results are the host operations applied to the contents before it); each region's output
  is the layer mathematics of those inputs; and each such value is the reference's stage of the same name of the
  arguments.  The neighbour mean is where the two programs differ in form — a product with a reciprocal against a
  quotient — and where the clamped in-degree, never zero, makes them one.
-/
import proofs.«107606_j77086073028793_2_alg».proof.Proof.KvCarry
import proofs.«107606_j77086073028793_2_alg».proof.Proof.RefLaws
import Idealize.ShloMosaic.Lib.StableHlo.Run

set_option maxRecDepth 16384
-- comparing a buffer's contents type at a late index of the program's buffer table with a literal array type walks the table
set_option maxHeartbeats 4000000

noncomputable section

namespace Cert.KernelIdeal.HostValue

open Idealize.ShloMosaic Idealize.ShloMosaic.TcCoe Idealize.SL.Sem Idealize.ShloMosaic.StableHlo
open Cert.KernelIdeal Cert.KernelIdeal.Gen
open Cert.ReferenceIdeal.Read Cert.ReferenceIdeal.RefValue

variable (m : (ℓ : Loc nD τ sig) → Buf (Elt Ideal) ℓ) (ρ : Dev nD → PrngReg) (c : Dev nD)

/-! ## Before the first region -/

theorem W1_v1 : W1 m ρ c (Proc.devRef .tc main_v1) = val_main_v1 (F := Ideal) (m ((c : Thread nD τ).loc main_arg1)) := by
  show StableHlo.after hostOps0 (W0 m ρ c) _ = _
  after_results_simp
  rfl

theorem W1_v3 : W1 m ρ c (Proc.devRef .tc main_v3) = val_main_v3 (F := Ideal) (m ((c : Thread nD τ).loc main_arg1)) := by
  show StableHlo.after hostOps0 (W0 m ρ c) _ = _
  after_results_simp
  rfl

/-- The reciprocal of the clamped in-degree. -/
theorem W1_v11 : W1 m ρ c (Proc.devRef .tc main_v11)
    = Host.divf (F := Ideal) (broadcastInDim Cert.ReferenceIdeal.S100000 ![] Cert.ReferenceIdeal.Gen.bcast_S_S100000 (constant (F := Ideal) Cert.ReferenceIdeal.S_ .f32 0x3F800000#32)) (val_main_v28 (F := Ideal) (m ((c : Thread nD τ).loc main_arg1))) := by
  show StableHlo.after hostOps0 (W0 m ρ c) _ = _
  after_results_simp
  rfl

theorem W1_v22 : W1 m ρ c (Proc.devRef .tc main_v22) = maskF (m ((c : Thread nD τ).loc main_arg0)) := by
  show StableHlo.after hostOps0 (W0 m ρ c) _ = _
  after_results_simp
  rfl

theorem W1_v36 : W1 m ρ c (Proc.devRef .tc main_v36) = shapeCast S1x128 (m ((c : Thread nD τ).loc main_arg4)) shapeCasts_S128_S1x128 := by
  show StableHlo.after hostOps0 (W0 m ρ c) _ = _
  after_results_simp
  rfl

/-- The mean-aggregated inputs: the first program's product with the reciprocal is the reference's quotient. -/
theorem W1_v35 : W1 m ρ c (Proc.devRef .tc main_v35) = val_main_v31 (F := Ideal) (m ((c : Thread nD τ).loc main_arg0)) (m ((c : Thread nD τ).loc main_arg1)) := by
  show StableHlo.after hostOps0 (W0 m ρ c) _ = _
  after_results_simp
  exact (mean7_eq (val_main_v22 (F := Ideal) (m ((c : Thread nD τ).loc main_arg0)) (m ((c : Thread nD τ).loc main_arg1))) (val_main_v28 (F := Ideal) (m ((c : Thread nD τ).loc main_arg1))) (clamped_ne_zero (m ((c : Thread nD τ).loc main_arg1)))).trans rfl

section Regions

variable (R0 : ∀ (V : ((c : Dev nD) → (b : Ref sig .tc) → Buf (Elt Ideal) ((c : Thread nD τ).loc b))) (c : Dev nD), (dat0 (F := Ideal) V c).arrAt 5 cfg0.N
    = fun i => Ideal.tanh (Cert.Sage.lin (V c main_v35) (V c main_arg0) (V c main_arg3) (V c main_v36) (V c main_arg5) i))
variable (R1 : ∀ (V : ((c : Dev nD) → (b : Ref sig .tc) → Buf (Elt Ideal) ((c : Thread nD τ).loc b))) (c : Dev nD), (dat1 (F := Ideal) V c).arrAt 5 cfg1.N
    = fun i => Ideal.tanh (Cert.Sage.lin (V c main_v50) (V c main_v37) (V c main_arg6) (V c main_v51) (V c main_arg8) i))
variable (R2 : ∀ (V : ((c : Dev nD) → (b : Ref sig .tc) → Buf (Elt Ideal) ((c : Thread nD τ).loc b))) (c : Dev nD), (dat2 (F := Ideal) V c).arrAt 5 cfg2.N
    = Cert.Sage.lin (V c main_v65) (V c main_v52) (V c main_arg9) (V c main_v66) (V c main_arg11))
variable (R3 : ∀ (V : ((c : Dev nD) → (b : Ref sig .tc) → Buf (Elt Ideal) ((c : Thread nD τ).loc b))) (c : Dev nD), (dat3 (F := Ideal) V c).arrAt 2 cfg3.N
    = Cert.Sage.lsm (Cert.Sage.masked (V c main_v69) (V c main_v68)))
variable (R4 : ∀ (V : ((c : Dev nD) → (b : Ref sig .tc) → Buf (Elt Ideal) ((c : Thread nD τ).loc b))) (c : Dev nD), (dat4 (F := Ideal) V c).arrAt 7 cfg4.N
    = Cert.Sage.proj (Cert.Sage.lin (V c main_v65) (V c main_v52) (V c main_arg12) (V c main_v72) (V c main_arg14)) (V c main_arg15) (V c main_v73))
variable (RS : ∀ (x0 : Arr S100000x7) (x1 : IArr S2x1600000) (x3 : Arr S7x128) (x4 : Arr S128) (x5 : Arr S7x128) (x6 : Arr S128x128) (x7 : Arr S128) (x8 : Arr S128x128) (x9 : Arr S128x1) (x10 : Arr S1) (x11 : Arr S128x1), val_main_v92 (F := Ideal) x0 x1 x3 x4 x5 x6 x7 x8 x9 x10 x11 = Cert.Sage.lsm (val_main_v91 (F := Ideal) x0 x1 x3 x4 x5 x6 x7 x8 x9 x10 x11))

/-! ## The first layer -/

include R0 in
theorem W2_v37 : W2 m ρ c (Proc.devRef .tc main_v37) = val_main_v38 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ((R0 (V1 m ρ) c).trans ?_)
  have e0 : V1 m ρ c main_v35 = val_main_v31 (F := Ideal) (m ((c : Thread nD τ).loc main_arg0)) (m ((c : Thread nD τ).loc main_arg1)) := W1_v35 m ρ c
  have e1 : V1 m ρ c main_arg0 = (m ((c : Thread nD τ).loc main_arg0)) := (W1_from0_main_arg0 m ρ c).trans rfl
  have e2 : V1 m ρ c main_arg3 = (m ((c : Thread nD τ).loc main_arg3)) := (W1_from0_main_arg3 m ρ c).trans rfl
  have e3 : V1 m ρ c main_v36 = shapeCast S1x128 (m ((c : Thread nD τ).loc main_arg4)) shapeCasts_S128_S1x128 := W1_v36 m ρ c
  have e4 : V1 m ρ c main_arg5 = (m ((c : Thread nD τ).loc main_arg5)) := (W1_from0_main_arg5 m ρ c).trans rfl
  rw [e0, e1, e2, e3, e4]
  exact layer1 (m ((c : Thread nD τ).loc main_arg0)) (m ((c : Thread nD τ).loc main_arg1)) (m ((c : Thread nD τ).loc main_arg3)) (m ((c : Thread nD τ).loc main_arg4)) (m ((c : Thread nD τ).loc main_arg5))

/-! ## The second layer -/

include R0 in
theorem W3_v50 : W3 m ρ c (Proc.devRef .tc main_v50) = val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) _ = _
  after_results_simp
  rw [W2_v37 m ρ c R0, W2_from1_main_v1, W2_from1_main_v3, W2_from1_main_v11, W1_v1, W1_v3, W1_v11]
  exact (mean128_eq (val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (val_main_v28 (F := Ideal) (m ((c : Thread nD τ).loc main_arg1))) (clamped_ne_zero (m ((c : Thread nD τ).loc main_arg1)))).trans rfl

theorem W3_v51 : W3 m ρ c (Proc.devRef .tc main_v51) = shapeCast S1x128 (m ((c : Thread nD τ).loc main_arg7)) shapeCasts_S128_S1x128 := by
  show StableHlo.after hostOps1 (W2 m ρ c) _ = _
  after_results_simp
  rw [W2_from0_main_arg7]
  rfl

include R0 R1 in
theorem W4_v52 : W4 m ρ c (Proc.devRef .tc main_v52) = val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((R1 (V3 m ρ) c).trans ?_)
  have e0 : V3 m ρ c main_v50 = val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := W3_v50 m ρ c R0
  have e1 : V3 m ρ c main_v37 = val_main_v38 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := (W3_from2_main_v37 m ρ c).trans (W2_v37 m ρ c R0)
  have e2 : V3 m ρ c main_arg6 = (m ((c : Thread nD τ).loc main_arg6)) := (W3_from0_main_arg6 m ρ c).trans rfl
  have e3 : V3 m ρ c main_v51 = shapeCast S1x128 (m ((c : Thread nD τ).loc main_arg7)) shapeCasts_S128_S1x128 := W3_v51 m ρ c
  have e4 : V3 m ρ c main_arg8 = (m ((c : Thread nD τ).loc main_arg8)) := (W3_from0_main_arg8 m ρ c).trans rfl
  rw [e0, e1, e2, e3, e4]
  exact layer2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-! ## The third aggregation, and the actor head -/

include R0 R1 in
theorem W5_v65 : W5 m ρ c (Proc.devRef .tc main_v65) = val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) _ = _
  after_results_simp
  rw [W4_v52 m ρ c R0 R1, W4_from1_main_v1, W4_from1_main_v3, W4_from1_main_v11, W1_v1, W1_v3, W1_v11]
  exact (mean128_eq (val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (val_main_v28 (F := Ideal) (m ((c : Thread nD τ).loc main_arg1))) (clamped_ne_zero (m ((c : Thread nD τ).loc main_arg1)))).trans rfl

theorem W5_v66 : W5 m ρ c (Proc.devRef .tc main_v66) = shapeCast S1x1 (m ((c : Thread nD τ).loc main_arg10)) shapeCasts_S1_S1x1 := by
  show StableHlo.after hostOps2 (W4 m ρ c) _ = _
  after_results_simp
  rw [W4_from0_main_arg10]
  rfl

include R0 R1 R2 in
theorem W6_v67 : W6 m ρ c (Proc.devRef .tc main_v67) = val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((R2 (V5 m ρ) c).trans ?_)
  have e0 : V5 m ρ c main_v65 = val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := W5_v65 m ρ c R0 R1
  have e1 : V5 m ρ c main_v52 = val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (W5_from4_main_v52 m ρ c).trans (W4_v52 m ρ c R0 R1)
  have e2 : V5 m ρ c main_arg9 = (m ((c : Thread nD τ).loc main_arg9)) := (W5_from0_main_arg9 m ρ c).trans rfl
  have e3 : V5 m ρ c main_v66 = shapeCast S1x1 (m ((c : Thread nD τ).loc main_arg10)) shapeCasts_S1_S1x1 := W5_v66 m ρ c
  have e4 : V5 m ρ c main_arg11 = (m ((c : Thread nD τ).loc main_arg11)) := (W5_from0_main_arg11 m ρ c).trans rfl
  rw [e0, e1, e2, e3, e4]
  exact actor_raw (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

include R0 R1 R2 in
theorem W7_v68 : W7 m ρ c (Proc.devRef .tc main_v68)
    = shapeCast (⟨2, ![800, 125]⟩ : Shape) (val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (by decide) := by
  show StableHlo.after hostOps3 (W6 m ρ c) _ = _
  after_results_simp
  rw [W6_v67 m ρ c R0 R1 R2]
  rfl

theorem W7_v69 : W7 m ρ c (Proc.devRef .tc main_v69) = shapeCast (⟨2, ![800, 125]⟩ : Shape) (maskF (m ((c : Thread nD τ).loc main_arg0))) (by decide) := by
  show StableHlo.after hostOps3 (W6 m ρ c) _ = _
  after_results_simp
  rw [W6_from1_main_v22, W1_v22]
  rfl

include R0 R1 R2 R3 RS in
/-- The first result: the log-softmax of the struck actor logits over all nodes. -/
theorem W11_v71 : W11 m ρ c (Proc.devRef .tc main_v71) = val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W11_from9_main_v71 m ρ c).trans ?_
  show StableHlo.after hostOps4 (W8 m ρ c) _ = _
  after_results_simp
  have e70 : W8 m ρ c (Proc.devRef .tc main_v70)
      = Cert.Sage.lsm (Cert.Sage.masked (shapeCast (⟨2, ![800, 125]⟩ : Shape) (maskF (m ((c : Thread nD τ).loc main_arg0))) (by decide))
          (shapeCast (⟨2, ![800, 125]⟩ : Shape) (val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (by decide))) := by
    refine (W8_arr m ρ c 2).trans ((R3 (V7 m ρ) c).trans ?_)
    have e0 : V7 m ρ c main_v69 = shapeCast (⟨2, ![800, 125]⟩ : Shape) (maskF (m ((c : Thread nD τ).loc main_arg0))) (by decide) := W7_v69 m ρ c
    have e1 : V7 m ρ c main_v68 = shapeCast (⟨2, ![800, 125]⟩ : Shape) (val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (by decide) := W7_v68 m ρ c R0 R1 R2
    rw [e0, e1]
  rw [e70, RS, ← masked_eq]
  exact retile_lsm _ _ _ _

/-! ## The critic head -/

theorem W9_v72 : W9 m ρ c (Proc.devRef .tc main_v72) = shapeCast S1x128 (m ((c : Thread nD τ).loc main_arg13)) shapeCasts_S128_S1x128 := by
  show StableHlo.after hostOps4 (W8 m ρ c) _ = _
  after_results_simp
  rw [W8_from0_main_arg13]
  rfl

theorem W9_v73 : W9 m ρ c (Proc.devRef .tc main_v73) = shapeCast S1x1 (m ((c : Thread nD τ).loc main_arg16)) shapeCasts_S1_S1x1 := by
  show StableHlo.after hostOps4 (W8 m ρ c) _ = _
  after_results_simp
  rw [W8_from0_main_arg16]
  rfl

include R0 R1 R4 in
theorem W10_v74 : W10 m ρ c (Proc.devRef .tc main_v74) = val_main_v121 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W10_arr m ρ c 7).trans ((R4 (V9 m ρ) c).trans ?_)
  have e0 : V9 m ρ c main_v65 = val_main_v111 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (W9_from5_main_v65 m ρ c).trans ((W5_v65 m ρ c R0 R1).trans rfl)
  have e1 : V9 m ρ c main_v52 = val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (W9_from4_main_v52 m ρ c).trans (W4_v52 m ρ c R0 R1)
  have e2 : V9 m ρ c main_arg12 = (m ((c : Thread nD τ).loc main_arg12)) := (W9_from0_main_arg12 m ρ c).trans rfl
  have e3 : V9 m ρ c main_v72 = shapeCast S1x128 (m ((c : Thread nD τ).loc main_arg13)) shapeCasts_S128_S1x128 := W9_v72 m ρ c
  have e4 : V9 m ρ c main_arg14 = (m ((c : Thread nD τ).loc main_arg14)) := (W9_from0_main_arg14 m ρ c).trans rfl
  have e5 : V9 m ρ c main_arg15 = (m ((c : Thread nD τ).loc main_arg15)) := (W9_from0_main_arg15 m ρ c).trans rfl
  have e6 : V9 m ρ c main_v73 = shapeCast S1x1 (m ((c : Thread nD τ).loc main_arg16)) shapeCasts_S1_S1x1 := W9_v73 m ρ c
  rw [e0, e1, e2, e3, e4, e5, e6, critic_mid (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14))]
  exact critic_raw (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (m ((c : Thread nD τ).loc main_arg15)) (m ((c : Thread nD τ).loc main_arg16))

include R0 R1 R4 in
/-- The second result: the per-graph mean of the critic values, through tanh — the same pooling in both programs. -/
theorem W11_v86 : W11 m ρ c (Proc.devRef .tc main_v86) = val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps5 (W10 m ρ c) _ = _
  after_results_simp
  rw [W10_v74 m ρ c R0 R1 R4, W10_from0_main_arg2]
  rfl

end Regions

end Cert.KernelIdeal.HostValue

end
-- ==== Proof.Region0.lean ====
import proofs.«107606_j77086073028793_2_alg».proof.Proof.Gen.KernelIdeal.Frame
import proofs.«107606_j77086073028793_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.SL.Sem Idealize.ShloMosaic.ValueIdx Cert.KernelIdeal Cert.KernelIdeal.Gen
open Idealize.ShloMosaic.Pipeline (Dat)

/-! ## The layer's arithmetic on one block, read at a row and a column -/

/-- Axis 0 of the left operand's index is the output's row. -/
theorem r0_lhs_0 (i : S5000x128.Idx) (q : dot_S5000x7_S7x128_S5000x128_1_0_0_1_n_n.contr.Idx) :
    (dot_S5000x7_S7x128_S5000x128_1_0_0_1_n_n.lhsIdx i q 0).val = (i 0).val := by
  unfold DotDims.lhsIdx
  rw [dif_neg (show ¬(0 : Fin S5000x7.rank) ∈ dot_S5000x7_S7x128_S5000x128_1_0_0_1_n_n.lhsBatch by decide), dif_pos (show (0 : Fin S5000x7.rank) ∈ dot_S5000x7_S7x128_S5000x128_1_0_0_1_n_n.lhsNonContracting by decide)]
  rfl

/-- Axis 1 of the left operand's index is the contraction coordinate. -/
theorem r0_lhs_1 (i : S5000x128.Idx) (q : dot_S5000x7_S7x128_S5000x128_1_0_0_1_n_n.contr.Idx) :
    (dot_S5000x7_S7x128_S5000x128_1_0_0_1_n_n.lhsIdx i q 1).val = (q ⟨0, by decide⟩).val :=
  dot_S5000x7_S7x128_S5000x128_1_0_0_1_n_n.lhsIdx_val_of_single rfl i q

/-- Axis 0 of the right operand's index is the contraction coordinate. -/
theorem r0_rhs_0 (i : S5000x128.Idx) (q : dot_S5000x7_S7x128_S5000x128_1_0_0_1_n_n.contr.Idx) :
    (dot_S5000x7_S7x128_S5000x128_1_0_0_1_n_n.rhsIdx i q 0).val = (q ⟨0, by decide⟩).val :=
  dot_S5000x7_S7x128_S5000x128_1_0_0_1_n_n.rhsIdx_val_of_single rfl i q

/-- Axis 1 of the right operand's index is the output's column. -/
theorem r0_rhs_1 (i : S5000x128.Idx) (q : dot_S5000x7_S7x128_S5000x128_1_0_0_1_n_n.contr.Idx) :
    (dot_S5000x7_S7x128_S5000x128_1_0_0_1_n_n.rhsIdx i q 1).val = (i 1).val := by
  unfold DotDims.rhsIdx
  rw [dif_neg (show ¬(1 : Fin S7x128.rank) ∈ dot_S5000x7_S7x128_S5000x128_1_0_0_1_n_n.rhsBatch by decide), dif_pos (show (1 : Fin S7x128.rank) ∈ dot_S5000x7_S7x128_S5000x128_1_0_0_1_n_n.rhsNonContracting by decide)]
  rfl

/-- A [5000,7] block against a [7,128] matrix into a zero accumulator, at row p and column j: the sum over the
    seven shared coordinates of the products. -/
theorem r0_matmul_apply (a : FVec Ideal S5000x7 .bf16) (w : FVec Ideal S7x128 .bf16) (p : Fin 5000) (j : Fin 128) :
    matmul dot_S5000x7_S7x128_S5000x128_1_0_0_1_n_n none a w (constant S5000x128 .f32 0x00000000#32) (ix2 p j)
      = ∑ q : Fin 7, a (ix2 p q) * w (ix2 q j) := by
  show FloatOps.matmul dot_S5000x7_S7x128_S5000x128_1_0_0_1_n_n none a w (constant S5000x128 .f32 0x00000000#32) (ix2 p j) = _
  rw [Ideal.matmul_constant_zero_apply, ← Equiv.sum_comp (contrEquiv1 dot_S5000x7_S7x128_S5000x128_1_0_0_1_n_n 7 rfl rfl).symm]
  refine Finset.sum_congr rfl fun k _ => ?_
  have hk := contrEquiv1_symm_val dot_S5000x7_S7x128_S5000x128_1_0_0_1_n_n 7 rfl rfl k
  have el : dot_S5000x7_S7x128_S5000x128_1_0_0_1_n_n.lhsIdx (ix2 p j) ((contrEquiv1 dot_S5000x7_S7x128_S5000x128_1_0_0_1_n_n 7 rfl rfl).symm k) = ix2 p k := funext fun ax => Fin.ext (by
    match ax with
    | ⟨0, _⟩ => exact r0_lhs_0 _ _
    | ⟨1, _⟩ => exact (r0_lhs_1 _ _).trans hk)
  have er : dot_S5000x7_S7x128_S5000x128_1_0_0_1_n_n.rhsIdx (ix2 p j) ((contrEquiv1 dot_S5000x7_S7x128_S5000x128_1_0_0_1_n_n 7 rfl rfl).symm k) = ix2 k j := funext fun ax => Fin.ext (by
    match ax with
    | ⟨0, _⟩ => exact (r0_rhs_0 _ _).trans hk
    | ⟨1, _⟩ => exact r0_rhs_1 _ _)
  rw [el, er]

/-- The body's stored value at row p and column j of its block: tanh of (aggregated · Wl + own · Wr + bias), the
    bias row read at column j. Rounding to bf16 is the identity on the extended reals. -/
theorem r0_pay_apply (x0 x1 : Vec Ideal S5000x7 .f32) (x2 x4 : Vec Ideal S7x128 .f32) (x3 : Vec Ideal S1x128 .f32)
    (p : Fin 5000) (j : Fin 128) :
    k0_pay1 (F := Ideal) x0 x1 x2 x4 x3 (ix2 p j)
      = Ideal.tanh ((∑ q : Fin 7, x0 (ix2 p q) * x2 (ix2 q j)) + (∑ q : Fin 7, x1 (ix2 p q) * x4 (ix2 q j))
          + x3 (ix2 (0 : Fin 1) j)) := by
  unfold k0_pay1
  show Ideal.tanh (_ + _ + _) = _
  rw [r0_matmul_apply, r0_matmul_apply, broadcastTo_1b_ab_apply]
  simp only [shapeCast_self]
  rfl

/-! ## From the blocks to the array -/

theorem r0_hz : (![0, 0] : Fin 2 → Nat) = fun _ => 0 := funext fun a => by fin_cases a <;> rfl

/-- The layer's result as one function of the five arrays, index by index. -/
abbrev r0_G (A X : S100000x7.Idx → EReal) (Wl : S7x128.Idx → EReal) (b : S1x128.Idx → EReal) (Wr : S7x128.Idx → EReal) :
    S100000x128.Idx → EReal :=
  fun i => Ideal.tanh (Cert.Sage.lin A X Wl b Wr i)

/-- The body's stored value at row p, column j, when its five blocks are read off five arrays — row p of the two
    feature blocks being row r of the feature arrays, the weights and the bias read whole —: the layer's result at
    row r, column j. -/
theorem r0_point (x0 x1 : Vec Ideal S5000x7 .f32) (x2 x4 : Vec Ideal S7x128 .f32) (x3 : Vec Ideal S1x128 .f32)
    (A X : S100000x7.Idx → EReal) (Wl : S7x128.Idx → EReal) (b : S1x128.Idx → EReal) (Wr : S7x128.Idx → EReal)
    (r : Fin 100000) (p : Fin 5000) (j : Fin 128)
    (h0 : ∀ q : Fin 7, x0 (ix2 p q) = A (ix2 r q)) (h1 : ∀ q : Fin 7, x1 (ix2 p q) = X (ix2 r q))
    (h2 : ∀ q : Fin 7, x2 (ix2 q j) = Wl (ix2 q j)) (h4 : ∀ q : Fin 7, x4 (ix2 q j) = Wr (ix2 q j))
    (h3 : x3 (ix2 (0 : Fin 1) j) = b (ix2 (0 : Fin 1) j)) :
    k0_pay1 (F := Ideal) x0 x1 x2 x4 x3 (ix2 p j) = r0_G A X Wl b Wr (ix2 r j) := by
  rw [r0_pay_apply]
  show _ = Ideal.tanh (Cert.Sage.lin A X Wl b Wr (ix2 r j))
  refine congrArg Ideal.tanh ?_
  unfold Cert.Sage.lin Cert.Sage.rowDot
  show _ + _ + _ = (∑ q : Fin 7, A (ix2 r q) * Wl (ix2 q j)) + (∑ q : Fin 7, X (ix2 r q) * Wr (ix2 q j)) + b (ix2 (0 : Fin 1) j)
  rw [h3]
  refine congrArg₂ (· + ·) (congrArg₂ (· + ·) (Finset.sum_congr rfl fun q _ => ?_) (Finset.sum_congr rfl fun q _ => ?_)) rfl
  · rw [h0, h2]
  · rw [h1, h4]

/-- The printed index maps, decided over the twenty grid points: the two node-feature windows and the output move down
    the rows with the point, the weights and the bias stay at block (0, 0). -/
theorem r0_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the block at point t is row 5000 t + p of the array. -/
def r0_row (t : Fin cfg0.N) (p : Fin 5000) : Fin 100000 :=
  ⟨t.val * 5000 + p.val, by
    have ht : t.val < 20 := Nat.lt_of_lt_of_eq t.isLt N_0
    have hp := p.isLt
    omega⟩

variable (V : (c : Dev nD) → (b : Ref sig .tc) → Buf (Elt Ideal) ((c : Thread nD τ).loc b))

/-- The aggregated-features block at point t, row p, column q: the array at row 5000 t + p. -/
theorem r0_blk0_apply (c : Dev nD) (t : Fin cfg0.N) (p : Fin 5000) (q : Fin 7) :
    (iblk0 (F := Ideal) V c 0 t : Vec Ideal S5000x7 .f32) (ix2 p q)
      = (V c main_v35 : S100000x7.Idx → EReal) (ix2 (r0_row t p) q) := by
  obtain ⟨e0, e1, -⟩ := r0_idx_facts t
  unfold iblk0
  rw [View.read_apply]
  show V c main_v35 _ = V c main_v35 _
  refine congrArg (V c main_v35) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 7 + 1 * q.val = q.val; rw [e1]; omega

/-- The own-features block at point t, row p, column q: the array at row 5000 t + p. -/
theorem r0_blk1_apply (c : Dev nD) (t : Fin cfg0.N) (p : Fin 5000) (q : Fin 7) :
    (iblk0 (F := Ideal) V c 1 t : Vec Ideal S5000x7 .f32) (ix2 p q)
      = (V c main_arg0 : S100000x7.Idx → EReal) (ix2 (r0_row t p) q) := by
  obtain ⟨-, -, e0, e1, -⟩ := r0_idx_facts t
  unfold iblk0
  rw [View.read_apply]
  show V c main_arg0 _ = V c main_arg0 _
  refine congrArg (V c main_arg0) (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 7 + 1 * q.val = q.val; rw [e1]; omega

/-- The left weights' block at any point is the whole matrix. -/
theorem r0_blk2_apply (c : Dev nD) (t : Fin cfg0.N) (q : Fin 7) (j : Fin 128) :
    (iblk0 (F := Ideal) V c 2 t : Vec Ideal S7x128 .f32) (ix2 q j)
      = (V c main_arg3 : S7x128.Idx → EReal) (ix2 q j) := by
  obtain ⟨-, -, -, -, e0, e1, -⟩ := r0_idx_facts t
  unfold iblk0
  rw [View.read_apply]
  show V c main_arg3 _ = V c main_arg3 _
  refine congrArg (V c main_arg3) (funext fun a => Fin.ext ?_)
  match a with
  | ⟨0, _⟩ => show win0_2.index t (0 : Fin 2) * 7 + 1 * q.val = q.val; rw [e0]; omega
  | ⟨1, _⟩ => show win0_2.index t (1 : Fin 2) * 128 + 1 * j.val = j.val; rw [e1]; omega

/-- The bias row's block at any point is the whole row. -/
theorem r0_blk3_apply (c : Dev nD) (t : Fin cfg0.N) (u : Fin 1) (j : Fin 128) :
    (iblk0 (F := Ideal) V c 3 t : Vec Ideal S1x128 .f32) (ix2 u j)
      = (V c main_v36 : S1x128.Idx → EReal) (ix2 u j) := by
  obtain ⟨-, -, -, -, -, -, e0, e1, -⟩ := r0_idx_facts t
  unfold iblk0
  rw [View.read_apply]
  show V c main_v36 _ = V c main_v36 _
  refine congrArg (V c main_v36) (funext fun a => Fin.ext ?_)
  match a with
  | ⟨0, _⟩ => show win0_3.index t (0 : Fin 2) * 1 + 1 * u.val = u.val; rw [e0]; omega
  | ⟨1, _⟩ => show win0_3.index t (1 : Fin 2) * 128 + 1 * j.val = j.val; rw [e1]; omega

/-- The right weights' block at any point is the whole matrix. -/
theorem r0_blk4_apply (c : Dev nD) (t : Fin cfg0.N) (q : Fin 7) (j : Fin 128) :
    (iblk0 (F := Ideal) V c 4 t : Vec Ideal S7x128 .f32) (ix2 q j)
      = (V c main_arg5 : S7x128.Idx → EReal) (ix2 q j) := by
  obtain ⟨-, -, -, -, -, -, -, -, e0, e1, -⟩ := r0_idx_facts t
  unfold iblk0
  rw [View.read_apply]
  show V c main_arg5 _ = V c main_arg5 _
  refine congrArg (V c main_arg5) (funext fun a => Fin.ext ?_)
  match a with
  | ⟨0, _⟩ => show win0_4.index t (0 : Fin 2) * 7 + 1 * q.val = q.val; rw [e0]; omega
  | ⟨1, _⟩ => show win0_4.index t (1 : Fin 2) * 128 + 1 * j.val = j.val; rw [e1]; omega

/-- Row p, column j of the output block at point t sits at row 5000 t + p, column j of the array. -/
theorem r0_emb5 (t : Fin cfg0.N) (p : Fin 5000) (j : Fin 128) :
    ((cfg0.win 5).blk t).view.emb (ix2 p j) = (ix2 (r0_row t p) j : S100000x128.Idx) := by
  obtain ⟨-, -, -, -, -, -, -, -, -, -, e0, e1⟩ := r0_idx_facts t
  refine funext fun a => Fin.ext ?_
  match a with
  | ⟨0, _⟩ => show win0_5.index t (0 : Fin 2) * 5000 + 1 * p.val = t.val * 5000 + p.val; rw [e0]; omega
  | ⟨1, _⟩ => show win0_5.index t (1 : Fin 2) * 128 + 1 * j.val = j.val; rw [e1]; omega

/-- What point t writes back is block t of the layer's result on the arrays as the region found them. -/
theorem r0_flushed_eq (c : Dev nD) (t : Fin cfg0.N) :
    (dat0 (F := Ideal) V c).flushed 5 t
      = ((cfg0.win 5).blk t).view.read (Elt Ideal)
          (r0_G (V c main_v35) (V c main_arg0) (V c main_arg3) (V c main_v36) (V c main_arg5)) := by
  show (cfg0.win 5).cut (grid0.coords t) ((dat0 V c).after 5 t) = _
  rw [after0_5]
  unfold out0_5
  rw [View.canon_unit_zero r0_hz]
  simp only [View.ld_unit_zero (S := S5000x7) r0_hz, View.ld_unit_zero (S := S7x128) r0_hz, View.ld_unit_zero (S := S1x128) r0_hz]
  funext y
  obtain ⟨p, j, rfl⟩ : ∃ (p : Fin 5000) (j : Fin 128), y = ix2 p j := ⟨y 0, y 1, eq_ix2 y⟩
  rw [View.read_apply, r0_emb5]
  show k0_pay1 (F := Ideal) (iblk0 V c 0 t) (iblk0 V c 1 t) (iblk0 V c 2 t) (iblk0 V c 4 t) (iblk0 V c 3 t) (ix2 p j) = _
  show _ = r0_G (V c main_v35) (V c main_arg0) (V c main_arg3) (V c main_v36) (V c main_arg5) (ix2 (r0_row t p) j)
  exact r0_point (iblk0 V c 0 t) (iblk0 V c 1 t) (iblk0 V c 2 t) (iblk0 V c 4 t) (iblk0 V c 3 t)
    (V c main_v35) (V c main_arg0) (V c main_arg3) (V c main_v36) (V c main_arg5) (r0_row t p) p j
    (fun q => r0_blk0_apply V c t p q) (fun q => r0_blk1_apply V c t p q) (fun q => r0_blk2_apply V c t q j)
    (fun q => r0_blk4_apply V c t q j) (r0_blk3_apply V c t 0 j)

/-- An index of the array is in point t's block iff each coordinate is in the block's range on its axis. -/
theorem r0_mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v37).slice (win0_5.rect t)).set ↔ _
  rw [View.set_slice_whole, Rect.mem_set_unit]
  exact Iff.rfl

/-- Every index of the array is in the block of the point its row falls in: row r is written by point r / 5000. -/
theorem r0_cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 20 := N_0
  have ht : (i 0).val / 5000 < cfg0.N := by show _ < grid0.N; omega
  obtain ⟨-, -, -, -, -, -, -, -, -, -, e0, e1⟩ := r0_idx_facts ⟨(i 0).val / 5000, ht⟩
  refine ⟨⟨(i 0).val / 5000, ht⟩, flush0_5 _, ?_⟩
  rw [r0_mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e1]; omega

/-- Region 0 (the first SAGE layer): after the region its output array is tanh of the layer's linear part of the five
    input arrays as the region found them. -/
theorem region0_value (c : Dev nD) :
    (dat0 (F := Ideal) V c).arrAt 5 cfg0.N
      = fun i => Ideal.tanh (Cert.Sage.lin (V c main_v35) (V c main_arg0) (V c main_arg3) (V c main_v36) (V c main_arg5) i) :=
  (dat0 (F := Ideal) V c).arrAt_eq_of_cover 5
    (r0_G (V c main_v35) (V c main_arg0) (V c main_arg3) (V c main_v36) (V c main_arg5))
    (fun t _ => r0_flushed_eq V c t) r0_cover

end Cert.KernelIdeal.Regions

end
-- ==== Proof.Region1.lean ====
import proofs.«107606_j77086073028793_2_alg».proof.Proof.Gen.KernelIdeal.Frame
import proofs.«107606_j77086073028793_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.SL.Sem Idealize.ShloMosaic.ValueIdx Cert.KernelIdeal Cert.KernelIdeal.Gen
open Idealize.ShloMosaic.Pipeline (Dat)

/-! ## The layer's arithmetic on one block, read at a row and a column -/

/-- Axis 0 of the left operand's index is the output's row. -/
theorem r1_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- Axis 1 of the left operand's index is the contraction coordinate. -/
theorem r1_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- Axis 0 of the right operand's index is the contraction coordinate. -/
theorem r1_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- Axis 1 of the right operand's index is the output's column. -/
theorem r1_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] block against a [128,128] matrix into a zero accumulator, at row p and column j: the sum over the
    128 shared coordinates of the products. -/
theorem r1_matmul_apply (a : FVec Ideal S5000x128 .bf16) (w : FVec Ideal S128x128 .bf16) (p : Fin 5000) (j : Fin 128) :
    matmul dot_S5000x128_S128x128_S5000x128_1_0_0_1_n_n none a w (constant S5000x128 .f32 0x00000000#32) (ix2 p j)
      = ∑ q : Fin 128, a (ix2 p q) * w (ix2 q j) := by
  show FloatOps.matmul dot_S5000x128_S128x128_S5000x128_1_0_0_1_n_n none a w (constant S5000x128 .f32 0x00000000#32) (ix2 p j) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun ax => Fin.ext (by
    match ax with
    | ⟨0, _⟩ => exact r1_lhs_0 _ _
    | ⟨1, _⟩ => exact (r1_lhs_1 _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun ax => Fin.ext (by
    match ax with
    | ⟨0, _⟩ => exact (r1_rhs_0 _ _).trans hk
    | ⟨1, _⟩ => exact r1_rhs_1 _ _)
  rw [el, er]

/-- The body's stored value at row p and column j of its block: tanh of (aggregated · Wl + own · Wr + bias), the
    bias row read at column j. Rounding to bf16 is the identity on the extended reals. -/
theorem r1_pay_apply (x0 x1 : Vec Ideal S5000x128 .f32) (x2 x4 : Vec Ideal S128x128 .f32) (x3 : Vec Ideal S1x128 .f32)
    (p : Fin 5000) (j : Fin 128) :
    k1_pay1 (F := Ideal) x0 x1 x2 x4 x3 (ix2 p j)
      = Ideal.tanh ((∑ q : Fin 128, x0 (ix2 p q) * x2 (ix2 q j)) + (∑ q : Fin 128, x1 (ix2 p q) * x4 (ix2 q j))
          + x3 (ix2 (0 : Fin 1) j)) := by
  unfold k1_pay1
  show Ideal.tanh (_ + _ + _) = _
  rw [r1_matmul_apply, r1_matmul_apply, broadcastTo_1b_ab_apply]
  simp only [shapeCast_self]
  rfl

/-! ## From the blocks to the array -/

theorem r1_hz : (![0, 0] : Fin 2 → Nat) = fun _ => 0 := funext fun a => by fin_cases a <;> rfl

/-- The layer's result as one function of the five arrays, index by index. -/
abbrev r1_G (A X : S100000x128.Idx → EReal) (Wl : S128x128.Idx → EReal) (b : S1x128.Idx → EReal) (Wr : S128x128.Idx → EReal) :
    S100000x128.Idx → EReal :=
  fun i => Ideal.tanh (Cert.Sage.lin A X Wl b Wr i)

/-- The body's stored value at row p, column j, when its five blocks are read off five arrays — row p of the two
    feature blocks being row r of the feature arrays, the weights and the bias read whole —: the layer's result at
    row r, column j. -/
theorem r1_point (x0 x1 : Vec Ideal S5000x128 .f32) (x2 x4 : Vec Ideal S128x128 .f32) (x3 : Vec Ideal S1x128 .f32)
    (A X : S100000x128.Idx → EReal) (Wl : S128x128.Idx → EReal) (b : S1x128.Idx → EReal) (Wr : S128x128.Idx → EReal)
    (r : Fin 100000) (p : Fin 5000) (j : Fin 128)
    (h0 : ∀ q : Fin 128, x0 (ix2 p q) = A (ix2 r q)) (h1 : ∀ q : Fin 128, x1 (ix2 p q) = X (ix2 r q))
    (h2 : ∀ q : Fin 128, x2 (ix2 q j) = Wl (ix2 q j)) (h4 : ∀ q : Fin 128, x4 (ix2 q j) = Wr (ix2 q j))
    (h3 : x3 (ix2 (0 : Fin 1) j) = b (ix2 (0 : Fin 1) j)) :
    k1_pay1 (F := Ideal) x0 x1 x2 x4 x3 (ix2 p j) = r1_G A X Wl b Wr (ix2 r j) := by
  rw [r1_pay_apply]
  show _ = Ideal.tanh (Cert.Sage.lin A X Wl b Wr (ix2 r j))
  refine congrArg Ideal.tanh ?_
  unfold Cert.Sage.lin Cert.Sage.rowDot
  show _ + _ + _ = (∑ q : Fin 128, A (ix2 r q) * Wl (ix2 q j)) + (∑ q : Fin 128, X (ix2 r q) * Wr (ix2 q j)) + b (ix2 (0 : Fin 1) j)
  rw [h3]
  refine congrArg₂ (· + ·) (congrArg₂ (· + ·) (Finset.sum_congr rfl fun q _ => ?_) (Finset.sum_congr rfl fun q _ => ?_)) rfl
  · rw [h0, h2]
  · rw [h1, h4]

/-- The printed index maps, decided over the twenty grid points: the two node-feature windows and the output move down
    the rows with the point, the weights and the bias stay at block (0, 0). -/
theorem r1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the block at point t is row 5000 t + p of the array. -/
def r1_row (t : Fin cfg1.N) (p : Fin 5000) : Fin 100000 :=
  ⟨t.val * 5000 + p.val, by
    have ht : t.val < 20 := Nat.lt_of_lt_of_eq t.isLt N_1
    have hp := p.isLt
    omega⟩

variable (V : (c : Dev nD) → (b : Ref sig .tc) → Buf (Elt Ideal) ((c : Thread nD τ).loc b))

/-- The aggregated-features block at point t, row p, column q: the array at row 5000 t + p. -/
theorem r1_blk0_apply (c : Dev nD) (t : Fin cfg1.N) (p : Fin 5000) (q : Fin 128) :
    (iblk1 (F := Ideal) V c 0 t : Vec Ideal S5000x128 .f32) (ix2 p q)
      = (V c main_v50 : S100000x128.Idx → EReal) (ix2 (r1_row t p) q) := by
  obtain ⟨e0, e1, -⟩ := r1_idx_facts t
  unfold iblk1
  rw [View.read_apply]
  show V c main_v50 _ = V c main_v50 _
  refine congrArg (V c main_v50) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

/-- The own-features block at point t, row p, column q: the array at row 5000 t + p. -/
theorem r1_blk1_apply (c : Dev nD) (t : Fin cfg1.N) (p : Fin 5000) (q : Fin 128) :
    (iblk1 (F := Ideal) V c 1 t : Vec Ideal S5000x128 .f32) (ix2 p q)
      = (V c main_v37 : S100000x128.Idx → EReal) (ix2 (r1_row t p) q) := by
  obtain ⟨-, -, e0, e1, -⟩ := r1_idx_facts t
  unfold iblk1
  rw [View.read_apply]
  show V c main_v37 _ = V c main_v37 _
  refine congrArg (V c main_v37) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 128 + 1 * q.val = q.val; rw [e1]; omega

/-- The left weights' block at any point is the whole matrix. -/
theorem r1_blk2_apply (c : Dev nD) (t : Fin cfg1.N) (q : Fin 128) (j : Fin 128) :
    (iblk1 (F := Ideal) V c 2 t : Vec Ideal S128x128 .f32) (ix2 q j)
      = (V c main_arg6 : S128x128.Idx → EReal) (ix2 q j) := by
  obtain ⟨-, -, -, -, e0, e1, -⟩ := r1_idx_facts t
  unfold iblk1
  rw [View.read_apply]
  show V c main_arg6 _ = V c main_arg6 _
  refine congrArg (V c main_arg6) (funext fun a => Fin.ext ?_)
  match a with
  | ⟨0, _⟩ => show win1_2.index t (0 : Fin 2) * 128 + 1 * q.val = q.val; rw [e0]; omega
  | ⟨1, _⟩ => show win1_2.index t (1 : Fin 2) * 128 + 1 * j.val = j.val; rw [e1]; omega

/-- The bias row's block at any point is the whole row. -/
theorem r1_blk3_apply (c : Dev nD) (t : Fin cfg1.N) (u : Fin 1) (j : Fin 128) :
    (iblk1 (F := Ideal) V c 3 t : Vec Ideal S1x128 .f32) (ix2 u j)
      = (V c main_v51 : S1x128.Idx → EReal) (ix2 u j) := by
  obtain ⟨-, -, -, -, -, -, e0, e1, -⟩ := r1_idx_facts t
  unfold iblk1
  rw [View.read_apply]
  show V c main_v51 _ = V c main_v51 _
  refine congrArg (V c main_v51) (funext fun a => Fin.ext ?_)
  match a with
  | ⟨0, _⟩ => show win1_3.index t (0 : Fin 2) * 1 + 1 * u.val = u.val; rw [e0]; omega
  | ⟨1, _⟩ => show win1_3.index t (1 : Fin 2) * 128 + 1 * j.val = j.val; rw [e1]; omega

/-- The right weights' block at any point is the whole matrix. -/
theorem r1_blk4_apply (c : Dev nD) (t : Fin cfg1.N) (q : Fin 128) (j : Fin 128) :
    (iblk1 (F := Ideal) V c 4 t : Vec Ideal S128x128 .f32) (ix2 q j)
      = (V c main_arg8 : S128x128.Idx → EReal) (ix2 q j) := by
  obtain ⟨-, -, -, -, -, -, -, -, e0, e1, -⟩ := r1_idx_facts t
  unfold iblk1
  rw [View.read_apply]
  show V c main_arg8 _ = V c main_arg8 _
  refine congrArg (V c main_arg8) (funext fun a => Fin.ext ?_)
  match a with
  | ⟨0, _⟩ => show win1_4.index t (0 : Fin 2) * 128 + 1 * q.val = q.val; rw [e0]; omega
  | ⟨1, _⟩ => show win1_4.index t (1 : Fin 2) * 128 + 1 * j.val = j.val; rw [e1]; omega

/-- Row p, column j of the output block at point t sits at row 5000 t + p, column j of the array. -/
theorem r1_emb5 (t : Fin cfg1.N) (p : Fin 5000) (j : Fin 128) :
    ((cfg1.win 5).blk t).view.emb (ix2 p j) = (ix2 (r1_row t p) j : S100000x128.Idx) := by
  obtain ⟨-, -, -, -, -, -, -, -, -, -, e0, e1⟩ := r1_idx_facts t
  refine funext fun a => Fin.ext ?_
  match a with
  | ⟨0, _⟩ => show win1_5.index t (0 : Fin 2) * 5000 + 1 * p.val = t.val * 5000 + p.val; rw [e0]; omega
  | ⟨1, _⟩ => show win1_5.index t (1 : Fin 2) * 128 + 1 * j.val = j.val; rw [e1]; omega

/-- What point t writes back is block t of the layer's result on the arrays as the region found them. -/
theorem r1_flushed_eq (c : Dev nD) (t : Fin cfg1.N) :
    (dat1 (F := Ideal) V c).flushed 5 t
      = ((cfg1.win 5).blk t).view.read (Elt Ideal)
          (r1_G (V c main_v50) (V c main_v37) (V c main_arg6) (V c main_v51) (V c main_arg8)) := by
  show (cfg1.win 5).cut (grid1.coords t) ((dat1 V c).after 5 t) = _
  rw [after1_5]
  unfold out1_5
  rw [View.canon_unit_zero r1_hz]
  simp only [View.ld_unit_zero (S := S5000x128) r1_hz, View.ld_unit_zero (S := S128x128) r1_hz, View.ld_unit_zero (S := S1x128) r1_hz]
  funext y
  obtain ⟨p, j, rfl⟩ : ∃ (p : Fin 5000) (j : Fin 128), y = ix2 p j := ⟨y 0, y 1, eq_ix2 y⟩
  rw [View.read_apply, r1_emb5]
  show k1_pay1 (F := Ideal) (iblk1 V c 0 t) (iblk1 V c 1 t) (iblk1 V c 2 t) (iblk1 V c 4 t) (iblk1 V c 3 t) (ix2 p j) = _
  show _ = r1_G (V c main_v50) (V c main_v37) (V c main_arg6) (V c main_v51) (V c main_arg8) (ix2 (r1_row t p) j)
  exact r1_point (iblk1 V c 0 t) (iblk1 V c 1 t) (iblk1 V c 2 t) (iblk1 V c 4 t) (iblk1 V c 3 t)
    (V c main_v50) (V c main_v37) (V c main_arg6) (V c main_v51) (V c main_arg8) (r1_row t p) p j
    (fun q => r1_blk0_apply V c t p q) (fun q => r1_blk1_apply V c t p q) (fun q => r1_blk2_apply V c t q j)
    (fun q => r1_blk4_apply V c t q j) (r1_blk3_apply V c t 0 j)

/-- An index of the array is in point t's block iff each coordinate is in the block's range on its axis. -/
theorem r1_mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v52).slice (win1_5.rect t)).set ↔ _
  rw [View.set_slice_whole, Rect.mem_set_unit]
  exact Iff.rfl

/-- Every index of the array is in the block of the point its row falls in: row r is written by point r / 5000. -/
theorem r1_cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 20 := N_1
  have ht : (i 0).val / 5000 < cfg1.N := by show _ < grid1.N; omega
  obtain ⟨-, -, -, -, -, -, -, -, -, -, e0, e1⟩ := r1_idx_facts ⟨(i 0).val / 5000, ht⟩
  refine ⟨⟨(i 0).val / 5000, ht⟩, flush1_5 _, ?_⟩
  rw [r1_mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e1]; omega

/-- Region 1 (the second SAGE layer): after the region its output array is tanh of the layer's linear part of the five
    input arrays as the region found them. -/
theorem region1_value (c : Dev nD) :
    (dat1 (F := Ideal) V c).arrAt 5 cfg1.N
      = fun i => Ideal.tanh (Cert.Sage.lin (V c main_v50) (V c main_v37) (V c main_arg6) (V c main_v51) (V c main_arg8) i) :=
  (dat1 (F := Ideal) V c).arrAt_eq_of_cover 5
    (r1_G (V c main_v50) (V c main_v37) (V c main_arg6) (V c main_v51) (V c main_arg8))
    (fun t _ => r1_flushed_eq V c t) r1_cover

end Cert.KernelIdeal.Regions

end
-- ==== Proof.Region2.lean ====
import proofs.«107606_j77086073028793_2_alg».proof.Proof.Gen.KernelIdeal.Frame
import proofs.«107606_j77086073028793_2_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Regions
open Idealize.ShloMosaic Idealize.ShloMosaic.TcCoe Idealize.SL.Sem Idealize.ShloMosaic.ValueIdx Cert.KernelIdeal Cert.KernelIdeal.Gen

/-- The zero offsets of a whole-buffer rectangle, as a constant function. -/
theorem r2_hz : (![0, 0] : Fin 2 → Nat) = fun _ => 0 := funext fun a => by fin_cases a <;> rfl

/-- Operand indices of the [5000,128] by [128,1] product at result index i and contraction index q, coordinate by coordinate:
    the left operand is read at (i 0, q), the right one at (q, i 1). -/
theorem r2_mm_lhs_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem r2_mm_lhs_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
theorem r2_mm_rhs_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
theorem r2_mm_rhs_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- A [5000,128] by [128,1] product into the zero accumulator, read at (p, j): the sum over the shared axis of the
    products of row p of the left operand with column j of the right one. -/
theorem r2_mm_apply {φ₁ φ₂ : FTy} (a : FVec Ideal S5000x128 φ₁) (w : FVec Ideal S128x1 φ₂) (p : Fin 5000) (j : Fin 1) :
    matmul dot_S5000x128_S128x1_S5000x1_1_0_0_1_n_n none a w (constant S5000x1 .f32 0x00000000#32) (ix2 p j)
      = ∑ q : Fin 128, a (ix2 p q) * w (ix2 q j) := by
  refine (Ideal.matmul_constant_zero_apply dot_S5000x128_S128x1_S5000x1_1_0_0_1_n_n none a w (ix2 p j)).trans ?_
  rw [← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p j) ((contrEquiv1 dot_S5000x128_S128x1_S5000x1_1_0_0_1_n_n 128 rfl rfl).symm k) = ix2 p k :=
    funext fun ax => Fin.ext (by
      match ax with
      | ⟨0, _⟩ => exact r2_mm_lhs_0 _ _
      | ⟨1, _⟩ => exact (r2_mm_lhs_1 _ _).trans hk)
  have er : dot_S5000x128_S128x1_S5000x1_1_0_0_1_n_n.rhsIdx (ix2 p j) ((contrEquiv1 dot_S5000x128_S128x1_S5000x1_1_0_0_1_n_n 128 rfl rfl).symm k) = ix2 k j :=
    funext fun ax => Fin.ext (by
      match ax with
      | ⟨0, _⟩ => exact (r2_mm_rhs_0 _ _).trans hk
      | ⟨1, _⟩ => exact r2_mm_rhs_1 _ _)
  rw [el, er]

/-- The body's arithmetic read at (p, j): row p of the first block against column j of the first weight, plus row p of the
    second block against column j of the second weight, plus the bias (the roundings to bf16 are the identity on the
    extended reals, the shape casts are between equal shapes, the bias [1,1] is broadcast down the rows). -/
theorem r2_pay_apply (x0 x1 : Vec Ideal S5000x128 .f32) (x2 x4 : Vec Ideal S128x1 .f32) (x3 : Vec Ideal S1x1 .f32)
    (p : Fin 5000) (j : Fin 1) :
    k2_pay1 x0 x1 x2 x4 x3 (ix2 p j)
      = (∑ q : Fin 128, x0 (ix2 p q) * x2 (ix2 q j)) + (∑ q : Fin 128, x1 (ix2 p q) * x4 (ix2 q j)) + x3 (ix2 0 j) := by
  unfold k2_pay1
  rw [addf_apply, addf_apply, r2_mm_apply, r2_mm_apply]
  simp only [truncf_apply, shapeCast_self]
  congr 1
  refine broadcastTo_apply x3 broadcasts_S1x1_S5000x1 (ix2 p j) (ix2 0 j) fun ax => ?_
  match ax with
  | ⟨0, _⟩ => rfl
  | ⟨1, _⟩ =>
    show j.val = if (1 : Nat) = 1 then 0 else j.val
    rw [if_pos rfl]
    have := j.isLt
    omega

/-- One entry of one row block, over abstract blocks: if the two feature blocks are rows n·5000 … of A and X, and the
    weight and bias blocks are Wl, Wr and b themselves, the body's value at (p, j) is the layer's linear part at any
    index k that names row n·5000 + p, column j. -/
theorem r2_point (A X : Cert.Sage.Mat 100000 128) (Wl Wr : Cert.Sage.Mat 128 1) (b : Cert.Sage.Mat 1 1)
    (x0 x1 : Vec Ideal S5000x128 .f32) (x2 x4 : Vec Ideal S128x1 .f32) (x3 : Vec Ideal S1x1 .f32)
    (n : Nat) (p : Fin 5000) (j : Fin 1) (k : S100000x1.Idx)
    (hk0 : (k 0).val = n * 5000 + p.val) (hk1 : (k 1).val = j.val)
    (h0 : ∀ (q : Fin 128) (k' : S100000x128.Idx), (k' 0).val = n * 5000 + p.val → (k' 1).val = q.val → x0 (ix2 p q) = A k')
    (h1 : ∀ (q : Fin 128) (k' : S100000x128.Idx), (k' 0).val = n * 5000 + p.val → (k' 1).val = q.val → x1 (ix2 p q) = X k')
    (h2 : ∀ q : Fin 128, x2 (ix2 q j) = Wl (ix2 q j)) (h4 : ∀ q : Fin 128, x4 (ix2 q j) = Wr (ix2 q j))
    (h3 : x3 (ix2 0 j) = b (ix2 0 j)) :
    k2_pay1 x0 x1 x2 x4 x3 (ix2 p j) = Cert.Sage.lin A X Wl b Wr k := by
  have hj : (k 1 : Fin 1) = j := Fin.ext hk1
  rw [r2_pay_apply]
  unfold Cert.Sage.lin Cert.Sage.rowDot
  rw [hj, h3]
  congr 2
  · refine Finset.sum_congr rfl fun q _ => ?_
    rw [h0 q (ix2 (k 0) q) hk0 rfl, h2 q]
  · refine Finset.sum_congr rfl fun q _ => ?_
    rw [h1 q (ix2 (k 0) q) hk0 rfl, h4 q]

variable (V : (c : Dev nD) → (b : Ref sig .tc) → Buf (Elt Ideal) ((c : Thread nD τ).loc b))

/-- The printed block index maps, decided once over the twenty grid points: the two feature windows and the output
    window sit at row block t, column block 0; the weights and the bias are staged whole. -/
theorem r2_idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p, column q of the first window's block at point t is the aggregated features at row 5000 t + p, column q. -/
theorem r2_blk0 (c : Dev nD) (t : Fin cfg2.N) (p : Fin 5000) (q : Fin 128) (k : S100000x128.Idx)
    (hk0 : (k 0).val = t.val * 5000 + p.val) (hk1 : (k 1).val = q.val) :
    (iblk2 V c 0 t : Vec Ideal S5000x128 .f32) (ix2 p q) = (V c main_v65 : S100000x128.Idx → EReal) k := by
  obtain ⟨e0, e1, -⟩ := r2_idx_facts t
  unfold iblk2
  show V c main_v65 (((cfg2.win 0).blk t).view.emb (ix2 p q)) = V c main_v65 k
  refine congrArg (V c main_v65) (funext fun a => Fin.ext ?_)
  match a with
  | ⟨0, _⟩ => show win2_0.index t (0 : Fin 2) * 5000 + 1 * p.val = (k 0).val; rw [e0, hk0]; omega
  | ⟨1, _⟩ => show win2_0.index t (1 : Fin 2) * 128 + 1 * q.val = (k 1).val; rw [e1, hk1]; omega

/-- Row p, column q of the second window's block at point t is the node features at row 5000 t + p, column q. -/
theorem r2_blk1 (c : Dev nD) (t : Fin cfg2.N) (p : Fin 5000) (q : Fin 128) (k : S100000x128.Idx)
    (hk0 : (k 0).val = t.val * 5000 + p.val) (hk1 : (k 1).val = q.val) :
    (iblk2 V c 1 t : Vec Ideal S5000x128 .f32) (ix2 p q) = (V c main_v52 : S100000x128.Idx → EReal) k := by
  obtain ⟨-, -, e0, e1, -⟩ := r2_idx_facts t
  unfold iblk2
  show V c main_v52 (((cfg2.win 1).blk t).view.emb (ix2 p q)) = V c main_v52 k
  refine congrArg (V c main_v52) (funext fun a => Fin.ext ?_)
  match a with
  | ⟨0, _⟩ => show win2_1.index t (0 : Fin 2) * 5000 + 1 * p.val = (k 0).val; rw [e0, hk0]; omega
  | ⟨1, _⟩ => show win2_1.index t (1 : Fin 2) * 128 + 1 * q.val = (k 1).val; rw [e1, hk1]; omega

/-- The third window stages the first weight column whole at every point. -/
theorem r2_blk2 (c : Dev nD) (t : Fin cfg2.N) (q : Fin 128) (j : Fin 1) :
    (iblk2 V c 2 t : Vec Ideal S128x1 .f32) (ix2 q j) = (V c main_arg9 : S128x1.Idx → EReal) (ix2 q j) := by
  obtain ⟨-, -, -, -, e0, e1, -⟩ := r2_idx_facts t
  unfold iblk2
  show V c main_arg9 (((cfg2.win 2).blk t).view.emb (ix2 q j)) = V c main_arg9 (ix2 q j)
  refine congrArg (V c main_arg9) (funext fun a => Fin.ext ?_)
  match a with
  | ⟨0, _⟩ => show win2_2.index t (0 : Fin 2) * 128 + 1 * q.val = q.val; rw [e0]; omega
  | ⟨1, _⟩ => show win2_2.index t (1 : Fin 2) * 1 + 1 * j.val = j.val; rw [e1]; omega

/-- The fourth window stages the bias [1,1] whole at every point. -/
theorem r2_blk3 (c : Dev nD) (t : Fin cfg2.N) (z : Fin 1) (j : Fin 1) :
    (iblk2 V c 3 t : Vec Ideal S1x1 .f32) (ix2 z j) = (V c main_v66 : S1x1.Idx → EReal) (ix2 z j) := by
  obtain ⟨-, -, -, -, -, -, e0, e1, -⟩ := r2_idx_facts t
  unfold iblk2
  show V c main_v66 (((cfg2.win 3).blk t).view.emb (ix2 z j)) = V c main_v66 (ix2 z j)
  refine congrArg (V c main_v66) (funext fun a => Fin.ext ?_)
  match a with
  | ⟨0, _⟩ => show win2_3.index t (0 : Fin 2) * 1 + 1 * z.val = z.val; rw [e0]; omega
  | ⟨1, _⟩ => show win2_3.index t (1 : Fin 2) * 1 + 1 * j.val = j.val; rw [e1]; omega

/-- The fifth window stages the second weight column whole at every point. -/
theorem r2_blk4 (c : Dev nD) (t : Fin cfg2.N) (q : Fin 128) (j : Fin 1) :
    (iblk2 V c 4 t : Vec Ideal S128x1 .f32) (ix2 q j) = (V c main_arg11 : S128x1.Idx → EReal) (ix2 q j) := by
  obtain ⟨-, -, -, -, -, -, -, -, e0, e1, -⟩ := r2_idx_facts t
  unfold iblk2
  show V c main_arg11 (((cfg2.win 4).blk t).view.emb (ix2 q j)) = V c main_arg11 (ix2 q j)
  refine congrArg (V c main_arg11) (funext fun a => Fin.ext ?_)
  match a with
  | ⟨0, _⟩ => show win2_4.index t (0 : Fin 2) * 128 + 1 * q.val = q.val; rw [e0]; omega
  | ⟨1, _⟩ => show win2_4.index t (1 : Fin 2) * 1 + 1 * j.val = j.val; rw [e1]; omega

/-- What point t writes back is row block t of the layer's linear part of the arrays the region finds. -/
theorem r2_flushed_eq (c : Dev nD) (t : Fin cfg2.N) :
    (dat2 (F := Ideal) V c).flushed 5 t = ((cfg2.win 5).blk t).view.read (Elt Ideal)
      (Cert.Sage.lin (V c main_v65) (V c main_v52) (V c main_arg9) (V c main_v66) (V c main_arg11)) := by
  show (cfg2.win 5).cut (grid2.coords t) ((dat2 V c).after 5 t) = _
  rw [after2_5]
  unfold out2_5
  rw [View.canon_unit_zero r2_hz]
  simp only [View.ld_unit_zero (S := S5000x128) r2_hz, View.ld_unit_zero (S := S128x1) r2_hz, View.ld_unit_zero (S := S1x1) r2_hz]
  obtain ⟨-, -, -, -, -, -, -, -, -, -, e0, e1⟩ := r2_idx_facts t
  funext y
  obtain ⟨p, j, rfl⟩ : ∃ (p : Fin 5000) (j : Fin 1), y = ix2 p j := ⟨y 0, y 1, eq_ix2 (n0 := 5000) (n1 := 1) y⟩
  show k2_pay1 (iblk2 V c 0 t) (iblk2 V c 1 t) (iblk2 V c 2 t) (iblk2 V c 4 t) (iblk2 V c 3 t) (ix2 p j)
    = Cert.Sage.lin (V c main_v65) (V c main_v52) (V c main_arg9) (V c main_v66) (V c main_arg11)
        (((cfg2.win 5).blk t).view.emb (ix2 p j))
  refine r2_point _ _ _ _ _ _ _ _ _ _ t.val p j _ ?_ ?_ (fun q k' a b => r2_blk0 V c t p q k' a b)
    (fun q k' a b => r2_blk1 V c t p q k' a b) (fun q => r2_blk2 V c t q j) (fun q => r2_blk4 V c t q j) (r2_blk3 V c t 0 j)
  · show win2_5.index t (0 : Fin 2) * 5000 + 1 * p.val = t.val * 5000 + p.val
    rw [e0]; omega
  · show win2_5.index t (1 : Fin 2) * 1 + 1 * j.val = j.val
    rw [e1]; omega

/-- An index of the result column is in point t's block iff each coordinate is in the block's range on its axis. -/
theorem r2_mem_blk (t : Fin cfg2.N) (i : S100000x1.Idx) :
    i ∈ ((cfg2.win 5).blk t).view.set ↔ ∀ a : Fin 2, win2_5.index t a * S5000x1.size a ≤ (i a).val ∧ (i a).val < win2_5.index t a * S5000x1.size a + S5000x1.size a := by
  show i ∈ ((View.whole main_v67).slice (win2_5.rect t)).set ↔ _
  rw [View.set_slice_whole, Rect.mem_set_unit]
  exact Iff.rfl

/-- The twenty row blocks cover the result column: row r is in the block of point r / 5000. -/
theorem r2_cover (i : S100000x1.Idx) :
    ∃ t : Fin cfg2.N, (cfg2.win 5).flush t = true ∧ i ∈ ((cfg2.win 5).blk t).view.set := by
  have hi0 : (i 0).val < 100000 := (i 0).isLt
  have hi1 : (i 1).val < 1 := (i 1).isLt
  have hN : cfg2.N = 20 := N_2
  have ht : (i 0).val / 5000 < cfg2.N := by rw [hN]; omega
  obtain ⟨-, -, -, -, -, -, -, -, -, -, e0, e1⟩ := r2_idx_facts ⟨(i 0).val / 5000, ht⟩
  refine ⟨⟨(i 0).val / 5000, ht⟩, flush2_5 _, ?_⟩
  rw [r2_mem_blk]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win2_5.index ⟨(i 0).val / 5000, ht⟩ (1 : Fin 2) * 1 ≤ (i 1).val ∧ (i 1).val < win2_5.index ⟨(i 0).val / 5000, ht⟩ (1 : Fin 2) * 1 + 1
    rw [e1]
    omega

/-- Region 2 (the actor head's SAGE layer, no activation): after its twenty points the result column holds
    A·wal + X·war + ba of the arrays the region finds. -/
theorem region2_value (c : Dev nD) :
    (dat2 (F := Ideal) V c).arrAt 5 cfg2.N
      = Cert.Sage.lin (V c main_v65) (V c main_v52) (V c main_arg9) (V c main_v66) (V c main_arg11) :=
  (dat2 (F := Ideal) V c).arrAt_eq_of_cover 5 _ (fun t _ => r2_flushed_eq V c t) r2_cover

end Cert.KernelIdeal.Regions
end
-- ==== Proof.Region3.lean ====
/-
  Region 3: the actor's post-processing on the [800,125] re-tiling of the node column.

  The body masks the logits (an entry whose flag exceeds 1/2 becomes −∞), takes the maximum of all 100000 entries in two
  stages (over the rows, then along the one remaining row), subtracts it, exponentiates, sums in the same two stages, and
  subtracts the logarithm of the sum.  Read at the extended reals this is the log-softmax, over every entry, of the masked
  logits: a fold of max from −∞ is a supremum, a supremum of suprema over the two coordinates is the supremum over the
  index set, and likewise for the sums.  The grid has one point and every window is the whole array, so what that point
  writes back is the whole result.
-/
import proofs.«107606_j77086073028793_2_alg».proof.Proof.Gen.KernelIdeal.Frame
import proofs.«107606_j77086073028793_2_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Regions
open Idealize.ShloMosaic Idealize.ShloMosaic.TcCoe Idealize.SL.Sem Idealize.ShloMosaic.ValueIdx Cert.KernelIdeal Cert.KernelIdeal.Gen

/-! ## The two constant words -/

/-- The word 0xFF800000 is −∞. -/
theorem r3_ofBits_neg_inf : Ideal.ofBits .f32 0xFF800000#32 = (⊥ : EReal) := by
  simp [Ideal.ofBits, Ideal.ieee]

/-- The word 0x3F000000 is the real 1/2. -/
theorem r3_ofBits_half : Ideal.ofBits .f32 0x3F000000#32 = ((1 / 2 : ℝ) : EReal) := by
  simp [Ideal.ofBits, Ideal.ieee]
  rw [← EReal.coe_mul]
  exact congrArg _ (by norm_num)

/-! ## The lane reductions read at an index -/

/-- The maximum over the rows, at column q: the supremum over p of the entry (p, q). -/
theorem r3_colMax_apply (y : FVec Ideal S800x125 .f32) (h : S800x125.Reduces [0] S125) (hφ : FKind.Formats .f32)
    (hacc : (0xFF800000#32 : BitVec 32) = FKind.maximumf.neutral .f32 hφ) (q : Fin 125) :
    multiReduction .maximumf [0] S125 y 0xFF800000#32 h hφ hacc (ix1 q)
      = (Finset.univ : Finset (Fin 800)).sup fun p => y (ix2 p q) := by
  refine (Ideal.multiReduction_maximumf_single y _ h hφ hacc (ix1 q)).trans ?_
  show (Finset.univ : Finset (Fin 800)).fold max (Ideal.ofBits .f32 0xFF800000#32) (y ∘ h.lift (ix1 q)) = _
  rw [r3_ofBits_neg_inf]
  show (Finset.univ : Finset (Fin 800)).sup (y ∘ h.lift (ix1 q)) = _
  refine Finset.sup_congr rfl fun p _ => congrArg y (funext fun a => Fin.ext ?_)
  match a with
  | ⟨0, _⟩ => rfl
  | ⟨1, _⟩ => rfl

/-- The maximum along the one row of a [1,125] array: the supremum over q of the entry (u, q). -/
theorem r3_rowMax_apply (z : FVec Ideal S1x125 .f32) (h : S1x125.Reduces [1] S1) (hφ : FKind.Formats .f32)
    (hacc : (0xFF800000#32 : BitVec 32) = FKind.maximumf.neutral .f32 hφ) (u : Fin 1) :
    multiReduction .maximumf [1] S1 z 0xFF800000#32 h hφ hacc (ix1 u)
      = (Finset.univ : Finset (Fin 125)).sup fun q => z (ix2 u q) := by
  refine (Ideal.multiReduction_maximumf_single z _ h hφ hacc (ix1 u)).trans ?_
  show (Finset.univ : Finset (Fin 125)).fold max (Ideal.ofBits .f32 0xFF800000#32) (z ∘ h.lift (ix1 u)) = _
  rw [r3_ofBits_neg_inf]
  show (Finset.univ : Finset (Fin 125)).sup (z ∘ h.lift (ix1 u)) = _
  refine Finset.sup_congr rfl fun q _ => congrArg z (funext fun a => Fin.ext ?_)
  match a with
  | ⟨0, _⟩ => rfl
  | ⟨1, _⟩ => rfl

/-- The sum over the rows, at column q. -/
theorem r3_colSum_apply (y : FVec Ideal S800x125 .f32) (h : S800x125.Reduces [0] S125) (hφ : FKind.Formats .f32)
    (hacc : (0x00000000#32 : BitVec 32) = FKind.add.neutral .f32 hφ) (q : Fin 125) :
    multiReduction .add [0] S125 y 0x00000000#32 h hφ hacc (ix1 q) = ∑ p : Fin 800, y (ix2 p q) := by
  refine (Ideal.multiReduction_add_single y _ h hφ hacc (ix1 q)).trans ?_
  show ∑ p : Fin 800, y (h.lift (ix1 q) p) = _
  refine Finset.sum_congr rfl fun p _ => congrArg y (funext fun a => Fin.ext ?_)
  match a with
  | ⟨0, _⟩ => rfl
  | ⟨1, _⟩ => rfl

/-- The sum along the one row of a [1,125] array. -/
theorem r3_rowSum_apply (z : FVec Ideal S1x125 .f32) (h : S1x125.Reduces [1] S1) (hφ : FKind.Formats .f32)
    (hacc : (0x00000000#32 : BitVec 32) = FKind.add.neutral .f32 hφ) (u : Fin 1) :
    multiReduction .add [1] S1 z 0x00000000#32 h hφ hacc (ix1 u) = ∑ q : Fin 125, z (ix2 u q) := by
  refine (Ideal.multiReduction_add_single z _ h hφ hacc (ix1 u)).trans ?_
  show ∑ q : Fin 125, z (h.lift (ix1 u) q) = _
  refine Finset.sum_congr rfl fun q _ => congrArg z (funext fun a => Fin.ext ?_)
  match a with
  | ⟨0, _⟩ => rfl
  | ⟨1, _⟩ => rfl

/-- A [1,1] array broadcast to [800,125] reads its one entry everywhere. -/
theorem r3_bcast11_apply {α : Type} (v : S1x1.Idx → α) (h : S1x1.Broadcasts S800x125) (i : S800x125.Idx) :
    broadcastTo S800x125 v h i = v (ix2 (0 : Fin 1) (0 : Fin 1)) := by
  refine broadcastTo_apply v h i (ix2 (0 : Fin 1) (0 : Fin 1)) fun ax => ?_
  match ax with
  | ⟨0, _⟩ => rfl
  | ⟨1, _⟩ => rfl

/-! ## Two stages as one -/

/-- The supremum over the columns of the suprema over the rows is the supremum over all entries. -/
theorem r3_sup_cols (y : S800x125.Idx → EReal) :
    ((Finset.univ : Finset (Fin 125)).sup fun q => (Finset.univ : Finset (Fin 800)).sup fun p => y (ix2 p q))
      = Finset.univ.sup y := by
  apply le_antisymm
  · exact Finset.sup_le fun q _ => Finset.sup_le fun p _ => Finset.le_sup (f := y) (Finset.mem_univ (ix2 p q))
  · refine Finset.sup_le fun i _ => ?_
    obtain ⟨p, q, rfl⟩ : ∃ (p : Fin 800) (q : Fin 125), i = ix2 p q := ⟨i 0, i 1, eq_ix2 i⟩
    exact le_trans (Finset.le_sup (f := fun p => y (ix2 p q)) (Finset.mem_univ p))
      (Finset.le_sup (f := fun q => (Finset.univ : Finset (Fin 800)).sup fun p => y (ix2 p q)) (Finset.mem_univ q))

/-- The sum over the columns of the sums over the rows is the sum over all entries. -/
theorem r3_sum_cols (g : S800x125.Idx → EReal) :
    (∑ q : Fin 125, ∑ p : Fin 800, g (ix2 p q)) = ∑ i, g i := by
  rw [sum_idx2, Finset.sum_comm]

/-! ## The kernel's maximum and log-sum, read everywhere -/

/-- The two-stage maximum, cast to [1,1] and broadcast: the supremum of all entries, at every index. -/
theorem r3_maxAll_apply (y : FVec Ideal S800x125 .f32) (h1 : S800x125.Reduces [0] S125) (c1 : S125.ShapeCasts S1x125)
    (h2 : S1x125.Reduces [1] S1) (c2 : S1.ShapeCasts S1x1) (hb : S1x1.Broadcasts S800x125) (hφ : FKind.Formats .f32)
    (hacc : (0xFF800000#32 : BitVec 32) = FKind.maximumf.neutral .f32 hφ) (i : S800x125.Idx) :
    broadcastTo S800x125 (shapeCast S1x1 (multiReduction .maximumf [1] S1
        (shapeCast S1x125 (multiReduction .maximumf [0] S125 y 0xFF800000#32 h1 hφ hacc) c1) 0xFF800000#32 h2 hφ hacc) c2) hb i
      = Finset.univ.sup y := by
  rw [r3_bcast11_apply, shapeCast_a_1a_apply, r3_rowMax_apply, ← r3_sup_cols]
  refine Finset.sup_congr rfl fun q _ => ?_
  rw [shapeCast_a_1a_apply, r3_colMax_apply]

/-- The two-stage sum, cast to [1,1], its logarithm broadcast: the logarithm of the sum of all entries, at every index. -/
theorem r3_logSumAll_apply (e : FVec Ideal S800x125 .f32) (h1 : S800x125.Reduces [0] S125) (c1 : S125.ShapeCasts S1x125)
    (h2 : S1x125.Reduces [1] S1) (c2 : S1.ShapeCasts S1x1) (hb : S1x1.Broadcasts S800x125) (hφ : FKind.Formats .f32)
    (hacc : (0x00000000#32 : BitVec 32) = FKind.add.neutral .f32 hφ) (i : S800x125.Idx) :
    broadcastTo S800x125 (Idealize.ShloMosaic.log (shapeCast S1x1 (multiReduction .add [1] S1
        (shapeCast S1x125 (multiReduction .add [0] S125 e 0x00000000#32 h1 hφ hacc) c1) 0x00000000#32 h2 hφ hacc) c2)) hb i
      = Ideal.log (∑ j, e j) := by
  rw [r3_bcast11_apply]
  show Ideal.log (shapeCast S1x1 _ c2 (ix2 (0 : Fin 1) (0 : Fin 1))) = _
  rw [shapeCast_a_1a_apply, r3_rowSum_apply, ← r3_sum_cols]
  refine congrArg Ideal.log (Finset.sum_congr rfl fun q _ => ?_)
  rw [shapeCast_a_1a_apply, r3_colSum_apply]

/-! ## The payload is the masked log-softmax -/

/-- The select of −∞ where the flag exceeds 1/2 is the masked family. -/
theorem r3_mask_eq (x flag : FVec Ideal S800x125 .f32) (hc : S800x125.ShapeCasts S800x125) :
    (select (cmpf .ogt (shapeCast S800x125 flag hc) (broadcast S800x125 (Scalar.ofBits (F := Ideal) .f32 0x3F000000#32)))
        (broadcast S800x125 (Scalar.ofBits (F := Ideal) .f32 0xFF800000#32)) (shapeCast S800x125 x hc) : FVec Ideal S800x125 .f32)
      = Cert.Sage.masked flag x := by
  rw [shapeCast_self, shapeCast_self]
  funext i
  show Scalar.select (Ideal.cmp .ogt (flag i) (Ideal.ofBits .f32 0x3F000000#32)) (Ideal.ofBits .f32 0xFF800000#32) (x i) = _
  rw [r3_ofBits_half, r3_ofBits_neg_inf]
  show (if BitVec.ofBool (decide (((1 / 2 : ℝ) : EReal) < flag i)) = 1#1 then (⊥ : EReal) else x i)
    = if ((1 / 2 : ℝ) : EReal) < flag i then ⊥ else x i
  by_cases h : ((1 / 2 : ℝ) : EReal) < flag i
  · rw [if_pos h, decide_eq_true h]; rfl
  · rw [if_neg h, decide_eq_false h]; rfl

/-- Subtracting the broadcast maximum and then the broadcast log-sum of the exponentials is the log-softmax. -/
theorem r3_tail_eq (y : FVec Ideal S800x125 .f32) (h1 : S800x125.Reduces [0] S125) (c1 : S125.ShapeCasts S1x125)
    (h2 : S1x125.Reduces [1] S1) (c2 : S1.ShapeCasts S1x1) (hb : S1x1.Broadcasts S800x125) (hφ : FKind.Formats .f32)
    (hmax : (0xFF800000#32 : BitVec 32) = FKind.maximumf.neutral .f32 hφ)
    (hadd : (0x00000000#32 : BitVec 32) = FKind.add.neutral .f32 hφ) :
    subf (subf y (broadcastTo S800x125 (shapeCast S1x1 (multiReduction .maximumf [1] S1
        (shapeCast S1x125 (multiReduction .maximumf [0] S125 y 0xFF800000#32 h1 hφ hmax) c1) 0xFF800000#32 h2 hφ hmax) c2) hb))
      (broadcastTo S800x125 (Idealize.ShloMosaic.log (shapeCast S1x1 (multiReduction .add [1] S1
        (shapeCast S1x125 (multiReduction .add [0] S125
          (Idealize.ShloMosaic.exp (subf y (broadcastTo S800x125 (shapeCast S1x1 (multiReduction .maximumf [1] S1
            (shapeCast S1x125 (multiReduction .maximumf [0] S125 y 0xFF800000#32 h1 hφ hmax) c1) 0xFF800000#32 h2 hφ hmax) c2) hb)))
          0x00000000#32 h1 hφ hadd) c1) 0x00000000#32 h2 hφ hadd) c2)) hb)
      = Cert.Sage.lsm y := by
  funext i
  rw [subf_apply, subf_apply, r3_maxAll_apply, r3_logSumAll_apply]
  unfold Cert.Sage.lsm
  refine congrArg (fun s => (y i - Finset.univ.sup y) - Ideal.log s) (Finset.sum_congr rfl fun j _ => ?_)
  show Ideal.exp (subf y _ j) = _
  rw [subf_apply, r3_maxAll_apply]

/-- The body's arithmetic, as one function of its two loaded blocks: the log-softmax of the masked logits. -/
theorem r3_pay_eq (x flag : Vec Ideal S800x125 .f32) :
    k3_pay1 (F := Ideal) x flag = Cert.Sage.lsm (Cert.Sage.masked flag x) := by
  unfold k3_pay1
  refine (r3_tail_eq _ _ _ _ _ _ _ _ _).trans ?_
  rw [r3_mask_eq]

/-! ## One grid point, every window the whole array -/

theorem r3_zero_offsets : (![0, 0] : Fin 2 → Nat) = fun _ => 0 := funext fun a => by fin_cases a <;> rfl

section Region
variable (V : (c : Dev nD) → (b : Ref sig .tc) → Buf (Elt Ideal) ((c : Thread nD τ).loc b)) (c : Dev nD)

/-- Window 0's one block is the whole array of logits. -/
theorem r3_iblk0_eq (t : Fin cfg3.N) : (iblk3 V c 0 t : Vec Ideal S800x125 .f32) = V c main_v68 := by
  obtain rfl : t = t3_0 := fin_N3 t
  have hz' : (fun a => win3_0.index t3_0 a * main_v68.ty.shape.size a) = fun _ => 0 :=
    funext fun a => by fin_cases a <;> decide +kernel
  exact Memref.read_access_unit_zero (Elt Ideal) main_v68 hz' (fun a => by rw [congrFun hz' a]; simp) (V c main_v68)

/-- Window 1's one block is the whole array of flags. -/
theorem r3_iblk1_eq (t : Fin cfg3.N) : (iblk3 V c 1 t : Vec Ideal S800x125 .f32) = V c main_v69 := by
  obtain rfl : t = t3_0 := fin_N3 t
  have hz' : (fun a => win3_1.index t3_0 a * main_v69.ty.shape.size a) = fun _ => 0 :=
    funext fun a => by fin_cases a <;> decide +kernel
  exact Memref.read_access_unit_zero (Elt Ideal) main_v69 hz' (fun a => by rw [congrFun hz' a]; simp) (V c main_v69)

/-- What the one point writes back is the whole masked log-softmax. -/
theorem r3_flushed_eq (t : Fin cfg3.N) :
    (dat3 (F := Ideal) V c).flushed 2 t
      = ((cfg3.win 2).blk t).view.read (Elt Ideal) (Cert.Sage.lsm (Cert.Sage.masked (V c main_v69) (V c main_v68))) := by
  show (cfg3.win 2).cut (grid3.coords t) ((dat3 V c).after 2 t) = _
  rw [after3_2]
  unfold out3_2
  rw [View.canon_unit_zero r3_zero_offsets]
  simp only [View.ld_unit_zero (S := S800x125) r3_zero_offsets]
  rw [r3_pay_eq, r3_iblk0_eq, r3_iblk1_eq]
  obtain rfl : t = t3_0 := fin_N3 t
  have hz' : (fun a => win3_2.index t3_0 a * main_v70.ty.shape.size a) = fun _ => 0 :=
    funext fun a => by fin_cases a <;> decide +kernel
  exact (Memref.read_access_unit_zero (Elt Ideal) main_v70 hz' (fun a => by rw [congrFun hz' a]; simp) _).symm

/-- The output array after the region: the log-softmax, over all 100000 entries, of the logits with the flagged entries at −∞. -/
theorem region3_value :
    (dat3 (F := Ideal) V c).arrAt 2 cfg3.N = Cert.Sage.lsm (Cert.Sage.masked (V c main_v69) (V c main_v68)) :=
  (dat3 V c).arrAt_eq_of_cover 2 _ (fun t _ => r3_flushed_eq V c t) fun i =>
    ⟨t3_0, flush3_2 t3_0, by
      show i ∈ ((View.whole main_v70).slice (win3_2.rect t3_0)).set
      rw [View.set_slice_whole, Rect.mem_set_unit]
      intro a
      have h0 : (i 0 : Nat) < 800 := (i 0).isLt
      have h1 : (i 1 : Nat) < 125 := (i 1).isLt
      match a with
      | ⟨0, _⟩ =>
        show win3_2.index t3_0 0 * win3_2.size 0 ≤ (i 0 : Nat) ∧ (i 0 : Nat) < win3_2.index t3_0 0 * win3_2.size 0 + win3_2.xsize (grid3.coords t3_0) 0
        rw [show win3_2.index t3_0 0 * win3_2.size 0 = 0 from by decide +kernel, show win3_2.xsize (grid3.coords t3_0) 0 = 800 from by decide +kernel]; omega
      | ⟨1, _⟩ =>
        show win3_2.index t3_0 1 * win3_2.size 1 ≤ (i 1 : Nat) ∧ (i 1 : Nat) < win3_2.index t3_0 1 * win3_2.size 1 + win3_2.xsize (grid3.coords t3_0) 1
        rw [show win3_2.index t3_0 1 * win3_2.size 1 = 0 from by decide +kernel, show win3_2.xsize (grid3.coords t3_0) 1 = 125 from by decide +kernel]; omega⟩

end Region

end Cert.KernelIdeal.Regions

end
-- ==== Proof.Region4.lean ====
import proofs.«107606_j77086073028793_2_alg».proof.Proof.Gen.KernelIdeal.Frame
import proofs.«107606_j77086073028793_2_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Regions
open Idealize.ShloMosaic Idealize.ShloMosaic.TcCoe Idealize.SL.Sem Idealize.ShloMosaic.ValueIdx Cert.KernelIdeal Cert.KernelIdeal.Gen

/-- The zero offsets of a whole-buffer rectangle, as a constant function. -/
theorem r4_hz : (![0, 0] : Fin 2 → Nat) = fun _ => 0 := funext fun a => by fin_cases a <;> rfl

/-- Operand indices of the [5000,128] by [128,128] product at result index i and contraction index q, coordinate by coordinate:
    the left operand is read at (i 0, q), the right one at (q, i 1). -/
theorem r4_mmA_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem r4_mmA_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem r4_mmA_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem r4_mmA_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] by [128,128] product into the zero accumulator, read at (p, j): the sum over the shared axis of the
    products of row p of the left operand with column j of the right one. -/
theorem r4_mmA_apply {φ₁ φ₂ : FTy} (a : FVec Ideal S5000x128 φ₁) (w : FVec Ideal S128x128 φ₂) (p : Fin 5000) (j : Fin 128) :
    matmul dot_S5000x128_S128x128_S5000x128_1_0_0_1_n_n none a w (constant S5000x128 .f32 0x00000000#32) (ix2 p j)
      = ∑ q : Fin 128, a (ix2 p q) * w (ix2 q j) := by
  refine (Ideal.matmul_constant_zero_apply dot_S5000x128_S128x128_S5000x128_1_0_0_1_n_n none a w (ix2 p j)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k :=
    funext fun ax => Fin.ext (by
      match ax with
      | ⟨0, _⟩ => exact r4_mmA_lhs_0 _ _
      | ⟨1, _⟩ => exact (r4_mmA_lhs_1 _ _).trans hk)
  have er : dot_S5000x128_S128x128_S5000x128_1_0_0_1_n_n.rhsIdx (ix2 p j) ((contrEquiv1 dot_S5000x128_S128x128_S5000x128_1_0_0_1_n_n 128 rfl rfl).symm k) = ix2 k j :=
    funext fun ax => Fin.ext (by
      match ax with
      | ⟨0, _⟩ => exact (r4_mmA_rhs_0 _ _).trans hk
      | ⟨1, _⟩ => exact r4_mmA_rhs_1 _ _)
  rw [el, er]

/-- Operand indices of the [5000,128] by [128,1] product at result index i and contraction index q, coordinate by coordinate:
    the left operand is read at (i 0, q), the right one at (q, i 1). -/
theorem r4_mmB_lhs_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem r4_mmB_lhs_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
theorem r4_mmB_rhs_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
theorem r4_mmB_rhs_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- A [5000,128] by [128,1] product into the zero accumulator, read at (p, j): the sum over the shared axis of the
    products of row p of the left operand with column j of the right one. -/
theorem r4_mmB_apply {φ₁ φ₂ : FTy} (a : FVec Ideal S5000x128 φ₁) (w : FVec Ideal S128x1 φ₂) (p : Fin 5000) (j : Fin 1) :
    matmul dot_S5000x128_S128x1_S5000x1_1_0_0_1_n_n none a w (constant S5000x1 .f32 0x00000000#32) (ix2 p j)
      = ∑ q : Fin 128, a (ix2 p q) * w (ix2 q j) := by
  refine (Ideal.matmul_constant_zero_apply dot_S5000x128_S128x1_S5000x1_1_0_0_1_n_n none a w (ix2 p j)).trans ?_
  rw [← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p j) ((contrEquiv1 dot_S5000x128_S128x1_S5000x1_1_0_0_1_n_n 128 rfl rfl).symm k) = ix2 p k :=
    funext fun ax => Fin.ext (by
      match ax with
      | ⟨0, _⟩ => exact r4_mmB_lhs_0 _ _
      | ⟨1, _⟩ => exact (r4_mmB_lhs_1 _ _).trans hk)
  have er : dot_S5000x128_S128x1_S5000x1_1_0_0_1_n_n.rhsIdx (ix2 p j) ((contrEquiv1 dot_S5000x128_S128x1_S5000x1_1_0_0_1_n_n 128 rfl rfl).symm k) = ix2 k j :=
    funext fun ax => Fin.ext (by
      match ax with
      | ⟨0, _⟩ => exact (r4_mmB_rhs_0 _ _).trans hk
      | ⟨1, _⟩ => exact r4_mmB_rhs_1 _ _)
  rw [el, er]

/-- The body's arithmetic read at (p, j): the hidden row p — against column r: row p of the first block against column r
    of the first weight, plus row p of the second block against column r of the second weight, plus the bias at r —
    against column j of the output weight, plus the output bias (the roundings to bf16 are the identity on the extended
    reals, the shape casts are between equal shapes, each bias row is broadcast down the rows). -/
theorem r4_pay_apply (x0 x1 : Vec Ideal S5000x128 .f32) (x2 x4 : Vec Ideal S128x128 .f32) (x3 : Vec Ideal S1x128 .f32)
    (x5 : Vec Ideal S128x1 .f32) (x6 : Vec Ideal S1x1 .f32) (p : Fin 5000) (j : Fin 1) :
    k4_pay1 x0 x1 x2 x4 x3 x5 x6 (ix2 p j)
      = (∑ r : Fin 128, ((∑ q : Fin 128, x0 (ix2 p q) * x2 (ix2 q r)) + (∑ q : Fin 128, x1 (ix2 p q) * x4 (ix2 q r))
            + x3 (ix2 0 r)) * x5 (ix2 r j)) + x6 (ix2 0 j) := by
  unfold k4_pay1
  rw [addf_apply, r4_mmB_apply]
  congr 1
  · refine Finset.sum_congr rfl fun r _ => ?_
    rw [truncf_apply, truncf_apply, addf_apply, addf_apply, r4_mmA_apply, r4_mmA_apply]
    simp only [truncf_apply, shapeCast_self]
    congr 2
    exact broadcastTo_1b_ab_apply x3 broadcasts_S1x128_S5000x128 p r
  · rw [shapeCast_self]
    refine broadcastTo_apply x6 broadcasts_S1x1_S5000x1 (ix2 p j) (ix2 0 j) fun ax => ?_
    match ax with
    | ⟨0, _⟩ => rfl
    | ⟨1, _⟩ =>
      show j.val = if (1 : Nat) = 1 then 0 else j.val
      rw [if_pos rfl]
      have := j.isLt
      omega

/-- One entry of one row block, over abstract blocks: if the two feature blocks are rows n·5000 … of A and X, and the
    weight and bias blocks are Wl, Wr, bc, W and b themselves, the body's value at (p, j) is the second product of the
    layer's linear part at any index k that names row n·5000 + p, column j. -/
theorem r4_point (A X : Cert.Sage.Mat 100000 128) (Wl Wr : Cert.Sage.Mat 128 128) (bc : Cert.Sage.Mat 1 128)
    (W : Cert.Sage.Mat 128 1) (b : Cert.Sage.Mat 1 1)
    (x0 x1 : Vec Ideal S5000x128 .f32) (x2 x4 : Vec Ideal S128x128 .f32) (x3 : Vec Ideal S1x128 .f32)
    (x5 : Vec Ideal S128x1 .f32) (x6 : Vec Ideal S1x1 .f32)
    (n : Nat) (p : Fin 5000) (j : Fin 1) (k : S100000x1.Idx)
    (hk0 : (k 0).val = n * 5000 + p.val) (hk1 : (k 1).val = j.val)
    (h0 : ∀ (q : Fin 128) (k' : S100000x128.Idx), (k' 0).val = n * 5000 + p.val → (k' 1).val = q.val → x0 (ix2 p q) = A k')
    (h1 : ∀ (q : Fin 128) (k' : S100000x128.Idx), (k' 0).val = n * 5000 + p.val → (k' 1).val = q.val → x1 (ix2 p q) = X k')
    (h2 : ∀ q r : Fin 128, x2 (ix2 q r) = Wl (ix2 q r)) (h4 : ∀ q r : Fin 128, x4 (ix2 q r) = Wr (ix2 q r))
    (h3 : ∀ r : Fin 128, x3 (ix2 0 r) = bc (ix2 0 r))
    (h5 : ∀ r : Fin 128, x5 (ix2 r j) = W (ix2 r j)) (h6 : x6 (ix2 0 j) = b (ix2 0 j)) :
    k4_pay1 x0 x1 x2 x4 x3 x5 x6 (ix2 p j) = Cert.Sage.proj (Cert.Sage.lin A X Wl bc Wr) W b k := by
  have hj : (k 1 : Fin 1) = j := Fin.ext hk1
  rw [r4_pay_apply]
  unfold Cert.Sage.proj Cert.Sage.rowDot
  rw [hj, h6]
  congr 1
  refine Finset.sum_congr rfl fun r _ => ?_
  rw [h5 r]
  congr 1
  unfold Cert.Sage.lin Cert.Sage.rowDot
  show _ = (∑ q : Fin 128, A (ix2 (k 0) q) * Wl (ix2 q r)) + (∑ q : Fin 128, X (ix2 (k 0) q) * Wr (ix2 q r)) + bc (ix2 0 r)
  rw [h3 r]
  congr 2
  · refine Finset.sum_congr rfl fun q _ => ?_
    rw [h0 q (ix2 (k 0) q) hk0 rfl, h2 q r]
  · refine Finset.sum_congr rfl fun q _ => ?_
    rw [h1 q (ix2 (k 0) q) hk0 rfl, h4 q r]

variable (V : (c : Dev nD) → (b : Ref sig .tc) → Buf (Elt Ideal) ((c : Thread nD τ).loc b))

/-- The printed block index maps, decided once over the twenty grid points: the two feature windows and the output
    window sit at row block t, column block 0; the weights and the biases are staged whole. -/
theorem r4_idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0
    ∧ True :=
  (by decide +kernel : ∀ t : Fin grid4.N, _)

/-- Row p, column q of the first window's block at point t is the aggregated features at row 5000 t + p, column q. -/
theorem r4_blk0 (c : Dev nD) (t : Fin cfg4.N) (p : Fin 5000) (q : Fin 128) (k : S100000x128.Idx)
    (hk0 : (k 0).val = t.val * 5000 + p.val) (hk1 : (k 1).val = q.val) :
    (iblk4 V c 0 t : Vec Ideal S5000x128 .f32) (ix2 p q) = (V c main_v65 : S100000x128.Idx → EReal) k := by
  obtain ⟨e0, e1, -⟩ := r4_idx_facts t
  unfold iblk4
  show V c main_v65 (((cfg4.win 0).blk t).view.emb (ix2 p q)) = V c main_v65 k
  refine congrArg (V c main_v65) (funext fun a => Fin.ext ?_)
  match a with
  | ⟨0, _⟩ => show win4_0.index t (0 : Fin 2) * 5000 + 1 * p.val = (k 0).val; rw [e0, hk0]; omega
  | ⟨1, _⟩ => show win4_0.index t (1 : Fin 2) * 128 + 1 * q.val = (k 1).val; rw [e1, hk1]; omega

/-- Row p, column q of the second window's block at point t is the node features at row 5000 t + p, column q. -/
theorem r4_blk1 (c : Dev nD) (t : Fin cfg4.N) (p : Fin 5000) (q : Fin 128) (k : S100000x128.Idx)
    (hk0 : (k 0).val = t.val * 5000 + p.val) (hk1 : (k 1).val = q.val) :
    (iblk4 V c 1 t : Vec Ideal S5000x128 .f32) (ix2 p q) = (V c main_v52 : S100000x128.Idx → EReal) k := by
  obtain ⟨-, -, e0, e1, -⟩ := r4_idx_facts t
  unfold iblk4
  show V c main_v52 (((cfg4.win 1).blk t).view.emb (ix2 p q)) = V c main_v52 k
  refine congrArg (V c main_v52) (funext fun a => Fin.ext ?_)
  match a with
  | ⟨0, _⟩ => show win4_1.index t (0 : Fin 2) * 5000 + 1 * p.val = (k 0).val; rw [e0, hk0]; omega
  | ⟨1, _⟩ => show win4_1.index t (1 : Fin 2) * 128 + 1 * q.val = (k 1).val; rw [e1, hk1]; omega

/-- The third window stages the first weight matrix whole at every point. -/
theorem r4_blk2 (c : Dev nD) (t : Fin cfg4.N) (q : Fin 128) (r : Fin 128) :
    (iblk4 V c 2 t : Vec Ideal S128x128 .f32) (ix2 q r) = (V c main_arg12 : S128x128.Idx → EReal) (ix2 q r) := by
  obtain ⟨-, -, -, -, e0, e1, -⟩ := r4_idx_facts t
  unfold iblk4
  show V c main_arg12 (((cfg4.win 2).blk t).view.emb (ix2 q r)) = V c main_arg12 (ix2 q r)
  refine congrArg (V c main_arg12) (funext fun a => Fin.ext ?_)
  match a with
  | ⟨0, _⟩ => show win4_2.index t (0 : Fin 2) * 128 + 1 * q.val = q.val; rw [e0]; omega
  | ⟨1, _⟩ => show win4_2.index t (1 : Fin 2) * 128 + 1 * r.val = r.val; rw [e1]; omega

/-- The fourth window stages the hidden bias row whole at every point. -/
theorem r4_blk3 (c : Dev nD) (t : Fin cfg4.N) (q : Fin 1) (r : Fin 128) :
    (iblk4 V c 3 t : Vec Ideal S1x128 .f32) (ix2 q r) = (V c main_v72 : S1x128.Idx → EReal) (ix2 q r) := by
  obtain ⟨-, -, -, -, -, -, e0, e1, -⟩ := r4_idx_facts t
  unfold iblk4
  show V c main_v72 (((cfg4.win 3).blk t).view.emb (ix2 q r)) = V c main_v72 (ix2 q r)
  refine congrArg (V c main_v72) (funext fun a => Fin.ext ?_)
  match a with
  | ⟨0, _⟩ => show win4_3.index t (0 : Fin 2) * 1 + 1 * q.val = q.val; rw [e0]; omega
  | ⟨1, _⟩ => show win4_3.index t (1 : Fin 2) * 128 + 1 * r.val = r.val; rw [e1]; omega

/-- The fifth window stages the second weight matrix whole at every point. -/
theorem r4_blk4 (c : Dev nD) (t : Fin cfg4.N) (q : Fin 128) (r : Fin 128) :
    (iblk4 V c 4 t : Vec Ideal S128x128 .f32) (ix2 q r) = (V c main_arg14 : S128x128.Idx → EReal) (ix2 q r) := by
  obtain ⟨-, -, -, -, -, -, -, -, e0, e1, -⟩ := r4_idx_facts t
  unfold iblk4
  show V c main_arg14 (((cfg4.win 4).blk t).view.emb (ix2 q r)) = V c main_arg14 (ix2 q r)
  refine congrArg (V c main_arg14) (funext fun a => Fin.ext ?_)
  match a with
  | ⟨0, _⟩ => show win4_4.index t (0 : Fin 2) * 128 + 1 * q.val = q.val; rw [e0]; omega
  | ⟨1, _⟩ => show win4_4.index t (1 : Fin 2) * 128 + 1 * r.val = r.val; rw [e1]; omega

/-- The sixth window stages the output weight column whole at every point. -/
theorem r4_blk5 (c : Dev nD) (t : Fin cfg4.N) (q : Fin 128) (r : Fin 1) :
    (iblk4 V c 5 t : Vec Ideal S128x1 .f32) (ix2 q r) = (V c main_arg15 : S128x1.Idx → EReal) (ix2 q r) := by
  obtain ⟨-, -, -, -, -, -, -, -, -, -, e0, e1, -⟩ := r4_idx_facts t
  unfold iblk4
  show V c main_arg15 (((cfg4.win 5).blk t).view.emb (ix2 q r)) = V c main_arg15 (ix2 q r)
  refine congrArg (V c main_arg15) (funext fun a => Fin.ext ?_)
  match a with
  | ⟨0, _⟩ => show win4_5.index t (0 : Fin 2) * 128 + 1 * q.val = q.val; rw [e0]; omega
  | ⟨1, _⟩ => show win4_5.index t (1 : Fin 2) * 1 + 1 * r.val = r.val; rw [e1]; omega

/-- The seventh window stages the output bias [1,1] whole at every point. -/
theorem r4_blk6 (c : Dev nD) (t : Fin cfg4.N) (q : Fin 1) (r : Fin 1) :
    (iblk4 V c 6 t : Vec Ideal S1x1 .f32) (ix2 q r) = (V c main_v73 : S1x1.Idx → EReal) (ix2 q r) := by
  obtain ⟨-, -, -, -, -, -, -, -, -, -, -, -, e0, e1, -⟩ := r4_idx_facts t
  unfold iblk4
  show V c main_v73 (((cfg4.win 6).blk t).view.emb (ix2 q r)) = V c main_v73 (ix2 q r)
  refine congrArg (V c main_v73) (funext fun a => Fin.ext ?_)
  match a with
  | ⟨0, _⟩ => show win4_6.index t (0 : Fin 2) * 1 + 1 * q.val = q.val; rw [e0]; omega
  | ⟨1, _⟩ => show win4_6.index t (1 : Fin 2) * 1 + 1 * r.val = r.val; rw [e1]; omega

/-- What point t writes back is row block t of the critic's value of the arrays the region finds. -/
theorem r4_flushed_eq (c : Dev nD) (t : Fin cfg4.N) :
    (dat4 (F := Ideal) V c).flushed 7 t = ((cfg4.win 7).blk t).view.read (Elt Ideal)
      (Cert.Sage.proj (Cert.Sage.lin (V c main_v65) (V c main_v52) (V c main_arg12) (V c main_v72) (V c main_arg14))
        (V c main_arg15) (V c main_v73)) := by
  show (cfg4.win 7).cut (grid4.coords t) ((dat4 V c).after 7 t) = _
  rw [after4_7]
  unfold out4_7
  rw [View.canon_unit_zero r4_hz]
  simp only [View.ld_unit_zero (S := S5000x128) r4_hz, View.ld_unit_zero (S := S128x128) r4_hz, View.ld_unit_zero (S := S1x128) r4_hz,
    View.ld_unit_zero (S := S128x1) r4_hz, View.ld_unit_zero (S := S1x1) r4_hz]
  obtain ⟨-, -, -, -, -, -, -, -, -, -, -, -, -, -, e0, e1, -⟩ := r4_idx_facts t
  funext y
  obtain ⟨p, j, rfl⟩ : ∃ (p : Fin 5000) (j : Fin 1), y = ix2 p j := ⟨y 0, y 1, eq_ix2 (n0 := 5000) (n1 := 1) y⟩
  show k4_pay1 (iblk4 V c 0 t) (iblk4 V c 1 t) (iblk4 V c 2 t) (iblk4 V c 4 t) (iblk4 V c 3 t) (iblk4 V c 5 t) (iblk4 V c 6 t) (ix2 p j)
    = Cert.Sage.proj (Cert.Sage.lin (V c main_v65) (V c main_v52) (V c main_arg12) (V c main_v72) (V c main_arg14))
        (V c main_arg15) (V c main_v73) (((cfg4.win 7).blk t).view.emb (ix2 p j))
  refine r4_point _ _ _ _ _ _ _ _ _ _ _ _ _ _ t.val p j _ ?_ ?_ (fun q k' a b => r4_blk0 V c t p q k' a b)
    (fun q k' a b => r4_blk1 V c t p q k' a b) (fun q r => r4_blk2 V c t q r) (fun q r => r4_blk4 V c t q r)
    (fun r => r4_blk3 V c t 0 r) (fun r => r4_blk5 V c t r j) (r4_blk6 V c t 0 j)
  · show win4_7.index t (0 : Fin 2) * 5000 + 1 * p.val = t.val * 5000 + p.val
    rw [e0]; omega
  · show win4_7.index t (1 : Fin 2) * 1 + 1 * j.val = j.val
    rw [e1]; omega

/-- An index of the result column is in point t's block iff each coordinate is in the block's range on its axis. -/
theorem r4_mem_blk (t : Fin cfg4.N) (i : S100000x1.Idx) :
    i ∈ ((cfg4.win 7).blk t).view.set ↔ ∀ a : Fin 2, win4_7.index t a * S5000x1.size a ≤ (i a).val ∧ (i a).val < win4_7.index t a * S5000x1.size a + S5000x1.size a := by
  show i ∈ ((View.whole main_v74).slice (win4_7.rect t)).set ↔ _
  rw [View.set_slice_whole, Rect.mem_set_unit]
  exact Iff.rfl

/-- The twenty row blocks cover the result column: row r is in the block of point r / 5000. -/
theorem r4_cover (i : S100000x1.Idx) :
    ∃ t : Fin cfg4.N, (cfg4.win 7).flush t = true ∧ i ∈ ((cfg4.win 7).blk t).view.set := by
  have hi0 : (i 0).val < 100000 := (i 0).isLt
  have hi1 : (i 1).val < 1 := (i 1).isLt
  have hN : cfg4.N = 20 := N_4
  have ht : (i 0).val / 5000 < cfg4.N := by rw [hN]; omega
  obtain ⟨-, -, -, -, -, -, -, -, -, -, -, -, -, -, e0, e1, -⟩ := r4_idx_facts ⟨(i 0).val / 5000, ht⟩
  refine ⟨⟨(i 0).val / 5000, ht⟩, flush4_7 _, ?_⟩
  rw [r4_mem_blk]
  intro a
  match a with
  | ⟨0, _⟩ =>
    show win4_7.index ⟨(i 0).val / 5000, ht⟩ (0 : Fin 2) * 5000 ≤ (i 0).val ∧ (i 0).val < win4_7.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win4_7.index ⟨(i 0).val / 5000, ht⟩ (1 : Fin 2) * 1 ≤ (i 1).val ∧ (i 1).val < win4_7.index ⟨(i 0).val / 5000, ht⟩ (1 : Fin 2) * 1 + 1
    rw [e1]
    omega

/-- Region 4 (the critic's dense stage): after its twenty points the result column holds
    (A·wcl + X·wcr + bc)·fcw + fcb of the arrays the region finds. -/
theorem region4_value (c : Dev nD) :
    (dat4 (F := Ideal) V c).arrAt 7 cfg4.N
      = Cert.Sage.proj (Cert.Sage.lin (V c main_v65) (V c main_v52) (V c main_arg12) (V c main_v72) (V c main_arg14))
          (V c main_arg15) (V c main_v73) :=
  (dat4 (F := Ideal) V c).arrAt_eq_of_cover 7 _ (fun t _ => r4_flushed_eq V c t) r4_cover

end Cert.KernelIdeal.Regions
end
-- ==== Proof.RefSoftmax.lean ====
/-
  The reference's log_softmax over the node column [100000,1], read as the log-softmax of the specification.

  jax's log_softmax is inlined in the reference as: the maximum of the column by a reduce from −∞, joined once more with −∞,
  broadcast back and subtracted; the exponentials summed by a reduce from 0; the logarithm of the sum broadcast back and
  subtracted.  At the extended reals the reduce with a maximum body is the supremum over the 100000 rows, which is the
  supremum over the index set of the column (its second coordinate has one value), and the sum over the rows is the sum
  over that index set.
-/
import proofs.«107606_j77086073028793_2_alg».proof.Proof.ReadP
import proofs.«107606_j77086073028793_2_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.ReferenceIdeal.RefValue
open Idealize.ShloMosaic Idealize.ShloMosaic.TcCoe Idealize.SL.Sem Idealize.ShloMosaic.ValueIdx Cert.ReferenceIdeal Cert.ReferenceIdeal.Read

/-- The word 0xFF800000 is −∞. -/
theorem sm_ofBits_neg_inf : Ideal.ofBits .f32 0xFF800000#32 = (⊥ : EReal) := by
  simp [Ideal.ofBits, Ideal.ieee]

/-- The only index of a [1] array. -/
theorem sm_idx1_eq (j j' : S1.Idx) : j = j' := by
  funext b
  match b with
  | ⟨0, _⟩ =>
    apply Fin.ext
    have h1 : (j ⟨0, Nat.one_pos⟩).val < 1 := (j ⟨0, Nat.one_pos⟩).isLt
    have h2 : (j' ⟨0, Nat.one_pos⟩).val < 1 := (j' ⟨0, Nat.one_pos⟩).isLt
    show (j ⟨0, Nat.one_pos⟩).val = (j' ⟨0, Nat.one_pos⟩).val
    omega

/-- A reduce with a maximum body over the rows of a column, from −∞: the supremum of the column. -/
theorem sm_hostMax_col (a : FVec Ideal S100000x1 .f32) (init : S_.Idx → Ideal .f32) (hu : 0 < S_.numel)
    (hinit : ∀ k, init k = (⊥ : EReal)) (h' : S100000x1.ReducesTo [0] S1) (j : S1.Idx) :
    Host.reduce FloatOps.maximumf a init h' hu j = Finset.univ.sup a := by
  have h : S100000x1.Reduces [0] S1 := by decide
  rw [Host.reduce_eq_fold_single FloatOps.maximumf a init h' h hu, hinit]
  show (Finset.univ : Finset (Fin 100000)).sup (a ∘ h.lift j) = _
  apply le_antisymm
  · exact Finset.sup_le fun k _ => Finset.le_sup (f := a) (Finset.mem_univ (h.lift j k))
  · refine Finset.sup_le fun i _ => ?_
    have e : h.lift j (i 0) = i := by rw [sm_idx1_eq j (h.drop i)]; exact h.lift_drop i
    calc a i = (a ∘ h.lift j) (i 0) := by rw [Function.comp, e]
      _ ≤ _ := Finset.le_sup (f := a ∘ h.lift j) (Finset.mem_univ (i 0))

/-- The sum over the rows of a column is the sum over its index set. -/
theorem sm_sum_col (g : S100000x1.Idx → EReal) : (∑ k : Fin 100000, g (ix2 k (0 : Fin 1))) = ∑ i, g i := by
  rw [sum_idx2]
  refine Finset.sum_congr rfl fun k _ => ?_
  rw [Fin.sum_univ_one]

/-- The reference's log_softmax of the masked logits is the specification's log-softmax of them. -/
theorem ref_v92_eq (x0 : (⟨S100000x7, .f32⟩ : BufTy).Contents (Elt Ideal)) (x1 : (⟨S2x1600000, .i32⟩ : BufTy).Contents (Elt Ideal)) (x3 : (⟨S7x128, .f32⟩ : BufTy).Contents (Elt Ideal)) (x4 : (⟨S128, .f32⟩ : BufTy).Contents (Elt Ideal)) (x5 : (⟨S7x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x1, .f32⟩ : BufTy).Contents (Elt Ideal)) (x10 : (⟨S1, .f32⟩ : BufTy).Contents (Elt Ideal)) (x11 : (⟨S128x1, .f32⟩ : BufTy).Contents (Elt Ideal)) :
    val_main_v92 (F := Ideal) x0 x1 x3 x4 x5 x6 x7 x8 x9 x10 x11
      = Cert.Sage.lsm (val_main_v91 (F := Ideal) x0 x1 x3 x4 x5 x6 x7 x8 x9 x10 x11) := by
  have hM : ∀ j : S1.Idx, val_main_call1_v2 (F := Ideal) x0 x1 x3 x4 x5 x6 x7 x8 x9 x10 x11 j = Finset.univ.sup (val_main_v91 (F := Ideal) x0 x1 x3 x4 x5 x6 x7 x8 x9 x10 x11) := by
    intro j
    rw [val_main_call1_v2_apply, val_main_call1_v1_apply, val_main_call1_cst_0_apply]
    unfold val_main_call1_v0
    rw [sm_hostMax_col _ (val_main_call1_cst (F := Ideal)) _ (fun k => (val_main_call1_cst_apply k).trans sm_ofBits_neg_inf)]
    rw [Ideal.maximumf_def, Ideal.ofBits_def, sm_ofBits_neg_inf]
    exact max_eq_right bot_le
  have h5 : ∀ j : S100000x1.Idx, val_main_call1_v5 (F := Ideal) x0 x1 x3 x4 x5 x6 x7 x8 x9 x10 x11 j
      = val_main_v91 (F := Ideal) x0 x1 x3 x4 x5 x6 x7 x8 x9 x10 x11 j - Finset.univ.sup (val_main_v91 (F := Ideal) x0 x1 x3 x4 x5 x6 x7 x8 x9 x10 x11) := by
    intro j
    rw [val_main_call1_v5_apply, val_main_call1_v4_apply, val_main_call1_v3_apply, hM]
    rfl
  funext i
  rw [val_main_v92_apply, h5, val_main_call1_v10_apply, val_main_call1_v9_apply, val_main_call1_v8_apply,
    val_main_call1_v7_apply, val_main_call1_cst_1_apply]
  rw [Ideal.subf_def, Ideal.hostUnary_log_def, Ideal.ofBits_def, Ideal.ofBits_zero_f32, zero_add]
  unfold Cert.Sage.lsm
  refine congrArg (fun s => (val_main_v91 (F := Ideal) x0 x1 x3 x4 x5 x6 x7 x8 x9 x10 x11 i - Finset.univ.sup (val_main_v91 (F := Ideal) x0 x1 x3 x4 x5 x6 x7 x8 x9 x10 x11)) - Ideal.log s) ?_
  rw [← sm_sum_col]
  refine Finset.sum_congr rfl fun k _ => ?_
  rw [val_main_call1_v6_apply, Ideal.hostUnary_exp_def, h5]
  refine congrArg (fun z => Ideal.exp (val_main_v91 (F := Ideal) x0 x1 x3 x4 x5 x6 x7 x8 x9 x10 x11 z - Finset.univ.sup (val_main_v91 (F := Ideal) x0 x1 x3 x4 x5 x6 x7 x8 x9 x10 x11))) ?_
  funext b
  apply Fin.ext
  match b with
  | ⟨0, _⟩ => rfl
  | ⟨1, _⟩ => rfl

end Cert.ReferenceIdeal.RefValue

end
-- ==== Proof.lean ====
/-
  The certificate of a two-layer GraphSAGE with an actor and a critic head: a program of five TensorCore regions (the
  three dense SAGE stages, the critic's dense stage and the actor's log-softmax over all nodes) among host gathers and
  scatter-adds, against a plain jnp reference.  Read over the extended reals the two programs are one function of the
  arguments: the regions compute the layers' linear parts row block by row block (a matrix product is a sum over the
  shared axis whatever the tiling, and format changes are the identity), the neighbour mean the first program takes as
  a product with the reciprocal of the clamped in-degree is the reference's quotient (the clamp keeps the divisor off
  zero, and then s · (1/c) = s / c for every extended real s), the log-softmax over the [800,125] re-tiling of the node
  column is the log-softmax over the column (a supremum and a sum over all nodes do not see the tiling), and the critic's
  pooling is the same host operations in both.  The frames are the generated ones; the reference's frame is its run.
-/
import proofs.«107606_j77086073028793_2_alg».proof.Defs
import proofs.«107606_j77086073028793_2_alg».proof.Proof.Gen.Kernel
import proofs.«107606_j77086073028793_2_alg».proof.Proof.Gen.Kernel.Skeleton
import proofs.«107606_j77086073028793_2_alg».proof.Proof.Gen.Kernel.Launch
import proofs.«107606_j77086073028793_2_alg».proof.Proof.Gen.Kernel.Points
import proofs.«107606_j77086073028793_2_alg».proof.Proof.Gen.Kernel.Frame
import proofs.«107606_j77086073028793_2_alg».proof.Proof.Gen.KernelIdeal
import proofs.«107606_j77086073028793_2_alg».proof.Proof.Gen.KernelIdeal.Skeleton
import proofs.«107606_j77086073028793_2_alg».proof.Proof.Gen.KernelIdeal.Launch
import proofs.«107606_j77086073028793_2_alg».proof.Proof.Gen.KernelIdeal.Points
import proofs.«107606_j77086073028793_2_alg».proof.Proof.Gen.KernelIdeal.Frame
import proofs.«107606_j77086073028793_2_alg».proof.Proof.Gen.ReferenceIdeal
import proofs.«107606_j77086073028793_2_alg».proof.Proof.RefRunStaged
import proofs.«107606_j77086073028793_2_alg».proof.Proof.Gen.Pre_finite_inputs
import proofs.«107606_j77086073028793_2_alg».proof.Proof.KernelRun
import proofs.«107606_j77086073028793_2_alg».proof.Proof.KvLayers
import proofs.«107606_j77086073028793_2_alg».proof.Proof.Region0
import proofs.«107606_j77086073028793_2_alg».proof.Proof.Region1
import proofs.«107606_j77086073028793_2_alg».proof.Proof.Region2
import proofs.«107606_j77086073028793_2_alg».proof.Proof.Region3
import proofs.«107606_j77086073028793_2_alg».proof.Proof.Region4
import proofs.«107606_j77086073028793_2_alg».proof.Proof.RefSoftmax
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the results dropped. -/
theorem frame_referenceIdeal : Cert.frame_ReferenceIdeal := fun m ρ _ =>
  (θ_run Cert.ReferenceIdeal.defs _ _).mono (fun _ h c => (h c).2.2) (Cert.ReferenceIdeal.ValueOps.run_staged m ρ)

/-- The idealization rewrote nothing. -/
theorem preserves : Cert.preserves_Kernel_KernelIdeal := trivial

open Cert.KernelIdeal.HostValue Cert.KernelIdeal.Regions Cert.ReferenceIdeal.RefValue in
/-- From memories agreeing on the arguments both programs end with the reference's two stages of those arguments. -/
theorem algebraic : Cert.algebraic_KernelIdeal_ReferenceIdeal := by
  intro m ρ m' ρ' _ hagree
  refine ⟨_, _, Cert.KernelIdeal.RunValue.run_values (F := Ideal) m ρ, ?_⟩
  refine (θ_run Cert.ReferenceIdeal.defs _ _).mono (fun _ h c => ⟨(h c).1.trans ?_, (h c).2.1.trans ?_, (h c).2.2⟩)
    (Cert.ReferenceIdeal.ValueOps.run_staged m' ρ')
  · obtain ⟨h0, h1, h2, h3, h4, h5, h6, h7, h8, h9, h10, h11, h12, h13, h14, h15, h16⟩ := hagree c
    rw [h0, h1, h3, h4, h5, h6, h7, h8, h9, h10, h11]
    exact (W11_v71 m ρ c region0_value region1_value region2_value region3_value ref_v92_eq).symm
  · obtain ⟨h0, h1, h2, h3, h4, h5, h6, h7, h8, h9, h10, h11, h12, h13, h14, h15, h16⟩ := hagree c
    rw [h0, h1, h2, h3, h4, h5, h6, h7, h8, h12, h13, h14, h15, h16]
    exact (W11_v86 m ρ c region0_value region1_value region4_value).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
